-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x3 : S_.BroadcastsInDim S800000x3 (![] : Fin 0 → Fin S800000x3.rank)
  reducesTo_S800000x3_S_d0_1 : S800000x3.ReducesTo [0, 1] S_
  bcast_S_S128x128 : S_.BroadcastsInDim S128x128 (![] : Fin 0 → Fin S128x128.rank)
  reducesTo_S128x128_S_d0_1 : S128x128.ReducesTo [0, 1] S_
  bcast_S_S3x4 : S_.BroadcastsInDim S3x4 (![] : Fin 0 → Fin S3x4.rank)
  reducesTo_S3x4_S_d0_1 : S3x4.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S128 .f32) (main_arg9 : FVec F S256x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S3x4 .f32) (main_arg7 : FVec F S128x128 .f32) (main_arg8 : FVec F S128 .f32) (main_arg9 : FVec F S256x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S3x4 .f32 := Host.absf main_arg6
  let main_cst_8 : FVec F S_ .f32 := constant S_ .f32 0x7F800000#32
  let main_v25 : FVec F S3x4 .f32 := broadcastInDim S3x4 ![] bcast_S_S3x4 main_cst_8
  let main_v26 : IVec S3x4 1 := cmpf .olt main_v24 main_v25
  let main_c_9 : IVec S_ 1 := constantI S_ 1 1#1
  let main_v27 : IVec S_ 1 := (fun x v => Host.reduce IntOp.andi x v reducesTo_S3x4_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x3 .f32) (main_arg3 : FVec F S128x128 .f32) (main_arg4 : FVec F S128x128 .f32) (main_arg5 : FVec F S128x128 .f32) (main_arg6 : FVec F S3x4 .f32) (main_arg7 : FVec F S128x128 .f32) (main_arg8 : FVec F S128 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x3 .f32 := Host.absf main_arg2
  let main_cst_0 : FVec F S_ .f32 := constant S_ .f32 0x7F800000#32
  let main_v5 : FVec F S800000x3 .f32 := broadcastInDim S800000x3 ![] bcast_S_S800000x3 main_cst_0
  let main_v6 : IVec S800000x3 1 := cmpf .olt main_v4 main_v5
  let main_c_1 : IVec S_ 1 := constantI S_ 1 1#1
  let main_v7 : IVec S_ 1 := (fun x v => Host.reduce IntOp.andi x v reducesTo_S800000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S128x384 : Shape := ⟨2, ![128, 384]⟩
abbrev S50000x384 : Shape := ⟨2, ![50000, 384]⟩
abbrev S2000x128 : Shape := ⟨2, ![2000, 128]⟩
abbrev S2000x384 : Shape := ⟨2, ![2000, 384]⟩
abbrev S800000x4 : Shape := ⟨2, ![800000, 4]⟩
abbrev S_ : Shape := ⟨0, ![]⟩
abbrev S800000x1 : Shape := ⟨2, ![800000, 1]⟩
abbrev S800000x128 : Shape := ⟨2, ![800000, 128]⟩
abbrev S800000x4x32 : Shape := ⟨3, ![800000, 4, 32]⟩
abbrev S50000x4 : Shape := ⟨2, ![50000, 4]⟩
abbrev S800000x4x1 : Shape := ⟨3, ![800000, 4, 1]⟩
abbrev S50000x4x32 : Shape := ⟨3, ![50000, 4, 32]⟩
abbrev S1x128 : Shape := ⟨2, ![1, 128]⟩

abbrev nBuf : Space → Nat
  | .hbm => 90
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x4, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S128x384, .f32⟩
  | .hbm, ⟨16, _⟩ => ⟨S50000x384, .bf16⟩
  | .hbm, ⟨17, _⟩ => ⟨S50000x128, .bf16⟩
  | .hbm, ⟨18, _⟩ => ⟨S50000x128, .bf16⟩
  | .hbm, ⟨19, _⟩ => ⟨S50000x128, .bf16⟩
  | .hbm, ⟨20, _⟩ => ⟨S800000x4, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .bf16⟩
  | .hbm, ⟨48, _⟩ => ⟨S800000x128, .f32⟩
  | .hbm, ⟨49, _⟩ => ⟨S800000x4x32, .f32⟩
  | .hbm, ⟨50, _⟩ => ⟨S800000x128, .f32⟩
  | .hbm, ⟨51, _⟩ => ⟨S800000x4x32, .f32⟩
  | .hbm, ⟨52, _⟩ => ⟨S800000x4x32, .f32⟩
  | .hbm, ⟨53, _⟩ => ⟨S_, .f32⟩
  | .hbm, ⟨54, _⟩ => ⟨S800000x4, .f32⟩
  | .hbm, ⟨55, _⟩ => ⟨S_, .f32⟩
  | .hbm, ⟨56, _⟩ => ⟨S800000x4, .f32⟩
  | .hbm, ⟨57, _⟩ => ⟨S800000x4, .f32⟩
  | .hbm, ⟨58, _⟩ => ⟨S800000x4, .f32⟩
  | .hbm, ⟨59, _⟩ => ⟨S_, .f32⟩
  | .hbm, ⟨60, _⟩ => ⟨S800000x4, .f32⟩
  | .hbm, ⟨61, _⟩ => ⟨S800000x4, .i1⟩
  | .hbm, ⟨62, _⟩ => ⟨S_, .f32⟩
  | .hbm, ⟨63, _⟩ => ⟨S800000x4, .f32⟩
  | .hbm, ⟨64, _⟩ => ⟨S800000x4, .f32⟩
  | .hbm, ⟨65, _⟩ => ⟨S800000x4, .f32⟩
  | .hbm, ⟨66, _⟩ => ⟨S_, .f32⟩
  | .hbm, ⟨67, _⟩ => ⟨S_, .f32⟩
  | .hbm, ⟨68, _⟩ => ⟨S800000x4, .f32⟩
  | .hbm, ⟨69, _⟩ => ⟨S800000x4, .f32⟩
  | .hbm, ⟨70, _⟩ => ⟨S800000x4, .f32⟩
  | .hbm, ⟨71, _⟩ => ⟨S_, .f32⟩
  | .hbm, ⟨72, _⟩ => ⟨S50000x4, .f32⟩
  | .hbm, ⟨73, _⟩ => ⟨S800000x1, .i32⟩
  | .hbm, ⟨74, _⟩ => ⟨S50000x4, .f32⟩
  | .hbm, ⟨75, _⟩ => ⟨S800000x128, .f32⟩
  | .hbm, ⟨76, _⟩ => ⟨S800000x4x32, .f32⟩
  | .hbm, ⟨77, _⟩ => ⟨S800000x4x1, .f32⟩
  | .hbm, ⟨78, _⟩ => ⟨S800000x4x32, .f32⟩
  | .hbm, ⟨79, _⟩ => ⟨S800000x4x32, .f32⟩
  | .hbm, ⟨80, _⟩ => ⟨S800000x128, .f32⟩
  | .hbm, ⟨81, _⟩ => ⟨S_, .f32⟩
  | .hbm, ⟨82, _⟩ => ⟨S50000x128, .f32⟩
  | .hbm, ⟨83, _⟩ => ⟨S800000x1, .i32⟩
  | .hbm, ⟨84, _⟩ => ⟨S50000x128, .f32⟩
  | .hbm, ⟨85, _⟩ => ⟨S50000x4x32, .f32⟩
  | .hbm, ⟨86, _⟩ => ⟨S50000x128, .f32⟩
  | .hbm, ⟨87, _⟩ => ⟨S128x128, .f32⟩
  | .hbm, ⟨88, _⟩ => ⟨S128x128, .f32⟩
  | .hbm, ⟨89, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .bf16⟩
  | .local _ .vmem, ⟨4, _⟩ => ⟨S2000x384, .bf16⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_cst_5 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_cst_7 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  packedbf16_S2000x384_S2000x384_0_0 : (Rect.unit (s := S2000x384) ![0, 0] S2000x384.size inb_S2000x384_S2000x384_0_0).PackedRows (EltTy.packing .bf16)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S800000 : S_.BroadcastsInDim S800000 (![] : Fin 0 → Fin S800000.rank)
  bcast_S800000_S800000x1_0 : S800000.BroadcastsInDim S800000x1 (![0] : Fin 1 → Fin S800000x1.rank)
  shapeCasts_S800000x128_S800000x4x32 : S800000x128.ShapeCasts S800000x4x32
  reducesTo_S800000x4x32_S800000x4_d2 : S800000x4x32.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  shapeCasts_S800000x4x32_S800000x128 : S800000x4x32.ShapeCasts S800000x128
  bcast_S_S50000x128 : S_.BroadcastsInDim S50000x128 (![] : Fin 0 → Fin S50000x128.rank)
  bcast_S50000x4_S50000x4x32_0_1 : S50000x4.BroadcastsInDim S50000x4x32 (![0, 1] : Fin 2 → Fin S50000x4x32.rank)
  shapeCasts_S50000x4x32_S50000x128 : S50000x4x32.ShapeCasts S50000x128
  slices_S256x128_S128x128_0_0 : S256x128.Slices ![0, 0] S128x128
  slices_S256x128_S128x128_128_0 : S256x128.Slices ![128, 0] S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  shapeCasts_S128x128_S128x128 : S128x128.ShapeCasts S128x128
  dot_S2000x128_S128x384_S2000x384_1_0_0_1_n_n_wf : DotDims.WF S2000x128 S128x384 S2000x384 [1] [0] [0] [1] [] []
  dot_S800000x3_S3x4_S800000x4_1_0_0_1_n_n_wf : DotDims.WF S800000x3 S3x4 S800000x4 [1] [0] [0] [1] [] []
  gather_S50000x128_S800000x1_S800000x128_1_0_n_n_0_1_1128_wf : GatherDims.WF S50000x128 S800000x1 S800000x128 [1] [0] [] [0] [] 1 ![1, 128]
  scatter_S50000x4_S800000x1_S800000x4_1_0_0_1_wf : ScatterDims.WF S50000x4 S800000x1 S800000x4 [1] [0] [0] 1
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .bf16 = 32 ∨ (Rect.block (s := S50000x384) S2000x384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S800000x3_S3x4_S800000x4_1_0_0_1_n_n : DotDims S800000x3 S3x4 S800000x4 where
  lhsContracting := [1]
  rhsContracting := [0]
  lhsNonContracting := [0]
  rhsNonContracting := [1]
  lhsBatch := []
  rhsBatch := []
  wf := dot_S800000x3_S3x4_S800000x4_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x3 : Shape := ⟨2, ![800000, 3]⟩
abbrev S128x128 : Shape := ⟨2, ![128, 128]⟩
abbrev S3x4 : Shape := ⟨2, ![3, 4]⟩
abbrev S128 : Shape := ⟨1, ![128]⟩
abbrev S256x128 : Shape := ⟨2, ![256, 128]⟩
abbrev S1x800000 : Shape := ⟨2, ![1, 800000]⟩
abbrev S800000 : Shape := ⟨1, ![800000]⟩
abbrev S50000x4x32 : Shape := ⟨3, ![50000, 4, 32]⟩
abbrev S800000x4 : Shape := ⟨2, ![800000, 4]⟩
abbrev S_ : Shape := ⟨0, ![]⟩
abbrev S800000x1 : Shape := ⟨2, ![800000, 1]⟩
abbrev S800000x4x32 : Shape := ⟨3, ![800000, 4, 32]⟩
abbrev S50000x4 : Shape := ⟨2, ![50000, 4]⟩
abbrev S800000x4x1 : Shape := ⟨3, ![800000, 4, 1]⟩
abbrev S1x128 : Shape := ⟨2, ![1, 128]⟩
abbrev S50000x256 : Shape := ⟨2, ![50000, 256]⟩

abbrev nBuf : Space → Nat
  | .hbm => 105
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x3, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S3x4, .f32⟩
  | .hbm, ⟨7, _⟩ => ⟨S128x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S50000x4x32, .f32⟩
  | .hbm, ⟨17, _⟩ => ⟨S50000x128, .f32⟩
  | .hbm, ⟨18, _⟩ => ⟨S50000x4x32, .f32⟩
  | .hbm, ⟨19, _⟩ => ⟨S50000x128, .f32⟩
  | .hbm, ⟨20, _⟩ => ⟨S50000x4x32, .f32⟩
  | .hbm, ⟨21, _⟩ => ⟨S800000x4, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x4x32, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x4x32, .f32⟩
  | .hbm, ⟨40, _⟩ => ⟨S800000x4x32, .f32⟩
  | .hbm, ⟨41, _⟩ => ⟨S_, .f32⟩
  | .hbm, ⟨42, _⟩ => ⟨S800000x4, .f32⟩
  | .hbm, ⟨43, _⟩ => ⟨S_, .f32⟩
  | .hbm, ⟨44, _⟩ => ⟨S800000x4, .f32⟩
  | .hbm, ⟨45, _⟩ => ⟨S800000x4, .f32⟩
  | .hbm, ⟨46, _⟩ => ⟨S800000x4, .f32⟩
  | .hbm, ⟨47, _⟩ => ⟨S_, .f32⟩
  | .hbm, ⟨48, _⟩ => ⟨S800000x4, .f32⟩
  | .hbm, ⟨49, _⟩ => ⟨S800000x4, .i1⟩
  | .hbm, ⟨50, _⟩ => ⟨S_, .f32⟩
  | .hbm, ⟨51, _⟩ => ⟨S800000x4, .f32⟩
  | .hbm, ⟨52, _⟩ => ⟨S800000x4, .f32⟩
  | .hbm, ⟨53, _⟩ => ⟨S800000x4, .f32⟩
  | .hbm, ⟨54, _⟩ => ⟨S_, .f32⟩
  | .hbm, ⟨55, _⟩ => ⟨S_, .f32⟩
  | .hbm, ⟨56, _⟩ => ⟨S800000x4, .f32⟩
  | .hbm, ⟨57, _⟩ => ⟨S800000x4, .f32⟩
  | .hbm, ⟨58, _⟩ => ⟨S800000x4, .f32⟩
  | .hbm, ⟨59, _⟩ => ⟨S_, .f32⟩
  | .hbm, ⟨60, _⟩ => ⟨S50000x4, .f32⟩
  | .hbm, ⟨61, _⟩ => ⟨S800000x1, .i32⟩
  | .hbm, ⟨62, _⟩ => ⟨S50000x4, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x4, .f32⟩
  | .hbm, ⟨72, _⟩ => ⟨S_, .f32⟩
  | .hbm, ⟨73, _⟩ => ⟨S800000x4, .f32⟩
  | .hbm, ⟨74, _⟩ => ⟨S800000x4, .f32⟩
  | .hbm, ⟨75, _⟩ => ⟨S800000x4, .f32⟩
  | .hbm, ⟨76, _⟩ => ⟨S_, .i32⟩
  | .hbm, ⟨77, _⟩ => ⟨S800000, .i32⟩
  | .hbm, ⟨78, _⟩ => ⟨S800000, .i1⟩
  | .hbm, ⟨79, _⟩ => ⟨S_, .i32⟩
  | .hbm, ⟨80, _⟩ => ⟨S800000, .i32⟩
  | .hbm, ⟨81, _⟩ => ⟨S800000, .i32⟩
  | .hbm, ⟨82, _⟩ => ⟨S800000, .i32⟩
  | .hbm, ⟨83, _⟩ => ⟨S800000x1, .i32⟩
  | .hbm, ⟨84, _⟩ => ⟨S800000x4x32, .f32⟩
  | .hbm, ⟨85, _⟩ => ⟨S800000x4x1, .f32⟩
  | .hbm, ⟨86, _⟩ => ⟨S800000x4x32, .f32⟩
  | .hbm, ⟨87, _⟩ => ⟨S800000x4x32, .f32⟩
  | .hbm, ⟨88, _⟩ => ⟨S_, .f32⟩
  | .hbm, ⟨89, _⟩ => ⟨S50000x4x32, .f32⟩
  | .hbm, ⟨90, _⟩ => ⟨S800000x1, .i32⟩
  | .hbm, ⟨91, _⟩ => ⟨S50000x4x32, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S50000x256, .f32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_1 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_11 : Ref sig .tc := ⟨.hbm, 76, rfl⟩
abbrev main_v52 : Ref sig .tc := ⟨.hbm, 77, rfl⟩
abbrev main_v53 : Ref sig .tc := ⟨.hbm, 78, rfl⟩
abbrev main_c_12 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_call1_cst : Ref sig .tc := ⟨.hbm, 102, rfl⟩
abbrev main_call1_v0 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000x128_S50000x4x32 : S50000x128.ShapeCasts S50000x4x32
  bcast_S_S800000 : S_.BroadcastsInDim S800000 (![] : Fin 0 → Fin S800000.rank)
  bcast_S800000_S800000x1_0 : S800000.BroadcastsInDim S800000x1 (![0] : Fin 1 → Fin S800000x1.rank)
  reducesTo_S800000x4x32_S800000x4_d2 : S800000x4x32.ReducesTo [2] S800000x4
  h_S_ : 0 < S_.numel
  bcast_S_S800000x4 : S_.BroadcastsInDim S800000x4 (![] : Fin 0 → Fin S800000x4.rank)
  reducesTo_S800000x4_S_d0_1 : S800000x4.ReducesTo [0, 1] S_
  bcast_S_S50000x4 : S_.BroadcastsInDim S50000x4 (![] : Fin 0 → Fin S50000x4.rank)
  bcast_S800000x4_S800000x4x1_0_1 : S800000x4.BroadcastsInDim S800000x4x1 (![0, 1] : Fin 2 → Fin S800000x4x1.rank)
  bcast_S800000x4x1_S800000x4x32_0_1_2 : S800000x4x1.BroadcastsInDim S800000x4x32 (![0, 1, 2] : Fin 3 → Fin S800000x4x32.rank)
  bcast_S_S50000x4x32 : S_.BroadcastsInDim S50000x4x32 (![] : Fin 0 → Fin S50000x4x32.rank)
  shapeCasts_S50000x4x32_S50000x128 : S50000x4x32.ShapeCasts S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  bcast_S_S50000x128 : S_.BroadcastsInDim S50000x128 (![] : Fin 0 → Fin S50000x128.rank)
  dot_S50000x128_S128x128_S50000x128_1_0_0_1_n_n_wf : DotDims.WF S50000x128 S128x128 S50000x128 [1] [0] [0] [1] [] []
  dot_S800000x3_S3x4_S800000x4_1_0_0_1_n_n_wf : DotDims.WF S800000x3 S3x4 S800000x4 [1] [0] [0] [1] [] []
  gather_S50000x4x32_S800000x1_S800000x4x32_12_0_n_n_0_1_1432_wf : GatherDims.WF S50000x4x32 S800000x1 S800000x4x32 [1, 2] [0] [] [0] [] 1 ![1, 4, 32]
  scatter_S50000x4_S800000x1_S800000x4_1_0_0_1_wf : ScatterDims.WF S50000x4 S800000x1 S800000x4 [1] [0] [0] 1
  gather_S50000x4_S800000x1_S800000x4_1_0_n_n_0_1_14_wf : GatherDims.WF S50000x4 S800000x1 S800000x4 [1] [0] [] [0] [] 1 ![1, 4]
  scatter_S50000x4x32_S800000x1_S800000x4x32_12_0_0_1_wf : ScatterDims.WF S50000x4x32 S800000x1 S800000x4x32 [1, 2] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S800000x3_S3x4_S800000x4_1_0_0_1_n_n : DotDims S800000x3 S3x4 S800000x4 where
  lhsContracting := [1]
  rhsContracting := [0]
  lhsNonContracting := [0]
  rhsNonContracting := [1]
  lhsBatch := []
  rhsBatch := []
  wf := dot_S800000x3_S3x4_S800000x4_1_0_0_1_n_n_wf
def gather_S50000x4x32_S800000x1_S800000x4x32_12_0_n_n_0_1_1432 : GatherDims S50000x4x32 S800000x1 S800000x4x32 where
  offsetDims := [1, 2]
  collapsedSliceDims := [0]
  operandBatchingDims := []
  startIndicesBatchingDims := []
  startIndexMap := [0]
  indexVectorDim := 1
  sliceSizes := ![1, 4, 32]
  wf := gather_S50000x4x32_S800000x1_S800000x4x32_12_0_n_n_0_1_1432_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def scatter_S50000x4x32_S800000x1_S800000x4x32_12_0_0_1 : ScatterDims S50000x4x32 S800000x1 S800000x4x32 where
  updateWindowDims := [1, 2]
  insertedWindowDims := [0]
  scatterDimsToOperandDims := [0]
  indexVectorDim := 1
  wf := scatter_S50000x4x32_S800000x1_S800000x4x32_12_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KData.lean ====
/-
  Two tiled matrix kernels around a host-side attention aggregation: the blocks each kernel reads, what each
  kernel's body leaves in its output block, and the contents of every buffer between the items of the program.

  Kernel 0 multiplies a block of 2000 rows of the node features by the three projection matrices laid side by
  side; kernel 1 takes a block of 2000 rows of the features, of the aggregated values and of the attention
  sums, normalises, projects, mixes and clips at zero. Each kernel reads whole blocks and stores its output
  block once, so the block a grid point leaves is one pure function (the payload) of the blocks it read.
-/
import proofs.«103189_j64295660421655_2_alg».proof.Proof.Gen.Kernel.Launch
import proofs.«103189_j64295660421655_2_alg».proof.Proof.Gen.Kernel.Skeleton
import proofs.«103189_j64295660421655_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the buffer contents a kernel region is entered with, per core
variable (V : (c : Dev nD) → (b : Ref sig .tc) → Buf (Elt F) ((c : Thread nD τ).loc b))

/-! ## Kernel 0: a block of rows times the joined projection matrix -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×128 feature block. -/
abbrev rX : Rect S2000x128 := Rect.unit (s := S2000x128) ![0, 0] S2000x128.size inb_S2000x128_S2000x128_0_0
/-- The whole 128×384 joined projection matrix. -/
abbrev rW : Rect S128x384 := Rect.unit (s := S128x384) ![0, 0] S128x384.size inb_S128x384_S128x384_0_0
/-- The whole 2000×384 output block. -/
abbrev rQ : Rect S2000x384 := Rect.unit (s := S2000x384) ![0, 0] S2000x384.size inb_S2000x384_S2000x384_0_0

/-- The output block kernel 0 leaves: its one store, of the product of the two blocks it read. -/
def out0_2 (x0 : Vec F S2000x128 .f32) (x1 : Vec F S128x384 .f32) : Vec F S2000x384 .bf16 :=
  View.canon [⟨rQ, k0_pay1 (View.ld x0 rX) (View.ld x1 rW)⟩]

/-- The one store covers the output block. -/
theorem cover0_2 (p0 : Vec F S2000x384 .bf16) (y : S2000x384.Idx) :
    ∃ pc ∈ ([⟨rQ, p0⟩] : List (View.Piece (Elt F) S2000x384 .bf16)), y ∈ pc.1.set :=
  View.cover_of_tiled [⟨rQ, p0⟩] S2000x384.size (by rfl) y

/-- Kernel 0's proof data on core `c`: the arrays as found; after the body at point `t` each input buffer
    holds its block and the output buffer the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Kernel 1: normalise, project, mix, clip -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole 128×128 weight matrix. -/
abbrev rM : Rect S128x128 := Rect.unit (s := S128x128) ![0, 0] S128x128.size inb_S128x128_S128x128_0_0
/-- A whole bias vector. -/
abbrev rB : Rect S128 := Rect.unit (s := S128) ![0] S128.size inb_S128_S128_0

/-- The output block kernel 1 leaves: its one store, of the clipped mix of the eight blocks it read. -/
def out1_8 (x0 x1 x2 : Vec F S2000x128 .f32) (x3 : Vec F S128x128 .f32) (x4 : Vec F S128 .f32)
    (x5 x6 : Vec F S128x128 .f32) (x7 : Vec F S128 .f32) : Vec F S2000x128 .f32 :=
  View.canon [⟨rX, k1_pay1 (View.ld x0 rX) (View.ld x1 rX) (View.ld x2 rX) (View.ld x3 rM) (View.ld x4 rB)
    (View.ld x5 rM) (View.ld x6 rM) (View.ld x7 rB)⟩]

/-- The one store covers the output block. -/
theorem cover1_8 (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-- Kernel 1's proof data on core `c`: the arrays as found; after the body at point `t` each input buffer
    holds its block and the output buffer the clipped mix of the eight. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
        (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t)
      (iblk1 V c 5 t) (iblk1 V c 6 t) (iblk1 V c 7 t) := by dsimp only [dat1]

end Regions

/-! ## The buffer contents between the items of the program -/

variable (m : (ℓ : Loc nD τ sig) → Buf (Elt F) ℓ)

/-- Core `c`'s buffers at launch. -/
abbrev W0 : Dev nD → Valuation τ sig (Elt F) := fun c b => m ((c : Dev nD), b)
/-- After the first host stretch (the index rows and the joined projection matrix). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention scores before the sign split. -/
abbrev W3 : Dev nD → Valuation τ sig (Elt F) := fun c => StableHlo.after hostOps1 (W2 m c)
/-- After the sign split of the scores. -/
abbrev W4 : Dev nD → Valuation τ sig (Elt F) := fun c => StableHlo.after hostOps1_1 (W3 m c)
/-- After the weights, their sums per target node and the aggregated values. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After kernel 1: its arrays at what the write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

end Cert.Kernel.Hand

end
-- ==== Proof.KBody.lean ====
/-
  The two kernel bodies as the pipeline runs them.

  Each body loads every input block whole, loads its output buffer once without using the value, and stores
  its output block whole once. So on staging buffers holding the input blocks the body leaves the inputs as
  they were and the output buffer at the payload of the inputs; and since an input block stays in its staging
  buffer for as long as its block index does not move, every grid point finds each input buffer at that
  point's block, whether the block was fetched there or kept from the point before.
-/
import proofs.«103189_j64295660421655_2_alg».proof.Proof.Gen.Kernel.Launch
import proofs.«103189_j64295660421655_2_alg».proof.Proof.Gen.Kernel.Skeleton
import proofs.«103189_j64295660421655_2_alg».proof.Proof.Gen.Kernel.Points
import proofs.«103189_j64295660421655_2_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a kernel region is entered with, per core
variable (V : (c : Dev nD) → (b : Ref sig .tc) → Buf (Elt F) ((c : Thread nD τ).loc b))

/-! ## Kernel 0 -/
/-- Input window 0's current staging buffer holds its block at every point, fetched there or kept from the
    point before: an unfetched input's block index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from the
    point before: an unfetched input's block index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body of kernel 0 on whole staging buffers, the inputs' reading `x0`, `x1` and the output's anything, runs
    to the continuation with the inputs' as they were and the output's at the product block. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .bf16) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for kernel 0, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-! ## Kernel 1 -/

/-- Input window 0's current staging buffer holds its block at every point, fetched there or kept from the
    point before: an unfetched input's block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or kept from the
    point before: an unfetched input's block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or kept from the
    point before: an unfetched input's block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or kept from the
    point before: an unfetched input's block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or kept from the
    point before: an unfetched input's block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or kept from the
    point before: an unfetched input's block index has not moved, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or kept from the
    point before: an unfetched input's block index has not moved, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or kept from the
    point before: an unfetched input's block index has not moved, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body of kernel 1 on whole staging buffers, the inputs' reading `x0` … `x7` and the output's anything, runs
    to the continuation with the inputs' as they were and the output's at the clipped mix. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S128x128 .f32) (harg4 : arg4.IsWhole)
    (arg5 : Memref sig .tc .vmem S128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128 .f32) (harg8 : arg8.IsWhole)
    (arg9 : Memref sig .tc .vmem S2000x128 .f32) (harg9 : arg9.IsWhole)
    (x0 : Vec F S2000x128 .f32) (x1 : Vec F S2000x128 .f32) (x2 : Vec F S2000x128 .f32) (x3 : Vec F S128x128 .f32) (x4 : Vec F S128 .f32) (x5 : Vec F S128x128 .f32) (x6 : Vec F S128x128 .f32) (x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for kernel 1, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.Kernel.Hand

end
-- ==== Proof.KRun.lean ====
/-
  The run of the whole program: its six items in order — the host stretch that lays out the index rows and joins
  the projection matrices, the projection kernel, the three host stretches of the attention aggregation, and the
  final kernel — as segments over the buffer contents between the items; and what the last of those contents
  hold at the argument arrays and at the output array.

  Between two items a core holds every unscoped buffer whole, at the contents the fold through the items
  gives, beside its generator register and an empty ledger of dues. A host stretch moves the contents by the
  stretch's own function; a kernel moves them by replacing its arrays with what its write-backs leave.
-/
import proofs.«103189_j64295660421655_2_alg».proof.Proof.KData
import proofs.«103189_j64295660421655_2_alg».proof.Proof.KBody
import proofs.«103189_j64295660421655_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched

No host stretch writes an argument, and a kernel reads it through an input window or not at all: the fold
at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (V5 m) c).arrAt_in 0 rfl _).trans (A_eq1 (V5 m) c 0))
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := (W6_arr m c 3).trans (((dat1 (V5 m) c).arrAt_in 3 rfl _).trans (A_eq1 (V5 m) c 3))
    _ = W4 m c (Proc.devRef .tc main_arg7) := StableHlo.after_of_writes_sub hostOps1_2 _ hostOps1_2_writes (by decide)
    _ = W3 m c (Proc.devRef .tc main_arg7) := StableHlo.after_of_writes_sub hostOps1_1 _ hostOps1_1_writes (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 4).trans (((dat1 (V5 m) c).arrAt_in 4 rfl _).trans (A_eq1 (V5 m) c 4))
    _ = W4 m c (Proc.devRef .tc main_arg8) := StableHlo.after_of_writes_sub hostOps1_2 _ hostOps1_2_writes (by decide)
    _ = W3 m c (Proc.devRef .tc main_arg8) := StableHlo.after_of_writes_sub hostOps1_1 _ hostOps1_1_writes (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps1_2 _ hostOps1_2_writes (by decide)
    _ = W3 m c (Proc.devRef .tc main_arg9) := StableHlo.after_of_writes_sub hostOps1_1 _ hostOps1_1_writes (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W6_main_arg10 (c : Dev nD) : W6 m c (Proc.devRef .tc main_arg10) = m ((c : Thread nD τ).loc main_arg10) :=
  calc W6 m c (Proc.devRef .tc main_arg10)
    _ = W5 m c (Proc.devRef .tc main_arg10) := (W6_arr m c 7).trans (((dat1 (V5 m) c).arrAt_in 7 rfl _).trans (A_eq1 (V5 m) c 7))
    _ = W4 m c (Proc.devRef .tc main_arg10) := StableHlo.after_of_writes_sub hostOps1_2 _ hostOps1_2_writes (by decide)
    _ = W3 m c (Proc.devRef .tc main_arg10) := StableHlo.after_of_writes_sub hostOps1_1 _ hostOps1_1_writes (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- The output array ends at what the final kernel's write-backs leave. -/
theorem W6_main_v65 (c : Dev nD) : W6 m c (Proc.devRef .tc main_v65) = (dat1 (V5 m) c).arrAt 8 cfg1.N :=
  W6_arr m c 8

/-! ## The proof data family and the thread state -/

/-- No kernel has a prefetched table. -/
abbrev adm : (p : Fin 2) → (pcfgs (F := F) p).Adm := fun p => (cfgs p).toPCfg_adm
/-- Each kernel's proof data, at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    ledger of dues, empty. -/
abbrev R (c : Dev nD) : sProp 𝕄 := iprop((∃ r, prngReg c r) ∗ ∃ W, owes (c : Thread nD τ) (0 : CellTallies nD τ sig Unit) W)
/-- A host stretch as a segment over the unscoped buffers from the contents `W`; it leaves them at the
    stretch's function of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the ledger: every unscoped buffer at the last contents, the generator
    register at some state. -/
abbrev Tₙ (c : Dev nD) : sProp 𝕄 := iprop(StableHlo.held (c : Thread nD τ) (Pipeline.ucRefs τ sig) (W6 m c) ∗ ∃ r, prngReg c r)

/-! ## The kernels as segments

Each kernel's arrays are split out of the unscoped buffers on entry and put back at their final contents on
exit; the generator register goes into the kernel's invariant and comes back; nothing is owed. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- From any memory with zero counters, every weakly fair execution of the program terminates, nothing
    faulting, and every final memory holds, on every core, each unscoped buffer at the last contents of the
    fold. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KIData.lean ====
/-
  Two tiled matrix kernels around a host-side attention aggregation: the blocks each kernel reads, what each
  kernel's body leaves in its output block, and the contents of every buffer between the items of the program.

  Kernel 0 multiplies a block of 2000 rows of the node features by the three projection matrices laid side by
  side; kernel 1 takes a block of 2000 rows of the features, of the aggregated values and of the attention
  sums, normalises, projects, mixes and clips at zero. Each kernel reads whole blocks and stores its output
  block once, so the block a grid point leaves is one pure function (the payload) of the blocks it read.
-/
import proofs.«103189_j64295660421655_2_alg».proof.Proof.Gen.KernelIdeal.Launch
import proofs.«103189_j64295660421655_2_alg».proof.Proof.Gen.KernelIdeal.Skeleton
import proofs.«103189_j64295660421655_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

section Regions
-- the buffer contents a kernel region is entered with, per core
variable (V : (c : Dev nD) → (b : Ref sig .tc) → Buf (Elt F) ((c : Thread nD τ).loc b))

/-! ## Kernel 0: a block of rows times the joined projection matrix -/

/-- Window `w`'s block at grid point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2000×128 feature block. -/
abbrev rX : Rect S2000x128 := Rect.unit (s := S2000x128) ![0, 0] S2000x128.size inb_S2000x128_S2000x128_0_0
/-- The whole 128×384 joined projection matrix. -/
abbrev rW : Rect S128x384 := Rect.unit (s := S128x384) ![0, 0] S128x384.size inb_S128x384_S128x384_0_0
/-- The whole 2000×384 output block. -/
abbrev rQ : Rect S2000x384 := Rect.unit (s := S2000x384) ![0, 0] S2000x384.size inb_S2000x384_S2000x384_0_0

/-- The output block kernel 0 leaves: its one store, of the product of the two blocks it read. -/
def out0_2 (x0 : Vec F S2000x128 .f32) (x1 : Vec F S128x384 .f32) : Vec F S2000x384 .bf16 :=
  View.canon [⟨rQ, k0_pay1 (View.ld x0 rX) (View.ld x1 rW)⟩]

/-- The one store covers the output block. -/
theorem cover0_2 (p0 : Vec F S2000x384 .bf16) (y : S2000x384.Idx) :
    ∃ pc ∈ ([⟨rQ, p0⟩] : List (View.Piece (Elt F) S2000x384 .bf16)), y ∈ pc.1.set :=
  View.cover_of_tiled [⟨rQ, p0⟩] S2000x384.size (by rfl) y

/-- Kernel 0's proof data on core `c`: the arrays as found; after the body at point `t` each input buffer
    holds its block and the output buffer the product of the two. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-! ## Kernel 1: normalise, project, mix, clip -/

/-- Window `w`'s block at grid point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole 128×128 weight matrix. -/
abbrev rM : Rect S128x128 := Rect.unit (s := S128x128) ![0, 0] S128x128.size inb_S128x128_S128x128_0_0
/-- A whole bias vector. -/
abbrev rB : Rect S128 := Rect.unit (s := S128) ![0] S128.size inb_S128_S128_0

/-- The output block kernel 1 leaves: its one store, of the clipped mix of the eight blocks it read. -/
def out1_8 (x0 x1 x2 : Vec F S2000x128 .f32) (x3 : Vec F S128x128 .f32) (x4 : Vec F S128 .f32)
    (x5 x6 : Vec F S128x128 .f32) (x7 : Vec F S128 .f32) : Vec F S2000x128 .f32 :=
  View.canon [⟨rX, k1_pay1 (View.ld x0 rX) (View.ld x1 rX) (View.ld x2 rX) (View.ld x3 rM) (View.ld x4 rB)
    (View.ld x5 rM) (View.ld x6 rM) (View.ld x7 rB)⟩]

/-- The one store covers the output block. -/
theorem cover1_8 (p0 : Vec F S2000x128 .f32) (y : S2000x128.Idx) :
    ∃ pc ∈ ([⟨rX, p0⟩] : List (View.Piece (Elt F) S2000x128 .f32)), y ∈ pc.1.set :=
  View.cover_of_tiled [⟨rX, p0⟩] S2000x128.size (by rfl) y

/-- Kernel 1's proof data on core `c`: the arrays as found; after the body at point `t` each input buffer
    holds its block and the output buffer the clipped mix of the eight. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t)
        (iblk1 V c 5 t) (iblk1 V c 6 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t)
      (iblk1 V c 5 t) (iblk1 V c 6 t) (iblk1 V c 7 t) := by dsimp only [dat1]

end Regions

/-! ## The buffer contents between the items of the program -/

variable (m : (ℓ : Loc nD τ sig) → Buf (Elt F) ℓ)

/-- Core `c`'s buffers at launch. -/
abbrev W0 : Dev nD → Valuation τ sig (Elt F) := fun c b => m ((c : Dev nD), b)
/-- After the first host stretch (the index rows and the joined projection matrix). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After kernel 0: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention scores before the sign split. -/
abbrev W3 : Dev nD → Valuation τ sig (Elt F) := fun c => StableHlo.after hostOps1 (W2 m c)
/-- After the sign split of the scores. -/
abbrev W4 : Dev nD → Valuation τ sig (Elt F) := fun c => StableHlo.after hostOps1_1 (W3 m c)
/-- After the weights, their sums per target node and the aggregated values. -/
abbrev W5 : Dev nD → Valuation τ sig (Elt F) := fun c => StableHlo.after hostOps1_2 (W4 m c)
abbrev V5 : (c : Dev nD) → (b : Ref sig .tc) → Buf (Elt F) ((c : Thread nD τ).loc b) := fun c b => W5 m c b
/-- After kernel 1: its arrays at what the write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

end Cert.KernelIdeal.Hand

end
-- ==== Proof.KIBody.lean ====
/-
  The two kernel bodies as the pipeline runs them.

  Each body loads every input block whole, loads its output buffer once without using the value, and stores
  its output block whole once. So on staging buffers holding the input blocks the body leaves the inputs as
  they were and the output buffer at the payload of the inputs; and since an input block stays in its staging
  buffer for as long as its block index does not move, every grid point finds each input buffer at that
  point's block, whether the block was fetched there or kept from the point before.
-/
import proofs.«103189_j64295660421655_2_alg».proof.Proof.Gen.KernelIdeal.Launch
import proofs.«103189_j64295660421655_2_alg».proof.Proof.Gen.KernelIdeal.Skeleton
import proofs.«103189_j64295660421655_2_alg».proof.Proof.Gen.KernelIdeal.Points
import proofs.«103189_j64295660421655_2_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents a kernel region is entered with, per core
variable (V : (c : Dev nD) → (b : Ref sig .tc) → Buf (Elt F) ((c : Thread nD τ).loc b))

/-! ## Kernel 0 -/
/-- Input window 0's current staging buffer holds its block at every point, fetched there or kept from the
    point before: an unfetched input's block index has not moved, the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or kept from the
    point before: an unfetched input's block index has not moved, the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

set_option maxHeartbeats 1000000 in
/-- The body of kernel 0 on whole staging buffers, the inputs' reading `x0`, `x1` and the output's anything, runs
    to the continuation with the inputs' as they were and the output's at the product block. -/
theorem sound_kernel0 (c : Dev nD) (E : Set ℕ) (i : grid0.Coords)
    (arg1 : Memref sig .tc .vmem S2000x128 .f32) (harg1 : arg1.IsWhole)
    (arg2 : Memref sig .tc .vmem S128x384 .f32) (harg2 : arg2.IsWhole)
    (arg3 : Memref sig .tc .vmem S2000x384 .bf16) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's run applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for kernel 0, at every point. -/
theorem body_obligation0 (V : (c : Dev nD) → (b : Ref sig .tc) → Buf (Elt F) ((c : Thread nD τ).loc b)) (c : Dev nD) :
    BodyObligation (dat0 (F := F) V c) (defs₀ (F := F)) Variants.none () Set.univ := fun t => by
  rw [bigSep_W0, bigSep_W0]
  exact sound_body0 V c t

/-! ## Kernel 1 -/

/-- Input window 0's current staging buffer holds its block at every point, fetched there or kept from the
    point before: an unfetched input's block index has not moved, the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or kept from the
    point before: an unfetched input's block index has not moved, the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or kept from the
    point before: an unfetched input's block index has not moved, the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or kept from the
    point before: an unfetched input's block index has not moved, the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or kept from the
    point before: an unfetched input's block index has not moved, the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or kept from the
    point before: an unfetched input's block index has not moved, the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or kept from the
    point before: an unfetched input's block index has not moved, the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or kept from the
    point before: an unfetched input's block index has not moved, the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

set_option maxHeartbeats 1000000 in
/-- The body of kernel 1 on whole staging buffers, the inputs' reading `x0` … `x7` and the output's anything, runs
    to the continuation with the inputs' as they were and the output's at the clipped mix. -/
theorem sound_kernel1 (c : Dev nD) (E : Set ℕ) (i : grid1.Coords)
    (arg1 : Memref sig .tc .vmem S2000x128 .f32) (harg1 : arg1.IsWhole)
    (arg2 : Memref sig .tc .vmem S2000x128 .f32) (harg2 : arg2.IsWhole)
    (arg3 : Memref sig .tc .vmem S2000x128 .f32) (harg3 : arg3.IsWhole)
    (arg4 : Memref sig .tc .vmem S128x128 .f32) (harg4 : arg4.IsWhole)
    (arg5 : Memref sig .tc .vmem S128 .f32) (harg5 : arg5.IsWhole)
    (arg6 : Memref sig .tc .vmem S128x128 .f32) (harg6 : arg6.IsWhole)
    (arg7 : Memref sig .tc .vmem S128x128 .f32) (harg7 : arg7.IsWhole)
    (arg8 : Memref sig .tc .vmem S128 .f32) (harg8 : arg8.IsWhole)
    (arg9 : Memref sig .tc .vmem S2000x128 .f32) (harg9 : arg9.IsWhole)
    (x0 : Vec F S2000x128 .f32) (x1 : Vec F S2000x128 .f32) (x2 : Vec F S2000x128 .f32) (x3 : Vec F S128x128 .f32) (x4 : Vec F S128 .f32) (x5 : Vec F S128x128 .f32) (x6 : Vec F S128x128 .f32) (x7 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out1_8 x0 x1 x2 x3 x4 x5 x6 x7)) -∗ K ⟨⟩))
      ⊢ wp frame (wpE (defs₀ (F := F)) Variants.none c none) E (cc1__final_kernel i arg1 harg1 arg2 harg2 arg3 harg3 arg4 harg4 arg5 harg5 arg6 harg6 arg7 harg7 arg8 harg8 arg9 harg9) K := by
  simp only [cc1__final_kernel_eq_skeleton]; unfold cc1__final_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_8 _)

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' buffers hold their blocks, so the body's run applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ (grid1.coords t) _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for kernel 1, at every point. -/
theorem body_obligation1 (V : (c : Dev nD) → (b : Ref sig .tc) → Buf (Elt F) ((c : Thread nD τ).loc b)) (c : Dev nD) :
    BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The run of the whole program: its six items in order — the host stretch that lays out the index rows and joins
  the projection matrices, the projection kernel, the three host stretches of the attention aggregation, and the
  final kernel — as segments over the buffer contents between the items; and what the last of those contents
  hold at the argument arrays and at the output array.

  Between two items a core holds every unscoped buffer whole, at the contents the fold through the items
  gives, beside its generator register and an empty ledger of dues. A host stretch moves the contents by the
  stretch's own function; a kernel moves them by replacing its arrays with what its write-backs leave.
-/
import proofs.«103189_j64295660421655_2_alg».proof.Proof.KIData
import proofs.«103189_j64295660421655_2_alg».proof.Proof.KIBody
import proofs.«103189_j64295660421655_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arguments end as launched

No host stretch writes an argument, and a kernel reads it through an input window or not at all: the fold
at an argument's buffer walks back to the launch memory. -/

theorem W6_main_arg0 (c : Dev nD) : W6 m c (Proc.devRef .tc main_arg0) = m ((c : Thread nD τ).loc main_arg0) :=
  calc W6 m c (Proc.devRef .tc main_arg0)
    _ = W5 m c (Proc.devRef .tc main_arg0) := (W6_arr m c 0).trans (((dat1 (V5 m) c).arrAt_in 0 rfl _).trans (A_eq1 (V5 m) c 0))
    _ = W4 m c (Proc.devRef .tc main_arg0) := StableHlo.after_of_writes_sub hostOps1_2 _ hostOps1_2_writes (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl

theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = W4 m c (Proc.devRef .tc main_arg1) := StableHlo.after_of_writes_sub hostOps1_2 _ hostOps1_2_writes (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W6_main_arg2 (c : Dev nD) : W6 m c (Proc.devRef .tc main_arg2) = m ((c : Thread nD τ).loc main_arg2) :=
  calc W6 m c (Proc.devRef .tc main_arg2)
    _ = W5 m c (Proc.devRef .tc main_arg2) := W6_of_ne m c main_arg2 (by decide)
    _ = W4 m c (Proc.devRef .tc main_arg2) := StableHlo.after_of_writes_sub hostOps1_2 _ hostOps1_2_writes (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = W4 m c (Proc.devRef .tc main_arg3) := StableHlo.after_of_writes_sub hostOps1_2 _ hostOps1_2_writes (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

theorem W6_main_arg4 (c : Dev nD) : W6 m c (Proc.devRef .tc main_arg4) = m ((c : Thread nD τ).loc main_arg4) :=
  calc W6 m c (Proc.devRef .tc main_arg4)
    _ = W5 m c (Proc.devRef .tc main_arg4) := W6_of_ne m c main_arg4 (by decide)
    _ = W4 m c (Proc.devRef .tc main_arg4) := StableHlo.after_of_writes_sub hostOps1_2 _ hostOps1_2_writes (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W6_main_arg5 (c : Dev nD) : W6 m c (Proc.devRef .tc main_arg5) = m ((c : Thread nD τ).loc main_arg5) :=
  calc W6 m c (Proc.devRef .tc main_arg5)
    _ = W5 m c (Proc.devRef .tc main_arg5) := W6_of_ne m c main_arg5 (by decide)
    _ = W4 m c (Proc.devRef .tc main_arg5) := StableHlo.after_of_writes_sub hostOps1_2 _ hostOps1_2_writes (by decide)
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W6_main_arg6 (c : Dev nD) : W6 m c (Proc.devRef .tc main_arg6) = m ((c : Thread nD τ).loc main_arg6) :=
  calc W6 m c (Proc.devRef .tc main_arg6)
    _ = W5 m c (Proc.devRef .tc main_arg6) := W6_of_ne m c main_arg6 (by decide)
    _ = W4 m c (Proc.devRef .tc main_arg6) := StableHlo.after_of_writes_sub hostOps1_2 _ hostOps1_2_writes (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W6_main_arg7 (c : Dev nD) : W6 m c (Proc.devRef .tc main_arg7) = m ((c : Thread nD τ).loc main_arg7) :=
  calc W6 m c (Proc.devRef .tc main_arg7)
    _ = W5 m c (Proc.devRef .tc main_arg7) := (W6_arr m c 3).trans (((dat1 (V5 m) c).arrAt_in 3 rfl _).trans (A_eq1 (V5 m) c 3))
    _ = W4 m c (Proc.devRef .tc main_arg7) := StableHlo.after_of_writes_sub hostOps1_2 _ hostOps1_2_writes (by decide)
    _ = W3 m c (Proc.devRef .tc main_arg7) := StableHlo.after_of_writes_sub hostOps1_1 _ hostOps1_1_writes (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

theorem W6_main_arg8 (c : Dev nD) : W6 m c (Proc.devRef .tc main_arg8) = m ((c : Thread nD τ).loc main_arg8) :=
  calc W6 m c (Proc.devRef .tc main_arg8)
    _ = W5 m c (Proc.devRef .tc main_arg8) := (W6_arr m c 4).trans (((dat1 (V5 m) c).arrAt_in 4 rfl _).trans (A_eq1 (V5 m) c 4))
    _ = W4 m c (Proc.devRef .tc main_arg8) := StableHlo.after_of_writes_sub hostOps1_2 _ hostOps1_2_writes (by decide)
    _ = W3 m c (Proc.devRef .tc main_arg8) := StableHlo.after_of_writes_sub hostOps1_1 _ hostOps1_1_writes (by decide)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

theorem W6_main_arg9 (c : Dev nD) : W6 m c (Proc.devRef .tc main_arg9) = m ((c : Thread nD τ).loc main_arg9) :=
  calc W6 m c (Proc.devRef .tc main_arg9)
    _ = W5 m c (Proc.devRef .tc main_arg9) := W6_of_ne m c main_arg9 (by decide)
    _ = W4 m c (Proc.devRef .tc main_arg9) := StableHlo.after_of_writes_sub hostOps1_2 _ hostOps1_2_writes (by decide)
    _ = W3 m c (Proc.devRef .tc main_arg9) := StableHlo.after_of_writes_sub hostOps1_1 _ hostOps1_1_writes (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

theorem W6_main_arg10 (c : Dev nD) : W6 m c (Proc.devRef .tc main_arg10) = m ((c : Thread nD τ).loc main_arg10) :=
  calc W6 m c (Proc.devRef .tc main_arg10)
    _ = W5 m c (Proc.devRef .tc main_arg10) := (W6_arr m c 7).trans (((dat1 (V5 m) c).arrAt_in 7 rfl _).trans (A_eq1 (V5 m) c 7))
    _ = W4 m c (Proc.devRef .tc main_arg10) := StableHlo.after_of_writes_sub hostOps1_2 _ hostOps1_2_writes (by decide)
    _ = W3 m c (Proc.devRef .tc main_arg10) := StableHlo.after_of_writes_sub hostOps1_1 _ hostOps1_1_writes (by decide)
    _ = W2 m c (Proc.devRef .tc main_arg10) := StableHlo.after_of_writes_sub hostOps1 _ hostOps1_writes (by decide)
    _ = W1 m c (Proc.devRef .tc main_arg10) := W2_of_ne m c main_arg10 (by decide)
    _ = W0 m c (Proc.devRef .tc main_arg10) := StableHlo.after_of_writes_sub hostOps0 _ hostOps0_writes (by decide)
    _ = m ((c : Thread nD τ).loc main_arg10) := rfl

/-- The output array ends at what the final kernel's write-backs leave. -/
theorem W6_main_v65 (c : Dev nD) : W6 m c (Proc.devRef .tc main_v65) = (dat1 (V5 m) c).arrAt 8 cfg1.N :=
  W6_arr m c 8

/-! ## The proof data family and the thread state -/

/-- No kernel has a prefetched table. -/
abbrev adm : (p : Fin 2) → (pcfgs (F := F) p).Adm := fun p => (cfgs p).toPCfg_adm
/-- Each kernel's proof data, at the contents its region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its
    ledger of dues, empty. -/
abbrev R (c : Dev nD) : sProp 𝕄 := iprop((∃ r, prngReg c r) ∗ ∃ W, owes (c : Thread nD τ) (0 : CellTallies nD τ sig Unit) W)
/-- A host stretch as a segment over the unscoped buffers from the contents `W`; it leaves them at the
    stretch's function of `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the ledger: every unscoped buffer at the last contents, the generator
    register at some state. -/
abbrev Tₙ (c : Dev nD) : sProp 𝕄 := iprop(StableHlo.held (c : Thread nD τ) (Pipeline.ucRefs τ sig) (W6 m c) ∗ ∃ r, prngReg c r)

/-! ## The kernels as segments

Each kernel's arrays are split out of the unscoped buffers on entry and put back at their final contents on
exit; the generator register goes into the kernel's invariant and comes back; nothing is owed. -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The six items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m) ]

set_option backward.isDefEq.respectTransparency.types false in
/-- From any memory with zero counters, every weakly fair execution of the program terminates, nothing
    faulting, and every final memory holds, on every core, each unscoped buffer at the last contents of the
    fold. -/
theorem run_all (m : (ℓ : Loc nD τ sig) → Buf (Elt F) ℓ) (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.FrameClaims.lean ====
/-
  The two frame claims of the certificate — the program as printed, at bit patterns, and the same text read
  at extended reals — each from the run of its six items: a final memory holds every unscoped buffer at the
  last contents of the fold through the items, and at an argument array those contents walk back to the
  launch memory.
-/
import proofs.«103189_j64295660421655_2_alg».proof.Defs
import proofs.«103189_j64295660421655_2_alg».proof.Proof.Gen.Kernel
import proofs.«103189_j64295660421655_2_alg».proof.Proof.Gen.KernelIdeal
import proofs.«103189_j64295660421655_2_alg».proof.Proof.Gen.Pre_finite_inputs
import proofs.«103189_j64295660421655_2_alg».proof.Proof.KRun
import proofs.«103189_j64295660421655_2_alg».proof.Proof.KIRun

noncomputable section

namespace Cert.Proof

open Idealize.ShloMosaic Idealize.ShloMosaic.TcCoe Idealize.SL.Sem

/-- The program as printed runs to the end and leaves its eleven argument arrays as launched. -/
theorem frame_word : Cert.frame_Kernel := fun m ρ _ =>
  (θ_run (Cert.Kernel.defs (F := Bits)) _ _).mono
    (fun r h c => ⟨
      (h c _ (Cert.Kernel.Hand.mem_uc Cert.Kernel.main_arg0 (by decide))).trans (Cert.Kernel.Hand.W6_main_arg0 m c),
      (h c _ (Cert.Kernel.Hand.mem_uc Cert.Kernel.main_arg1 (by decide))).trans (Cert.Kernel.Hand.W6_main_arg1 m c),
      (h c _ (Cert.Kernel.Hand.mem_uc Cert.Kernel.main_arg2 (by decide))).trans (Cert.Kernel.Hand.W6_main_arg2 m c),
      (h c _ (Cert.Kernel.Hand.mem_uc Cert.Kernel.main_arg3 (by decide))).trans (Cert.Kernel.Hand.W6_main_arg3 m c),
      (h c _ (Cert.Kernel.Hand.mem_uc Cert.Kernel.main_arg4 (by decide))).trans (Cert.Kernel.Hand.W6_main_arg4 m c),
      (h c _ (Cert.Kernel.Hand.mem_uc Cert.Kernel.main_arg5 (by decide))).trans (Cert.Kernel.Hand.W6_main_arg5 m c),
      (h c _ (Cert.Kernel.Hand.mem_uc Cert.Kernel.main_arg6 (by decide))).trans (Cert.Kernel.Hand.W6_main_arg6 m c),
      (h c _ (Cert.Kernel.Hand.mem_uc Cert.Kernel.main_arg7 (by decide))).trans (Cert.Kernel.Hand.W6_main_arg7 m c),
      (h c _ (Cert.Kernel.Hand.mem_uc Cert.Kernel.main_arg8 (by decide))).trans (Cert.Kernel.Hand.W6_main_arg8 m c),
      (h c _ (Cert.Kernel.Hand.mem_uc Cert.Kernel.main_arg9 (by decide))).trans (Cert.Kernel.Hand.W6_main_arg9 m c),
      (h c _ (Cert.Kernel.Hand.mem_uc Cert.Kernel.main_arg10 (by decide))).trans (Cert.Kernel.Hand.W6_main_arg10 m c)⟩)
    (Cert.Kernel.Hand.run_all (F := Bits) m ρ)

/-- The same text read at extended reals runs to the end and leaves its eleven argument arrays as launched. -/
theorem frame_ideal : Cert.frame_KernelIdeal := fun m ρ _ =>
  (θ_run (Cert.KernelIdeal.defs (F := Ideal)) _ _).mono
    (fun r h c => ⟨
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c)⟩)
    (Cert.KernelIdeal.Hand.run_all (F := Ideal) m ρ)

end Cert.Proof

end
-- ==== Proof.KIStages.lean ====
/-
  The stages of the attention aggregation as the host operations compose them, named so that the two programs can be
  compared stage by stage, and the two kernels' results as functions of whole arrays.

  Edges e run over 800000, nodes over 50000, the 128 feature lanes split as 4 heads of 32. For an edge the target
  row `dst e` and source row `src e` are read from the index array; a gather reads the row after wrapping a negative
  index once and clamping, a scatter adds an edge's row to the target row when it is in range and drops it otherwise.
-/
import proofs.«103189_j64295660421655_2_alg».proof.Proof.Gen.KernelIdeal
import Idealize.ShloMosaic.PureOps.Ideal
import Idealize.ShloMosaic.PureOps.Ideal.Laws
import Idealize.ShloMosaic.Lib.ValueIdx

noncomputable section

namespace Cert.KernelIdeal.Hand

open Cert.KernelIdeal Cert.KernelIdeal.Gen Idealize.ShloMosaic Idealize.ShloMosaic.ValueIdx

/-- The contents of an array of shape `S` and element type `e`. -/
abbrev Arr (F : FTy → Type) (S : Shape) (e : EltTy) : Type := (⟨S, e⟩ : BufTy).Contents (Elt F)

variable {F : FTy → Type} [FloatOps F]

/-! ## Index rows and gather columns -/

/-- The source row of every edge: row 0 of the index array. -/
def srcv (ei : Arr F S2x800000 .i32) : Arr F S800000 .i32 :=
  shapeCast _ (extractStridedSlice S1x800000 ![0, 0] ei slices_S2x800000_S1x800000_0_0) shapeCasts_S1x800000_S800000
/-- The target row of every edge: row 1 of the index array. -/
def dstv (ei : Arr F S2x800000 .i32) : Arr F S800000 .i32 :=
  shapeCast _ (extractStridedSlice S1x800000 ![1, 0] ei slices_S2x800000_S1x800000_1_0) shapeCasts_S1x800000_S800000
/-- A row vector as a scatter's index column. -/
def bcol (v : Arr F S800000 .i32) : Arr F S800000x1 .i32 :=
  broadcastInDim S800000x1 ![0] bcast_S800000_S800000x1_0 v
/-- A row vector as a gather's index column: a negative index has the number of nodes added once. -/
def gcol (v : Arr F S800000 .i32) : Arr F S800000x1 .i32 :=
  bcol (select (cmpi .slt v (broadcastInDim S800000 ![] bcast_S_S800000 (constantI S_ 32 0#32)))
    (addi v (broadcastInDim S800000 ![] bcast_S_S800000 (constantI S_ 32 50000#32))) v)

/-! ## The joined projection and its three column bands -/

/-- The three projection matrices side by side. -/
def wcat (wq wk wv : Arr F S128x128 .f32) : Arr F S128x384 .f32 :=
  concatenate S128x384 1 [⟨S128x128, wq⟩, ⟨S128x128, wk⟩, ⟨S128x128, wv⟩] concatenates_S128x128_S128x128_S128x128_S128x384_d1
def bandQ (q : Arr F S50000x384 .bf16) : Arr F S50000x128 .bf16 :=
  extractStridedSlice S50000x128 ![0, 0] q slices_S50000x384_S50000x128_0_0
def bandK (q : Arr F S50000x384 .bf16) : Arr F S50000x128 .bf16 :=
  extractStridedSlice S50000x128 ![0, 128] q slices_S50000x384_S50000x128_0_128
def bandV (q : Arr F S50000x384 .bf16) : Arr F S50000x128 .bf16 :=
  extractStridedSlice S50000x128 ![0, 256] q slices_S50000x384_S50000x128_0_256
/-- The rows of a band an index column selects, one per edge, split into heads. -/
def rows3 (a : Arr F S50000x128 .bf16) (col : Arr F S800000x1 .i32) : Arr F S800000x4x32 .f32 :=
  shapeCast _ (extf .f32 (Host.gather gather_S50000x128_S800000x1_S800000x128_1_0_n_n_0_1_1128 a col) bitsLt_bf16_f32)
    shapeCasts_S800000x128_S800000x4x32

/-! ## Scores, weights and their sums -/

/-- The score of an edge and head before the sign split: the scaled inner product over the head's lanes plus the edge bias. -/
def score (qd ks : Arr F S800000x4x32 .f32) (ea : Arr F S800000x3 .f32) (we : Arr F S3x4 .f32) : Arr F S800000x4 .f32 :=
  addf (mulf (Host.reduceAdd (mulf qd ks) (constant S_ .f32 0x00000000#32) reducesTo_S800000x4x32_S800000x4_d2 h_S_)
      (broadcastInDim S800000x4 ![] bcast_S_S800000x4 (constant S_ .f32 0x3E3504F3#32)))
    (Host.dotGeneral dot_S800000x3_S3x4_S800000x4_1_0_0_1_n_n none ea we)
/-- The sign split: a negative score is scaled by one fifth. -/
def leaky (a : Arr F S800000x4 .f32) : Arr F S800000x4 .f32 :=
  select (cmpf .oge a (broadcastInDim S800000x4 ![] bcast_S_S800000x4 (constant S_ .f32 0x00000000#32))) a
    (mulf (broadcastInDim S800000x4 ![] bcast_S_S800000x4 (constant S_ .f32 0x3E4CCCCD#32)) a)
/-- The unnormalised weights: the exponential of the score less the largest score of all edges and heads. -/
def wts (a : Arr F S800000x4 .f32) : Arr F S800000x4 .f32 :=
  Host.exp (subf a (broadcastInDim S800000x4 ![] bcast_S_S800000x4
    (Host.reduce FloatOps.maximumf a (constant S_ .f32 0xFF800000#32) reducesTo_S800000x4_S_d0_1 h_S_)))
/-- The weights summed per target node and head. -/
def wsum (ae : Arr F S800000x4 .f32) (dv : Arr F S800000 .i32) : Arr F S50000x4 .f32 :=
  Host.scatterAdd scatter_S50000x4_S800000x1_S800000x4_1_0_0_1
    (broadcastInDim S50000x4 ![] bcast_S_S50000x4 (constant S_ .f32 0x00000000#32)) (bcol dv) ae
/-- The source values weighted edge by edge and summed per target node, not yet normalised. -/
def aggRaw (vs : Arr F S800000x4x32 .f32) (ae : Arr F S800000x4 .f32) (dv : Arr F S800000 .i32) : Arr F S50000x128 .f32 :=
  Host.scatterAdd scatter_S50000x128_S800000x1_S800000x128_1_0_0_1
    (broadcastInDim S50000x128 ![] bcast_S_S50000x128 (constant S_ .f32 0x00000000#32)) (bcol dv)
    (shapeCast _ (mulf vs (broadcastInDim S800000x4x32 ![0, 1, 2] bcast_S800000x4x1_S800000x4x32_0_1_2
      (broadcastInDim S800000x4x1 ![0, 1] bcast_S800000x4_S800000x4x1_0_1 ae))) shapeCasts_S800000x4x32_S800000x128)
/-- The weight sums repeated over each head's 32 lanes. -/
def sumLanes (s : Arr F S50000x4 .f32) : Arr F S50000x128 .f32 :=
  shapeCast _ (broadcastInDim S50000x4x32 ![0, 1] bcast_S50000x4_S50000x4x32_0_1 s) shapeCasts_S50000x4x32_S50000x128
/-- The two halves of the mixing matrix. -/
def mixTop (wm : Arr F S256x128 .f32) : Arr F S128x128 .f32 :=
  extractStridedSlice S128x128 ![0, 0] wm slices_S256x128_S128x128_0_0
def mixBot (wm : Arr F S256x128 .f32) : Arr F S128x128 .f32 :=
  extractStridedSlice S128x128 ![128, 0] wm slices_S256x128_S128x128_128_0

/-- The weights of all edges from the projected rows: scores, sign split, exponentials. -/
def weightsOf (q : Arr F S50000x384 .bf16) (ei : Arr F S2x800000 .i32) (ea : Arr F S800000x3 .f32) (we : Arr F S3x4 .f32) :
    Arr F S800000x4 .f32 :=
  wts (leaky (score (rows3 (bandQ q) (gcol (dstv ei))) (rows3 (bandK q) (gcol (srcv ei))) ea we))

end Cert.KernelIdeal.Hand

/-! ## The two kernels' results as functions of whole arrays, on the extended reals -/

namespace Cert.KernelIdeal.Hand

open Cert.KernelIdeal Cert.KernelIdeal.Gen Idealize.ShloMosaic Idealize.ShloMosaic.ValueIdx

/-- Kernel 0 over all blocks: row n of the features times column j of the joined projection matrix. -/
def G0 (x : Arr Ideal S50000x128 .f32) (w : Arr Ideal S128x384 .f32) : Arr Ideal S50000x384 .bf16 :=
  fun i => ∑ k : Fin 128, x (ix2 (n0 := 50000) (n1 := 128) ⟨(i 0).val, (i 0).isLt⟩ k) * w (ix2 (n0 := 128) (n1 := 384) k ⟨(i 1).val, (i 1).isLt⟩)

/-- The normalised, projected aggregate of node n at lane k: the raw aggregate over the clipped weight sum, times the
    output projection, plus its bias. -/
def proj (agg asum : Arr Ideal S50000x128 .f32) (wo : Arr Ideal S128x128 .f32) (bo : Arr Ideal S128 .f32) (n : Fin 50000) (k : Fin 128) : EReal :=
  (∑ i : Fin 128, Ideal.div (agg (ix2 n i)) (max (asum (ix2 n i)) (Ideal.ofBits .f32 0x2B8CBCCC#32)) * wo (ix2 i k)) + bo (ix1 k)

/-- Kernel 1 over all blocks: features and projected aggregate mixed by the two halves of the mixing matrix, biased, clipped at zero. -/
def G1 (x agg asum : Arr Ideal S50000x128 .f32) (wo : Arr Ideal S128x128 .f32) (bo : Arr Ideal S128 .f32)
    (wm1 wm2 : Arr Ideal S128x128 .f32) (bm : Arr Ideal S128 .f32) : Arr Ideal S50000x128 .f32 :=
  fun i =>
    max (((∑ k : Fin 128, x (ix2 (n0 := 50000) (n1 := 128) ⟨(i 0).val, (i 0).isLt⟩ k) * wm1 (ix2 (n0 := 128) (n1 := 128) k ⟨(i 1).val, (i 1).isLt⟩))
        + (∑ k : Fin 128, proj agg asum wo bo ⟨(i 0).val, (i 0).isLt⟩ k * wm2 (ix2 (n0 := 128) (n1 := 128) k ⟨(i 1).val, (i 1).isLt⟩)))
      + bm (ix1 (n := 128) ⟨(i 1).val, (i 1).isLt⟩)) (Ideal.ofBits .f32 0x00000000#32)

end Cert.KernelIdeal.Hand

end
-- ==== Proof.LibTypedRead.lean ====
/-
  Reading a typed reference after the operations of a called function: general lemmas.

  Inside a called function a value is a buffer together with a proof that the buffer's type is the value's type, and
  every operation moves contents across that equation: once from the buffer's type on the way in, once back on the
  way out. Read at the VALUE's type — `rd x V`, the contents of `x`'s buffer in `V` carried to `x`'s value type —
  the two crossings cancel for any reference whatever (the equation is eliminated once, abstractly), so the result
  of an operation read at its own reference is its function of its operands read the same way, and read at another
  reference it is what was there. No buffer's type is ever computed.
-/
import Idealize.ShloMosaic.Lib.StableHlo
import Idealize.ShloMosaic.Lib.StableHlo.Run

namespace Cert.LibTypedRead

open Idealize.ShloMosaic Idealize.ShloMosaic.StableHlo

variable {τ : Topo} {sig : RefSig} {Val : EltTy → Type}
variable {T Ta Tb Tc Tx Ty Tz : BufTy}

/-- The contents of a typed reference's buffer, at the value's type. -/
def rd (x : TRef sig T) (V : Valuation τ sig Val) : T.Contents Val := x.ofBuf (V (Proc.devRef .tc x.ref))

/-- Carrying contents to the buffer's type and back is the identity. -/
theorem ofBuf_toBuf (x : TRef sig T) (v : T.Contents Val) : x.ofBuf (x.toBuf v) = v := by
  obtain ⟨r, h, h2, h3⟩ := x
  subst h
  rfl

theorem rd_nullary (y : TRef sig Ty) (v : Ty.Contents Val) (V : Valuation τ sig Val) :
    rd y ((TRef.nullary (τ := τ) y v).result V) = v := by
  unfold rd
  rw [show (TRef.nullary (τ := τ) y v).result V (Proc.devRef .tc y.ref) = y.toBuf v from nullary_result y.ref (y.toBuf v) y.dev V]
  exact ofBuf_toBuf y v

theorem rd_nullary_ne (y : TRef sig Ty) (z : TRef sig Tz) (v : Ty.Contents Val) (V : Valuation τ sig Val) (h : z.ref ≠ y.ref) :
    rd z ((TRef.nullary (τ := τ) y v).result V) = rd z V := by
  unfold rd
  rw [show (TRef.nullary (τ := τ) y v).result V (Proc.devRef .tc z.ref) = V (Proc.devRef .tc z.ref) from
    nullary_result_ne (y := y.ref) (y.toBuf v) y.dev V h]

theorem rd_unary (x : TRef sig Tx) (y : TRef sig Ty) (f : Tx.Contents Val → Ty.Contents Val) (V : Valuation τ sig Val) :
    rd y ((TRef.unary (τ := τ) x y f).result V) = f (rd x V) := by
  unfold rd
  rw [show (TRef.unary (τ := τ) x y f).result V (Proc.devRef .tc y.ref) = y.toBuf (f (x.ofBuf (V (Proc.devRef .tc x.ref)))) from
    unary_result x.ref y.ref _ x.dev y.dev V]
  exact ofBuf_toBuf y _

theorem rd_unary_ne (x : TRef sig Tx) (y : TRef sig Ty) (z : TRef sig Tz) (f : Tx.Contents Val → Ty.Contents Val)
    (V : Valuation τ sig Val) (h : z.ref ≠ y.ref) : rd z ((TRef.unary (τ := τ) x y f).result V) = rd z V := by
  unfold rd
  rw [show (TRef.unary (τ := τ) x y f).result V (Proc.devRef .tc z.ref) = V (Proc.devRef .tc z.ref) from
    unary_result_ne (x := x.ref) (y := y.ref) _ x.dev y.dev V h]

theorem rd_binary (a : TRef sig Ta) (b : TRef sig Tb) (y : TRef sig Ty) (f : Ta.Contents Val → Tb.Contents Val → Ty.Contents Val)
    (V : Valuation τ sig Val) : rd y ((TRef.binary (τ := τ) a b y f).result V) = f (rd a V) (rd b V) := by
  unfold rd
  rw [show (TRef.binary (τ := τ) a b y f).result V (Proc.devRef .tc y.ref)
      = y.toBuf (f (a.ofBuf (V (Proc.devRef .tc a.ref))) (b.ofBuf (V (Proc.devRef .tc b.ref)))) from
    binary_result a.ref b.ref y.ref _ a.dev b.dev y.dev V]
  exact ofBuf_toBuf y _

theorem rd_binary_ne (a : TRef sig Ta) (b : TRef sig Tb) (y : TRef sig Ty) (z : TRef sig Tz)
    (f : Ta.Contents Val → Tb.Contents Val → Ty.Contents Val) (V : Valuation τ sig Val) (h : z.ref ≠ y.ref) :
    rd z ((TRef.binary (τ := τ) a b y f).result V) = rd z V := by
  unfold rd
  rw [show (TRef.binary (τ := τ) a b y f).result V (Proc.devRef .tc z.ref) = V (Proc.devRef .tc z.ref) from
    binary_result_ne (a := a.ref) (b := b.ref) (y := y.ref) _ a.dev b.dev y.dev V h]

theorem rd_ternary (c : TRef sig Tc) (a : TRef sig Ta) (b : TRef sig Tb) (y : TRef sig Ty)
    (f : Tc.Contents Val → Ta.Contents Val → Tb.Contents Val → Ty.Contents Val) (V : Valuation τ sig Val) :
    rd y ((TRef.ternary (τ := τ) c a b y f).result V) = f (rd c V) (rd a V) (rd b V) := by
  unfold rd
  rw [show (TRef.ternary (τ := τ) c a b y f).result V (Proc.devRef .tc y.ref)
      = y.toBuf (f (c.ofBuf (V (Proc.devRef .tc c.ref))) (a.ofBuf (V (Proc.devRef .tc a.ref))) (b.ofBuf (V (Proc.devRef .tc b.ref)))) from
    ternary_result c.ref a.ref b.ref y.ref _ c.dev a.dev b.dev y.dev V]
  exact ofBuf_toBuf y _

theorem rd_ternary_ne (c : TRef sig Tc) (a : TRef sig Ta) (b : TRef sig Tb) (y : TRef sig Ty) (z : TRef sig Tz)
    (f : Tc.Contents Val → Ta.Contents Val → Tb.Contents Val → Ty.Contents Val) (V : Valuation τ sig Val) (h : z.ref ≠ y.ref) :
    rd z ((TRef.ternary (τ := τ) c a b y f).result V) = rd z V := by
  unfold rd
  rw [show (TRef.ternary (τ := τ) c a b y f).result V (Proc.devRef .tc z.ref) = V (Proc.devRef .tc z.ref) from
    ternary_result_ne (c := c.ref) (a := a.ref) (b := b.ref) (y := y.ref) _ c.dev a.dev b.dev y.dev V h]

end Cert.LibTypedRead
-- ==== Proof.KIHost.lean ====
/-
  What the host operations leave in the buffers the two kernels read.

  Between the launch and the first kernel the host cuts the two rows out of the index array and lays the three
  projection matrices side by side; between the two kernels it gathers the projected rows of every edge's end points,
  forms the scores, splits them by sign, exponentiates, and adds the weights and the weighted source values up per
  target node. Every statement here has the form "this buffer holds that composition of the library's array operations,
  applied to the launch contents and, after the first kernel, to the projected rows the first kernel wrote": the
  operations are read off one after the other, and no index is ever looked at.

  Each stretch is first read over an arbitrary valuation `V` of the buffers it starts from (what it computes is a
  function of `V` at the buffers it reads), then the stretches are chained: a stretch leaves every buffer it does not
  write as it found it, and the first kernel changes only its own output array.
-/
import proofs.«103189_j64295660421655_2_alg».proof.Proof.KIData
import proofs.«103189_j64295660421655_2_alg».proof.Proof.KIStages
import proofs.«103189_j64295660421655_2_alg».proof.Proof.LibTypedRead
import proofs.«103189_j64295660421655_2_alg».proof.Proof.Gen.KernelIdeal.Regions
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.StableHlo
open Idealize.ShloMosaic.Pipeline (Dat Cfg Window)

variable {F : FTy → Type} [FloatOps F]

/-- A join of three operands read at its result: the joining function of the three operands' contents, each at its
    own buffer. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

/-! ## Before the first kernel: the index rows and the joined projection matrix -/

section Stretch0
variable (V : Valuation τ sig (Elt F))

/-- The source row of the index array. -/
theorem after0_v1 : (StableHlo.after hostOps0 V (Proc.devRef .tc main_v1) : Arr F S800000 .i32)
    = srcv (V (Proc.devRef .tc main_arg1)) := by
  after_results
  rfl

/-- The target row of the index array. -/
theorem after0_v3 : (StableHlo.after hostOps0 V (Proc.devRef .tc main_v3) : Arr F S800000 .i32)
    = dstv (V (Proc.devRef .tc main_arg1)) := by
  after_results
  rfl

/-- The three projection matrices side by side. -/
theorem after0_v4 : (StableHlo.after hostOps0 V (Proc.devRef .tc main_v4) : Arr F S128x384 .f32)
    = wcat (V (Proc.devRef .tc main_arg3)) (V (Proc.devRef .tc main_arg4)) (V (Proc.devRef .tc main_arg5)) := by
  simp only [after_cons, after_nil]
  rw [nary3_result]
  repeat (first
    | (rw [StableHlo.reshape_result_ne]; rotate_left; decide)
    | (rw [StableHlo.unary_result_ne]; rotate_left; decide))
  rfl

end Stretch0

/-! ## Between the kernels, first part: the gathered rows and the score before the sign split -/

section Stretch1
variable (V : Valuation τ sig (Elt F))

/-- The score of every edge and head, from the projected rows, the two index rows, the edge features and their
    weights. -/
theorem after1_v39 : (StableHlo.after hostOps1 V (Proc.devRef .tc main_v39) : Arr F S800000x4 .f32)
    = score (rows3 (bandQ (V (Proc.devRef .tc main_v5))) (gcol (V (Proc.devRef .tc main_v3))))
        (rows3 (bandK (V (Proc.devRef .tc main_v5))) (gcol (V (Proc.devRef .tc main_v1))))
        (V (Proc.devRef .tc main_arg2)) (V (Proc.devRef .tc main_arg6)) := by
  after_results_simp <;> rfl

/-- Where the score is not negative. -/
theorem after1_v41 : (StableHlo.after hostOps1 V (Proc.devRef .tc main_v41) : Arr F S800000x4 .i1)
    = cmpf .oge (StableHlo.after hostOps1 V (Proc.devRef .tc main_v39) : Arr F S800000x4 .f32)
        (broadcastInDim S800000x4 ![] bcast_S_S800000x4 (constant (F := F) S_ .f32 0x00000000#32)) := by
  after_results_simp <;> rfl

/-- The score scaled by one fifth. -/
theorem after1_v43 : (StableHlo.after hostOps1 V (Proc.devRef .tc main_v43) : Arr F S800000x4 .f32)
    = mulf (broadcastInDim S800000x4 ![] bcast_S_S800000x4 (constant (F := F) S_ .f32 0x3E4CCCCD#32))
        (StableHlo.after hostOps1 V (Proc.devRef .tc main_v39) : Arr F S800000x4 .f32) := by
  after_results_simp <;> rfl

/-- The value band's rows at the source of every edge, as gathered (before widening and splitting into heads). -/
theorem after1_v30 : (StableHlo.after hostOps1 V (Proc.devRef .tc main_v30) : Arr F S800000x128 .bf16)
    = Host.gather gather_S50000x128_S800000x1_S800000x128_1_0_n_n_0_1_1128 (bandV (V (Proc.devRef .tc main_v5))) (gcol (V (Proc.devRef .tc main_v1))) := by
  after_results_simp <;> rfl

end Stretch1

/-! ## Between the kernels, second part: the sign split (one select, inside a called function) -/

section Stretch11
variable (V : Valuation τ sig (Elt F))

/-- The select of the called function, read at its result. -/
theorem after11_v44 : (StableHlo.after hostOps1_1 V (Proc.devRef .tc main_v44) : Arr F S800000x4 .f32)
    = select (V (Proc.devRef .tc main_v41) : Arr F S800000x4 .i1) (V (Proc.devRef .tc main_v39) : Arr F S800000x4 .f32)
        (V (Proc.devRef .tc main_v43) : Arr F S800000x4 .f32) := by
  have h := Cert.LibTypedRead.rd_ternary (τ := τ) (Val := Elt F)
    (.of main_v41 : StableHlo.TRef sig ⟨S800000x4, .i1⟩) (.of main_v39 : StableHlo.TRef sig ⟨S800000x4, .f32⟩)
    (.of main_v43 : StableHlo.TRef sig ⟨S800000x4, .f32⟩) (.of main_v44 : StableHlo.TRef sig ⟨S800000x4, .f32⟩)
    (select : Arr F S800000x4 .i1 → Arr F S800000x4 .f32 → Arr F S800000x4 .f32 → Arr F S800000x4 .f32) V
  exact h

end Stretch11

/-! ## Between the kernels, third part: weights, their sums per target node, the aggregated values -/

section Stretch12
variable (V : Valuation τ sig (Elt F))

/-- The aggregated values, from the gathered value rows, the split scores and the target row. -/
theorem after12_v60 : (StableHlo.after hostOps1_2 V (Proc.devRef .tc main_v60) : Arr F S50000x128 .f32)
    = aggRaw (shapeCast _ (extf .f32 (V (Proc.devRef .tc main_v30) : Arr F S800000x128 .bf16) bitsLt_bf16_f32)
          shapeCasts_S800000x128_S800000x4x32)
        (wts (V (Proc.devRef .tc main_v44))) (V (Proc.devRef .tc main_v3)) := by
  after_results_simp <;> rfl

/-- The weight sums over each head's lanes, from the split scores and the target row. -/
theorem after12_v62 : (StableHlo.after hostOps1_2 V (Proc.devRef .tc main_v62) : Arr F S50000x128 .f32)
    = sumLanes (wsum (wts (V (Proc.devRef .tc main_v44))) (V (Proc.devRef .tc main_v3))) := by
  after_results_simp <;> rfl

/-- The upper half of the mixing matrix. -/
theorem after12_v63 : (StableHlo.after hostOps1_2 V (Proc.devRef .tc main_v63) : Arr F S128x128 .f32)
    = mixTop (V (Proc.devRef .tc main_arg9)) := by
  after_results_simp <;> rfl

/-- The lower half of the mixing matrix. -/
theorem after12_v64 : (StableHlo.after hostOps1_2 V (Proc.devRef .tc main_v64) : Arr F S128x128 .f32)
    = mixBot (V (Proc.devRef .tc main_arg9)) := by
  after_results_simp <;> rfl

end Stretch12

/-! ## The stretches chained

`W0 … W5` are the buffer contents between the items of the program: the launch, the first stretch, the first kernel
(which changes only its own three arrays, and of those only its output), then the three parts of the second stretch. -/

section Chain
variable (m : (ℓ : Loc nD τ sig) → Buf (Elt F) ℓ) (c : Dev nD)

/-- A buffer the first stretch does not write still holds its launch contents when the first kernel starts. -/
theorem W1_keep {r : Ref sig .tc} (h : r ∉ (hostOps0_W : List (Ref sig .tc))) :
    W1 m c (Proc.devRef .tc r) = m ((c : Thread nD τ).loc r) :=
  StableHlo.after_of_writes_sub hostOps0 _ hostOps0_writes h

/-- The joined projection matrix the first kernel reads. -/
theorem V1_v4 : (V1 m c main_v4 : Arr F S128x384 .f32)
    = wcat (m ((c : Thread nD τ).loc main_arg3)) (m ((c : Thread nD τ).loc main_arg4)) (m ((c : Thread nD τ).loc main_arg5)) :=
  after0_v4 (W0 m c)

/-- The features the first kernel reads are the launch's. -/
theorem V1_arg0 : V1 m c main_arg0 = (m ((c : Thread nD τ).loc main_arg0)) := W1_keep m c (by decide)

/-- A buffer neither the first stretch nor the first kernel writes holds its launch contents after the kernel. -/
theorem W2_keep {r : Ref sig .tc} (h0 : r ∉ (hostOps0_W : List (Ref sig .tc))) (h : ∀ w, Pipeline.arrRef spec0 w ≠ r) :
    W2 m c (Proc.devRef .tc r) = m ((c : Thread nD τ).loc r) :=
  (W2_of_ne m c r h).trans (W1_keep m c h0)

/-- The features are an input array of the first kernel: it leaves them as it found them. -/
theorem W2_arg0 : W2 m c (Proc.devRef .tc main_arg0) = (m ((c : Thread nD τ).loc main_arg0)) :=
  (W2_arr m c 0).trans (((dat0 (V1 m) c).arrAt_in 0 rfl _).trans ((A_eq0 (V1 m) c 0).trans (W1_keep m c (by decide))))

/-- The source row, after the first kernel. -/
theorem W2_v1 : (W2 m c (Proc.devRef .tc main_v1) : Arr F S800000 .i32) = srcv (m ((c : Thread nD τ).loc main_arg1)) :=
  (W2_of_ne m c main_v1 (by decide)).trans (after0_v1 (W0 m c))

/-- The target row, after the first kernel. -/
theorem W2_v3 : (W2 m c (Proc.devRef .tc main_v3) : Arr F S800000 .i32) = dstv (m ((c : Thread nD τ).loc main_arg1)) :=
  (W2_of_ne m c main_v3 (by decide)).trans (after0_v3 (W0 m c))

/-- A buffer the first part of the second stretch does not write. -/
theorem W3_keep {r : Ref sig .tc} (h : r ∉ (hostOps1_W : List (Ref sig .tc))) :
    W3 m c (Proc.devRef .tc r) = W2 m c (Proc.devRef .tc r) :=
  StableHlo.after_of_writes_sub hostOps1 _ hostOps1_writes h

/-- A buffer the sign split does not write. -/
theorem W4_keep {r : Ref sig .tc} (h : r ∉ (hostOps1_1_W : List (Ref sig .tc))) :
    W4 m c (Proc.devRef .tc r) = W3 m c (Proc.devRef .tc r) :=
  StableHlo.after_of_writes_sub hostOps1_1 _ hostOps1_1_writes h

/-- A buffer the last part of the second stretch does not write. -/
theorem W5_keep {r : Ref sig .tc} (h : r ∉ (hostOps1_2_W : List (Ref sig .tc))) :
    W5 m c (Proc.devRef .tc r) = W4 m c (Proc.devRef .tc r) :=
  StableHlo.after_of_writes_sub hostOps1_2 _ hostOps1_2_writes h

/-- The score before the sign split, from the rows the first kernel wrote and the launch contents. -/
theorem W3_v39 : (W3 m c (Proc.devRef .tc main_v39) : Arr F S800000x4 .f32)
    = (score (rows3 (bandQ (W2 m c (Proc.devRef .tc main_v5) : Arr F S50000x384 .bf16)) (gcol (dstv (m ((c : Thread nD τ).loc main_arg1)))))
        (rows3 (bandK (W2 m c (Proc.devRef .tc main_v5) : Arr F S50000x384 .bf16)) (gcol (srcv (m ((c : Thread nD τ).loc main_arg1))))) (m ((c : Thread nD τ).loc main_arg2)) (m ((c : Thread nD τ).loc main_arg6))) := by
  show StableHlo.after hostOps1 (W2 m c) (Proc.devRef .tc main_v39) = _
  rw [after1_v39 (W2 m c), W2_v3, W2_v1, W2_keep m c (r := main_arg2) (by decide) (by decide),
    W2_keep m c (r := main_arg6) (by decide) (by decide)]

/-- The sign split of the score: the select's three operands are the sign mask, the score and its fifth. -/
theorem W4_v44 : (W4 m c (Proc.devRef .tc main_v44) : Arr F S800000x4 .f32)
    = leaky (score (rows3 (bandQ (W2 m c (Proc.devRef .tc main_v5) : Arr F S50000x384 .bf16)) (gcol (dstv (m ((c : Thread nD τ).loc main_arg1)))))
        (rows3 (bandK (W2 m c (Proc.devRef .tc main_v5) : Arr F S50000x384 .bf16)) (gcol (srcv (m ((c : Thread nD τ).loc main_arg1))))) (m ((c : Thread nD τ).loc main_arg2)) (m ((c : Thread nD τ).loc main_arg6))) := by
  show StableHlo.after hostOps1_1 (StableHlo.after hostOps1 (W2 m c)) (Proc.devRef .tc main_v44) = _
  rw [after11_v44, after1_v41, after1_v43]
  exact congrArg leaky (W3_v39 m c)

/-- The gathered value rows are not touched by the sign split. -/
theorem W4_v30 : (W4 m c (Proc.devRef .tc main_v30) : Arr F S800000x128 .bf16)
    = Host.gather gather_S50000x128_S800000x1_S800000x128_1_0_n_n_0_1_1128 (bandV (W2 m c (Proc.devRef .tc main_v5) : Arr F S50000x384 .bf16)) (gcol (srcv (m ((c : Thread nD τ).loc main_arg1)))) := by
  rw [W4_keep m c (r := main_v30) (by decide)]
  show StableHlo.after hostOps1 (W2 m c) (Proc.devRef .tc main_v30) = _
  rw [after1_v30 (W2 m c), W2_v1]

/-- The target row reaches the last part of the second stretch unchanged. -/
theorem W4_v3 : (W4 m c (Proc.devRef .tc main_v3) : Arr F S800000 .i32) = dstv (m ((c : Thread nD τ).loc main_arg1)) :=
  (W4_keep m c (by decide)).trans ((W3_keep m c (by decide)).trans (W2_v3 m c))

/-- A buffer nothing writes before the last part of the second stretch holds its launch contents there. -/
theorem W4_arg {r : Ref sig .tc} (h0 : r ∉ (hostOps0_W : List (Ref sig .tc))) (h : ∀ w, Pipeline.arrRef spec0 w ≠ r)
    (h1 : r ∉ (hostOps1_W : List (Ref sig .tc))) (h11 : r ∉ (hostOps1_1_W : List (Ref sig .tc))) :
    W4 m c (Proc.devRef .tc r) = m ((c : Thread nD τ).loc r) :=
  (W4_keep m c h11).trans ((W3_keep m c h1).trans (W2_keep m c h0 h))

/-- A buffer nothing writes before the second kernel holds its launch contents when that kernel starts. -/
theorem W5_arg {r : Ref sig .tc} (h0 : r ∉ (hostOps0_W : List (Ref sig .tc))) (h : ∀ w, Pipeline.arrRef spec0 w ≠ r)
    (h1 : r ∉ (hostOps1_W : List (Ref sig .tc))) (h11 : r ∉ (hostOps1_1_W : List (Ref sig .tc)))
    (h12 : r ∉ (hostOps1_2_W : List (Ref sig .tc))) :
    W5 m c (Proc.devRef .tc r) = m ((c : Thread nD τ).loc r) :=
  (W5_keep m c h12).trans (W4_arg m c h0 h h1 h11)

/-! ### What the second kernel reads -/

/-- The aggregated values: the value band's rows at every edge's source, weighted, added up per target node. -/
theorem V5_v60 : (V5 m c main_v60 : Arr F S50000x128 .f32)
    = aggRaw (rows3 (bandV (W2 m c (Proc.devRef .tc main_v5) : Arr F S50000x384 .bf16)) (gcol (srcv (m ((c : Thread nD τ).loc main_arg1)))))
        (weightsOf (W2 m c (Proc.devRef .tc main_v5) : Arr F S50000x384 .bf16) (m ((c : Thread nD τ).loc main_arg1)) (m ((c : Thread nD τ).loc main_arg2)) (m ((c : Thread nD τ).loc main_arg6))) (dstv (m ((c : Thread nD τ).loc main_arg1))) := by
  show StableHlo.after hostOps1_2 (W4 m c) (Proc.devRef .tc main_v60) = _
  rw [after12_v60 (W4 m c), W4_v30, W4_v44, W4_v3]
  rfl

/-- The weight sums per target node, repeated over each head's lanes. -/
theorem V5_v62 : (V5 m c main_v62 : Arr F S50000x128 .f32)
    = sumLanes (wsum (weightsOf (W2 m c (Proc.devRef .tc main_v5) : Arr F S50000x384 .bf16) (m ((c : Thread nD τ).loc main_arg1)) (m ((c : Thread nD τ).loc main_arg2)) (m ((c : Thread nD τ).loc main_arg6))) (dstv (m ((c : Thread nD τ).loc main_arg1)))) := by
  show StableHlo.after hostOps1_2 (W4 m c) (Proc.devRef .tc main_v62) = _
  rw [after12_v62 (W4 m c), W4_v44, W4_v3]
  rfl

/-- The upper half of the mixing matrix. -/
theorem V5_v63 : (V5 m c main_v63 : Arr F S128x128 .f32) = mixTop (m ((c : Thread nD τ).loc main_arg9)) := by
  show StableHlo.after hostOps1_2 (W4 m c) (Proc.devRef .tc main_v63) = _
  rw [after12_v63 (W4 m c), W4_arg m c (r := main_arg9) (by decide) (by decide) (by decide) (by decide)]

/-- The lower half of the mixing matrix. -/
theorem V5_v64 : (V5 m c main_v64 : Arr F S128x128 .f32) = mixBot (m ((c : Thread nD τ).loc main_arg9)) := by
  show StableHlo.after hostOps1_2 (W4 m c) (Proc.devRef .tc main_v64) = _
  rw [after12_v64 (W4 m c), W4_arg m c (r := main_arg9) (by decide) (by decide) (by decide) (by decide)]

/-- The features the second kernel reads are the launch's: no stretch writes them and the first kernel only reads them. -/
theorem V5_arg0 : V5 m c main_arg0 = (m ((c : Thread nD τ).loc main_arg0)) :=
  (W5_keep m c (by decide)).trans ((W4_keep m c (by decide)).trans ((W3_keep m c (by decide)).trans (W2_arg0 m c)))

/-- The output projection, its bias and the mixing bias are the launch's. -/
theorem V5_arg7 : V5 m c main_arg7 = (m ((c : Thread nD τ).loc main_arg7)) :=
  W5_arg m c (by decide) (by decide) (by decide) (by decide) (by decide)
theorem V5_arg8 : V5 m c main_arg8 = (m ((c : Thread nD τ).loc main_arg8)) :=
  W5_arg m c (by decide) (by decide) (by decide) (by decide) (by decide)
theorem V5_arg10 : V5 m c main_arg10 = (m ((c : Thread nD τ).loc main_arg10)) :=
  W5_arg m c (by decide) (by decide) (by decide) (by decide) (by decide)

end Chain

end Cert.KernelIdeal.Hand

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.KIValue0.lean ====
/-
  What kernel 0 leaves in its output array, as one function of the two arrays it reads.

  Each grid point t multiplies rows 2000·t … 2000·t+1999 of the node features by the whole joined projection matrix and
  stores the 2000×384 product as rows 2000·t … 2000·t+1999 of the output. At the extended reals a change of float
  format is the identity and the product into a zero accumulator is the plain sum over the 128 contracted positions,
  so entry (p, q) of the block is row 2000·t+p of the features against column q of the matrix: the block is the
  restriction of one whole-array function, and the 25 blocks tile the 50000 rows.
-/
import proofs.«103189_j64295660421655_2_alg».proof.Proof.KIData
import proofs.«103189_j64295660421655_2_alg».proof.Proof.KIStages
import proofs.«103189_j64295660421655_2_alg».proof.Proof.LibMatmulNN
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block rectangle of rank 2. -/
theorem zero_off2 : (![0, 0] : Fin 2 → Nat) = fun _ => 0 := funext fun a => by fin_cases a <;> rfl

/-- Entry (p, q) of the product block: row p of the feature block against column q of the matrix. -/
theorem pay0_apply (x : Vec Ideal S2000x128 .f32) (w : Vec Ideal S128x384 .f32) (p : Fin 2000) (q : Fin 384) :
    k0_pay1 x w (ix2 p q) = ∑ k : Fin 128, x (ix2 p k) * w (ix2 k q) := by
  unfold k0_pay1
  simp only [shapeCast_self]
  exact Cert.LibMatmulNN.matmul_zero_apply dot_S2000x128_S128x384_S2000x384_1_0_0_1_n_n_wf none _ _ p q

/-- A product block whose feature row p is the row of the feature array that the index i names, and whose matrix is
    the whole matrix, is at (p, q) the whole-array product at i. -/
theorem blk0_apply (X : Arr Ideal S50000x128 .f32) (W : Arr Ideal S128x384 .f32)
    (x : Vec Ideal S2000x128 .f32) (w : Vec Ideal S128x384 .f32)
    (p : Fin 2000) (q : Fin 384) (i : S50000x384.Idx)
    (hx : ∀ k : Fin 128, x (ix2 p k) = X (ix2 (n0 := 50000) (n1 := 128) ⟨(i 0).val, (i 0).isLt⟩ k))
    (hw : ∀ k : Fin 128, w (ix2 k q) = W (ix2 (n0 := 128) (n1 := 384) k ⟨(i 1).val, (i 1).isLt⟩)) :
    k0_pay1 x w (ix2 p q) = G0 X W i := by
  rw [pay0_apply]
  unfold G0
  exact Finset.sum_congr rfl fun k _ => by rw [hx k, hw k]

/-- The printed index maps, decided over the grid: the feature and output blocks move down one block of rows per
    point, the matrix block stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole-array product. -/
theorem flushed0_eq (c : Dev nD) (t : Fin cfg0.N) :
    (dat0 (F := Ideal) V c).flushed 2 t
      = ((cfg0.win 2).blk t).view.read (Elt Ideal) (G0 (V c main_arg0) (V c main_v4)) := by
  show (cfg0.win 2).cut (grid0.coords t) ((dat0 (F := Ideal) V c).after 2 t) = _
  rw [after0_2]
  unfold out0_2
  rw [View.canon_unit_zero zero_off2]
  simp only [View.ld_unit_zero (S := S2000x128) zero_off2, View.ld_unit_zero (S := S128x384) zero_off2]
  obtain ⟨e0, e1, e2, e3, e4, e5⟩ := idx_facts0 t
  funext j
  obtain ⟨p, q, rfl⟩ : ∃ (p : Fin 2000) (q : Fin 384), j = ix2 p q := ⟨j 0, j 1, eq_ix2 j⟩
  show k0_pay1 (iblk0 V c 0 t) (iblk0 V c 1 t) (ix2 p q)
    = G0 (V c main_arg0) (V c main_v4) (((cfg0.win 2).blk t).view.emb (ix2 p q))
  refine blk0_apply _ _ _ _ p q _ (fun k => ?_) (fun k => ?_)
  · unfold iblk0
    rw [View.read_apply]
    show V c main_arg0 (((cfg0.win 0).blk t).view.emb (ix2 p k)) = V c main_arg0 _
    congr 1
    funext a
    apply Fin.ext
    match a with
    | ⟨0, _⟩ =>
      show win0_0.index t (0 : Fin 2) * 2000 + 1 * p.val = win0_2.index t (0 : Fin 2) * 2000 + 1 * p.val
      rw [e0, e4]
    | ⟨1, _⟩ =>
      show win0_0.index t (1 : Fin 2) * 128 + 1 * k.val = k.val
      rw [e1]; omega
  · unfold iblk0
    rw [View.read_apply]
    show V c main_v4 (((cfg0.win 1).blk t).view.emb (ix2 k q)) = V c main_v4 _
    congr 1
    funext a
    apply Fin.ext
    match a with
    | ⟨0, _⟩ =>
      show win0_1.index t (0 : Fin 2) * 128 + 1 * k.val = k.val
      rw [e2]; omega
    | ⟨1, _⟩ =>
      show win0_1.index t (1 : Fin 2) * 384 + 1 * q.val = win0_2.index t (1 : Fin 2) * 384 + 1 * q.val
      rw [e3, e5]

/-- An index of the output array is in point t's block iff each coordinate is in the block's range on its axis. -/
theorem mem_blk0 (t : Fin cfg0.N) (i : S50000x384.Idx) :
    i ∈ ((cfg0.win 2).blk t).view.set
      ↔ ∀ a : Fin 2, win0_2.index t a * S2000x384.size a ≤ (i a).val
          ∧ (i a).val < win0_2.index t a * S2000x384.size a + S2000x384.size a := by
  show i ∈ ((View.whole main_v5).slice (win0_2.rect t)).set ↔ _
  rw [View.set_slice_whole, Rect.mem_set_unit]
  exact Iff.rfl

/-- Every index of the output array is in some point's block: row r is in the block of point r / 2000. -/
theorem cover0 (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  let t : Fin cfg0.N := ⟨(i 0).val / 2000, by show (i 0).val / 2000 < 25; omega⟩
  obtain ⟨e0, e1, e2, e3, e4, e5⟩ := idx_facts0 t
  have htv : t.val = (i 0).val / 2000 := rfl
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    rw [e4, htv]; omega
  | ⟨1, _⟩ =>
    show win0_2.index t (1 : Fin 2) * 384 ≤ (i 1).val ∧ (i 1).val < win0_2.index t (1 : Fin 2) * 384 + 384
    rw [e5]; omega

/-- The output array after kernel 0: the whole-array product of the features and the joined projection matrix. -/
theorem region0_value (c : Dev nD) :
    (dat0 (F := Ideal) V c).arrAt 2 cfg0.N = G0 (V c main_arg0) (V c main_v4) :=
  (dat0 (F := Ideal) V c).arrAt_eq_of_cover 2 (G0 (V c main_arg0) (V c main_v4))
    (fun t _ => flushed0_eq V c t) cover0

end

end Cert.KernelIdeal.Hand

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.KIValue1.lean ====
/-
  What kernel 1 leaves in its output array, as one function of the eight arrays it reads.

  Each grid point t takes rows 2000·t … 2000·t+1999 of the node features, of the aggregated values and of the weight
  sums, and the whole of the output projection, its bias, the two halves of the mixing matrix and the mixing bias;
  it divides the aggregate by the weight sum clipped from below, projects, adds the bias, mixes the features and the
  projected aggregate by the two halves, adds the mixing bias, clips at zero, and stores the 2000×128 result as rows
  2000·t … 2000·t+1999 of the output. At the extended reals a change of float format is the identity and a product
  into a zero accumulator is the plain sum over the 128 contracted positions, so entry (p, q) of the block depends
  only on row 2000·t+p of the three row arrays: the block is the restriction of one whole-array function, and the 25
  blocks tile the 50000 rows.
-/
import proofs.«103189_j64295660421655_2_alg».proof.Proof.KIData
import proofs.«103189_j64295660421655_2_alg».proof.Proof.KIStages
import proofs.«103189_j64295660421655_2_alg».proof.Proof.LibMatmulNN
import proofs.«103189_j64295660421655_2_alg».proof.Proof.LibBiasRow
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- The zero offsets of a whole-block rectangle of rank 2, -/
theorem zero_offs2 : (![0, 0] : Fin 2 → Nat) = fun _ => 0 := funext fun a => by fin_cases a <;> rfl
/-- and of rank 1. -/
theorem zero_offs1 : (![0] : Fin 1 → Nat) = fun _ => 0 := funext fun a => by fin_cases a; rfl

/-- Entry (p, q) of the output block: the features' row p against column q of the first half of the mixing matrix,
    plus the projected, biased, normalised aggregate's row p against column q of the second half, plus the mixing
    bias at q, clipped at zero. -/
theorem pay1_apply (x agg asum : Vec Ideal S2000x128 .f32) (wo : Vec Ideal S128x128 .f32) (bo : Vec Ideal S128 .f32)
    (wm1 wm2 : Vec Ideal S128x128 .f32) (bm : Vec Ideal S128 .f32) (p : Fin 2000) (q : Fin 128) :
    k1_pay1 x agg asum wo bo wm1 wm2 bm (ix2 p q)
      = max (((∑ k : Fin 128, x (ix2 p k) * wm1 (ix2 k q))
          + (∑ k : Fin 128, ((∑ i : Fin 128, Ideal.div (agg (ix2 p i)) (max (asum (ix2 p i)) (Ideal.ofBits .f32 0x2B8CBCCC#32)) * wo (ix2 i k))
              + bo (ix1 k)) * wm2 (ix2 k q)))
        + bm (ix1 q)) (Ideal.ofBits .f32 0x00000000#32) := by
  unfold k1_pay1
  simp only [shapeCast_self]
  refine congrArg₂ (fun a b : EReal => max a b) (congrArg₂ (fun a b : EReal => a + b)
    (congrArg₂ (fun a b : EReal => a + b) ?_ ?_) ?_) rfl
  · exact Cert.LibMatmulNN.matmul_zero_apply dot_S2000x128_S128x128_S2000x128_1_0_0_1_n_n_wf none _ _ p q
  · refine (Cert.LibMatmulNN.matmul_zero_apply dot_S2000x128_S128x128_S2000x128_1_0_0_1_n_n_wf none _ _ p q).trans
      (Finset.sum_congr rfl fun k _ => congrArg (fun a : EReal => a * wm2 (ix2 k q)) ?_)
    refine congrArg₂ (fun a b : EReal => a + b) ?_ ?_
    · exact Cert.LibMatmulNN.matmul_zero_apply dot_S2000x128_S128x128_S2000x128_1_0_0_1_n_n_wf none _ _ p k
    · exact BiasRead.bias_rows_apply bo _ _ p k
  · exact BiasRead.bias_rows_apply bm _ _ p q

/-- An output block whose three row blocks are the rows of the three row arrays that the index i names, and whose
    matrices and biases are the whole arrays, is at (p, q) the whole-array function at i. -/
theorem blk1_apply (X A S : Arr Ideal S50000x128 .f32) (Wo : Arr Ideal S128x128 .f32) (Bo : Arr Ideal S128 .f32)
    (W1 W2 : Arr Ideal S128x128 .f32) (Bm : Arr Ideal S128 .f32)
    (x a s : Vec Ideal S2000x128 .f32) (wo : Vec Ideal S128x128 .f32) (bo : Vec Ideal S128 .f32)
    (w1 w2 : Vec Ideal S128x128 .f32) (bm : Vec Ideal S128 .f32)
    (p : Fin 2000) (q : Fin 128) (i : S50000x128.Idx)
    (hx : ∀ k : Fin 128, x (ix2 p k) = X (ix2 (n0 := 50000) (n1 := 128) ⟨(i 0).val, (i 0).isLt⟩ k))
    (ha : ∀ k : Fin 128, a (ix2 p k) = A (ix2 (n0 := 50000) (n1 := 128) ⟨(i 0).val, (i 0).isLt⟩ k))
    (hs : ∀ k : Fin 128, s (ix2 p k) = S (ix2 (n0 := 50000) (n1 := 128) ⟨(i 0).val, (i 0).isLt⟩ k))
    (hwo : ∀ k k' : Fin 128, wo (ix2 k k') = Wo (ix2 k k'))
    (hbo : ∀ k : Fin 128, bo (ix1 k) = Bo (ix1 k))
    (hw1 : ∀ k : Fin 128, w1 (ix2 k q) = W1 (ix2 (n0 := 128) (n1 := 128) k ⟨(i 1).val, (i 1).isLt⟩))
    (hw2 : ∀ k : Fin 128, w2 (ix2 k q) = W2 (ix2 (n0 := 128) (n1 := 128) k ⟨(i 1).val, (i 1).isLt⟩))
    (hbm : bm (ix1 q) = Bm (ix1 (n := 128) ⟨(i 1).val, (i 1).isLt⟩)) :
    k1_pay1 x a s wo bo w1 w2 bm (ix2 p q) = G1 X A S Wo Bo W1 W2 Bm i := by
  rw [pay1_apply]
  unfold G1 proj
  refine congrArg₂ (fun a b : EReal => max a b) (congrArg₂ (fun a b : EReal => a + b)
    (congrArg₂ (fun a b : EReal => a + b) ?_ ?_) hbm) rfl
  · exact Finset.sum_congr rfl fun k _ => by rw [hx k, hw1 k]
  · refine Finset.sum_congr rfl fun k _ => ?_
    rw [hw2 k, hbo k]
    refine congrArg (fun a : EReal => (a + Bo (ix1 k)) * W2 (ix2 (n0 := 128) (n1 := 128) k ⟨(i 1).val, (i 1).isLt⟩)) ?_
    exact Finset.sum_congr rfl fun j _ => by rw [ha j, hs j, hwo j k]

/-- The printed index maps, decided over the grid: the three row blocks and the output block move down one block of
    rows per point, the matrices and the biases stay. -/
theorem idx_rows1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_8.index t (0 : Fin 2) = t.val ∧ win1_8.index t (1 : Fin 2) = 0) :=
  (by decide +kernel : ∀ t : Fin grid1.N, _)
theorem idx_whole1 : ∀ t : Fin cfg1.N,
    (win1_3.index t (0 : Fin 2) = 0 ∧ win1_3.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ win1_4.index t (0 : Fin 1) = 0 ∧ win1_7.index t (0 : Fin 1) = 0 :=
  (by decide +kernel : ∀ t : Fin grid1.N, _)

section
variable (V : (c : Dev nD) → (b : Ref sig .tc) → Buf (Elt Ideal) ((c : Thread nD τ).loc b))

/-- Row p of window 0's block at point t is row 2000·t+p of its array. -/
theorem rows1_0 (c : Dev nD) (t : Fin cfg1.N) (p : Fin 2000) (k : Fin 128) (i : S50000x128.Idx)
    (hi : (i 0).val = 2000 * t.val + p.val) :
    (iblk1 V c 0 t : Vec Ideal S2000x128 .f32) (ix2 p k)
      = (V c main_arg0 : Arr Ideal S50000x128 .f32) (ix2 (n0 := 50000) (n1 := 128) ⟨(i 0).val, (i 0).isLt⟩ k) := by
  have r := (idx_rows1 t).1
  unfold iblk1
  rw [View.read_apply]
  show V c main_arg0 (((cfg1.win 0).blk t).view.emb (ix2 p k)) = V c main_arg0 _
  congr 1
  funext a
  apply Fin.ext
  match a with
  | ⟨0, _⟩ =>
    show win1_0.index t (0 : Fin 2) * 2000 + 1 * p.val = (i 0).val
    rw [r.1, hi]; omega
  | ⟨1, _⟩ =>
    show win1_0.index t (1 : Fin 2) * 128 + 1 * k.val = k.val
    rw [r.2]; omega

/-- Row p of window 1's block at point t is row 2000·t+p of its array. -/
theorem rows1_1 (c : Dev nD) (t : Fin cfg1.N) (p : Fin 2000) (k : Fin 128) (i : S50000x128.Idx)
    (hi : (i 0).val = 2000 * t.val + p.val) :
    (iblk1 V c 1 t : Vec Ideal S2000x128 .f32) (ix2 p k)
      = (V c main_v60 : Arr Ideal S50000x128 .f32) (ix2 (n0 := 50000) (n1 := 128) ⟨(i 0).val, (i 0).isLt⟩ k) := by
  have r := (idx_rows1 t).2.1
  unfold iblk1
  rw [View.read_apply]
  show V c main_v60 (((cfg1.win 1).blk t).view.emb (ix2 p k)) = V c main_v60 _
  congr 1
  funext a
  apply Fin.ext
  match a with
  | ⟨0, _⟩ =>
    show win1_1.index t (0 : Fin 2) * 2000 + 1 * p.val = (i 0).val
    rw [r.1, hi]; omega
  | ⟨1, _⟩ =>
    show win1_1.index t (1 : Fin 2) * 128 + 1 * k.val = k.val
    rw [r.2]; omega

/-- Row p of window 2's block at point t is row 2000·t+p of its array. -/
theorem rows1_2 (c : Dev nD) (t : Fin cfg1.N) (p : Fin 2000) (k : Fin 128) (i : S50000x128.Idx)
    (hi : (i 0).val = 2000 * t.val + p.val) :
    (iblk1 V c 2 t : Vec Ideal S2000x128 .f32) (ix2 p k)
      = (V c main_v62 : Arr Ideal S50000x128 .f32) (ix2 (n0 := 50000) (n1 := 128) ⟨(i 0).val, (i 0).isLt⟩ k) := by
  have r := (idx_rows1 t).2.2.1
  unfold iblk1
  rw [View.read_apply]
  show V c main_v62 (((cfg1.win 2).blk t).view.emb (ix2 p k)) = V c main_v62 _
  congr 1
  funext a
  apply Fin.ext
  match a with
  | ⟨0, _⟩ =>
    show win1_2.index t (0 : Fin 2) * 2000 + 1 * p.val = (i 0).val
    rw [r.1, hi]; omega
  | ⟨1, _⟩ =>
    show win1_2.index t (1 : Fin 2) * 128 + 1 * k.val = k.val
    rw [r.2]; omega

/-- Window 3's block at every point is its whole matrix. -/
theorem whole1_3 (c : Dev nD) (t : Fin cfg1.N) (k k' : Fin 128) :
    (iblk1 V c 3 t : Vec Ideal S128x128 .f32) (ix2 k k') = (V c main_arg7 : Arr Ideal S128x128 .f32) (ix2 k k') := by
  have r := (idx_whole1 t).1
  unfold iblk1
  rw [View.read_apply]
  show V c main_arg7 (((cfg1.win 3).blk t).view.emb (ix2 k k')) = V c main_arg7 _
  congr 1
  funext a
  apply Fin.ext
  match a with
  | ⟨0, _⟩ =>
    show win1_3.index t (0 : Fin 2) * 128 + 1 * k.val = k.val
    rw [r.1]; omega
  | ⟨1, _⟩ =>
    show win1_3.index t (1 : Fin 2) * 128 + 1 * k'.val = k'.val
    rw [r.2]; omega

/-- Window 5's block at every point is its whole matrix. -/
theorem whole1_5 (c : Dev nD) (t : Fin cfg1.N) (k k' : Fin 128) :
    (iblk1 V c 5 t : Vec Ideal S128x128 .f32) (ix2 k k') = (V c main_v63 : Arr Ideal S128x128 .f32) (ix2 k k') := by
  have r := (idx_whole1 t).2.1
  unfold iblk1
  rw [View.read_apply]
  show V c main_v63 (((cfg1.win 5).blk t).view.emb (ix2 k k')) = V c main_v63 _
  congr 1
  funext a
  apply Fin.ext
  match a with
  | ⟨0, _⟩ =>
    show win1_5.index t (0 : Fin 2) * 128 + 1 * k.val = k.val
    rw [r.1]; omega
  | ⟨1, _⟩ =>
    show win1_5.index t (1 : Fin 2) * 128 + 1 * k'.val = k'.val
    rw [r.2]; omega

/-- Window 6's block at every point is its whole matrix. -/
theorem whole1_6 (c : Dev nD) (t : Fin cfg1.N) (k k' : Fin 128) :
    (iblk1 V c 6 t : Vec Ideal S128x128 .f32) (ix2 k k') = (V c main_v64 : Arr Ideal S128x128 .f32) (ix2 k k') := by
  have r := (idx_whole1 t).2.2.1
  unfold iblk1
  rw [View.read_apply]
  show V c main_v64 (((cfg1.win 6).blk t).view.emb (ix2 k k')) = V c main_v64 _
  congr 1
  funext a
  apply Fin.ext
  match a with
  | ⟨0, _⟩ =>
    show win1_6.index t (0 : Fin 2) * 128 + 1 * k.val = k.val
    rw [r.1]; omega
  | ⟨1, _⟩ =>
    show win1_6.index t (1 : Fin 2) * 128 + 1 * k'.val = k'.val
    rw [r.2]; omega

/-- Window 4's block at every point is its whole vector. -/
theorem whole1_4 (c : Dev nD) (t : Fin cfg1.N) (k : Fin 128) :
    (iblk1 V c 4 t : Vec Ideal S128 .f32) (ix1 k) = (V c main_arg8 : Arr Ideal S128 .f32) (ix1 k) := by
  have r := (idx_whole1 t).2.2.2.1
  unfold iblk1
  rw [View.read_apply]
  show V c main_arg8 (((cfg1.win 4).blk t).view.emb (ix1 k)) = V c main_arg8 _
  refine congrArg (V c main_arg8 : Arr Ideal S128 .f32) ((eq_ix1 _).trans (congrArg ix1 (Fin.ext ?_)))
  show win1_4.index t (0 : Fin 1) * 128 + 1 * k.val = k.val
  rw [r]; omega

/-- Window 7's block at every point is its whole vector. -/
theorem whole1_7 (c : Dev nD) (t : Fin cfg1.N) (k : Fin 128) :
    (iblk1 V c 7 t : Vec Ideal S128 .f32) (ix1 k) = (V c main_arg10 : Arr Ideal S128 .f32) (ix1 k) := by
  have r := (idx_whole1 t).2.2.2.2
  unfold iblk1
  rw [View.read_apply]
  show V c main_arg10 (((cfg1.win 7).blk t).view.emb (ix1 k)) = V c main_arg10 _
  refine congrArg (V c main_arg10 : Arr Ideal S128 .f32) ((eq_ix1 _).trans (congrArg ix1 (Fin.ext ?_)))
  show win1_7.index t (0 : Fin 1) * 128 + 1 * k.val = k.val
  rw [r]; omega

/-- What point t writes back is block t of the whole-array function. -/
theorem flushed1_eq (c : Dev nD) (t : Fin cfg1.N) :
    (dat1 (F := Ideal) V c).flushed 8 t
      = ((cfg1.win 8).blk t).view.read (Elt Ideal) (G1 (V c main_arg0) (V c main_v60) (V c main_v62) (V c main_arg7)
          (V c main_arg8) (V c main_v63) (V c main_v64) (V c main_arg10)) := by
  show (cfg1.win 8).cut (grid1.coords t) ((dat1 (F := Ideal) V c).after 8 t) = _
  rw [after1_8]
  unfold out1_8
  rw [View.canon_unit_zero zero_offs2]
  simp only [View.ld_unit_zero (S := S2000x128) zero_offs2, View.ld_unit_zero (S := S128x128) zero_offs2,
    View.ld_unit_zero (S := S128) zero_offs1]
  have r8 := (idx_rows1 t).2.2.2
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t)
      (iblk1 V c 6 t) (iblk1 V c 7 t) (ix2 p q)
    = G1 (V c main_arg0) (V c main_v60) (V c main_v62) (V c main_arg7) (V c main_arg8) (V c main_v63) (V c main_v64)
        (V c main_arg10) (((cfg1.win 8).blk t).view.emb (ix2 p q))
  have h0 : ((((cfg1.win 8).blk t).view.emb (ix2 p q) : S50000x128.Idx) 0).val = 2000 * t.val + p.val := by
    show win1_8.index t (0 : Fin 2) * 2000 + 1 * p.val = 2000 * t.val + p.val
    rw [r8.1]; omega
  refine blk1_apply _ _ _ _ _ _ _ _ _ _ _ _ _ _ _ _ p q _
    (fun k => rows1_0 V c t p k _ h0) (fun k => rows1_1 V c t p k _ h0) (fun k => rows1_2 V c t p k _ h0)
    (fun k k' => whole1_3 V c t k k') (fun k => whole1_4 V c t k)
    (fun k => (whole1_5 V c t k q).trans
      (congrArg (fun z : Fin 128 => (V c main_v63 : Arr Ideal S128x128 .f32) (ix2 k z)) ?_))
    (fun k => (whole1_6 V c t k q).trans
      (congrArg (fun z : Fin 128 => (V c main_v64 : Arr Ideal S128x128 .f32) (ix2 k z)) ?_))
    ((whole1_7 V c t q).trans (congrArg (fun z : Fin 128 => (V c main_arg10 : Arr Ideal S128 .f32) (ix1 z)) ?_))
  all_goals
    apply Fin.ext
    show q.val = win1_8.index t (1 : Fin 2) * 128 + 1 * q.val
    rw [r8.2]; omega

/-- An index of the output array is in point t's block iff each coordinate is in the block's range on its axis. -/
theorem mem_blk1 (t : Fin cfg1.N) (i : S50000x128.Idx) :
    i ∈ ((cfg1.win 8).blk t).view.set
      ↔ ∀ a : Fin 2, win1_8.index t a * S2000x128.size a ≤ (i a).val
          ∧ (i a).val < win1_8.index t a * S2000x128.size a + S2000x128.size a := by
  show i ∈ ((View.whole main_v65).slice (win1_8.rect t)).set ↔ _
  rw [View.set_slice_whole, Rect.mem_set_unit]
  exact Iff.rfl

/-- Every index of the output array is in some point's block: row r is in the block of point r / 2000. -/
theorem cover1 (i : S50000x128.Idx) :
    ∃ t : Fin cfg1.N, (cfg1.win 8).flush t = true ∧ i ∈ ((cfg1.win 8).blk t).view.set := by
  have hi0 : (i 0).val < 50000 := (i 0).isLt
  have hi1 : (i 1).val < 128 := (i 1).isLt
  let t : Fin cfg1.N := ⟨(i 0).val / 2000, by show (i 0).val / 2000 < 25; omega⟩
  obtain ⟨-, -, -, r8⟩ := idx_rows1 t
  have htv : t.val = (i 0).val / 2000 := rfl
  refine ⟨t, flush1_8 t, ?_⟩
  rw [mem_blk1]
  intro a
  match a with
  | ⟨0, _⟩ =>
    show win1_8.index t (0 : Fin 2) * 2000 ≤ (i 0).val ∧ (i 0).val < win1_8.index t (0 : Fin 2) * 2000 + 2000
    rw [r8.1, htv]; omega
  | ⟨1, _⟩ =>
    show win1_8.index t (1 : Fin 2) * 128 ≤ (i 1).val ∧ (i 1).val < win1_8.index t (1 : Fin 2) * 128 + 128
    rw [r8.2]; omega

/-- The output array after kernel 1: the whole-array clipped mix of the features and the projected aggregate. -/
theorem region1_value (c : Dev nD) :
    (dat1 (F := Ideal) V c).arrAt 8 cfg1.N
      = G1 (V c main_arg0) (V c main_v60) (V c main_v62) (V c main_arg7) (V c main_arg8) (V c main_v63)
          (V c main_v64) (V c main_arg10) :=
  (dat1 (F := Ideal) V c).arrAt_eq_of_cover 8 _ (fun t _ => flushed1_eq V c t) cover1

end

end Cert.KernelIdeal.Hand

end
-- ==== Proof.KIOut.lean ====
/-
  The kernel program's result as one term of its arguments.

  The result buffer holds what the second kernel leaves; the second kernel's blocks assemble to one function of the
  arrays it reads; those arrays are what the host operations between the two kernels leave, as compositions of the
  library's array operations over the launch contents and the rows the first kernel wrote; and the first kernel's
  blocks assemble to the product of the features with the three projection matrices laid side by side. Substituting
  each of these into the next gives the result as a function of the eleven arguments alone.
-/
import proofs.«103189_j64295660421655_2_alg».proof.Proof.KIHost
import proofs.«103189_j64295660421655_2_alg».proof.Proof.KIRun
import proofs.«103189_j64295660421655_2_alg».proof.Proof.KIValue0
import proofs.«103189_j64295660421655_2_alg».proof.Proof.KIValue1

noncomputable section

namespace Cert.KernelIdeal.Hand

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (c : Dev nD)

/-- The rows the first kernel wrote: the features times the joined projection matrix. -/
theorem W2_v5 : (W2 m c (Proc.devRef .tc main_v5) : Arr Ideal S50000x384 .bf16)
    = G0 (m ((c : Thread nD τ).loc main_arg0))
        (wcat (m ((c : Thread nD τ).loc main_arg3)) (m ((c : Thread nD τ).loc main_arg4)) (m ((c : Thread nD τ).loc main_arg5))) := by
  refine (W2_arr m c 2).trans ?_
  rw [region0_value (V1 m) c, V1_arg0 m c, V1_v4 m c]

/-- The result buffer after the whole program, as a function of the arguments: with `q` the projected rows, the
    second kernel's function of the features, the aggregated values, the weight sums, the output projection and its
    bias, the two halves of the mixing matrix and the mixing bias. -/
theorem kernel_value : W6 m c (Proc.devRef .tc main_v65)
    = G1 (m ((c : Thread nD τ).loc main_arg0))
        (aggRaw (rows3 (bandV (G0 (m ((c : Thread nD τ).loc main_arg0)) (wcat (m ((c : Thread nD τ).loc main_arg3)) (m ((c : Thread nD τ).loc main_arg4)) (m ((c : Thread nD τ).loc main_arg5))))) (gcol (srcv (m ((c : Thread nD τ).loc main_arg1)))))
          (weightsOf (G0 (m ((c : Thread nD τ).loc main_arg0)) (wcat (m ((c : Thread nD τ).loc main_arg3)) (m ((c : Thread nD τ).loc main_arg4)) (m ((c : Thread nD τ).loc main_arg5)))) (m ((c : Thread nD τ).loc main_arg1)) (m ((c : Thread nD τ).loc main_arg2)) (m ((c : Thread nD τ).loc main_arg6)))
          (dstv (m ((c : Thread nD τ).loc main_arg1))))
        (sumLanes (wsum (weightsOf (G0 (m ((c : Thread nD τ).loc main_arg0)) (wcat (m ((c : Thread nD τ).loc main_arg3)) (m ((c : Thread nD τ).loc main_arg4)) (m ((c : Thread nD τ).loc main_arg5)))) (m ((c : Thread nD τ).loc main_arg1)) (m ((c : Thread nD τ).loc main_arg2)) (m ((c : Thread nD τ).loc main_arg6)))
          (dstv (m ((c : Thread nD τ).loc main_arg1)))))
        (m ((c : Thread nD τ).loc main_arg7)) (m ((c : Thread nD τ).loc main_arg8))
        (mixTop (m ((c : Thread nD τ).loc main_arg9))) (mixBot (m ((c : Thread nD τ).loc main_arg9)))
        (m ((c : Thread nD τ).loc main_arg10)) := by
  rw [W6_main_v65 m c, region1_value (V5 m) c, V5_arg0 m c, V5_v60 m c, V5_v62 m c, V5_arg7 m c, V5_arg8 m c,
    V5_v63 m c, V5_v64 m c, V5_arg10 m c, W2_v5 m c]

end Cert.KernelIdeal.Hand

end
-- ==== Proof.LibRowGatherScatter.lean ====
/-
  Gathering rows by an index column, and scattering rows onto the rows an index column names, read at an index.

  `x[idx]` for a vector `x : [N]` or a matrix `x : [N, D]` and an index column `idx : [E, 1]` lowers to a gather that
  collapses axis 0: entry `e` (row `e`) of the result is the operand's entry (row) at the start index `idx[e, 0]`, read
  as a signed integer and clamped into `[0, N - 1]`. The accumulating scatter of `[E, D]` updates onto an `[N, D]`
  operand reads the same start index signed and does NOT clamp it: update `(e, k)` lands on `(idx[e, 0], k)` when that
  is a row of the operand and is dropped otherwise. So an update that lands on row `n` has start index exactly `n`.
-/
import Idealize.ShloMosaic.Lib.ValueIdx
import Idealize.ShloMosaic.PureOps.Ideal

noncomputable section

namespace RowIndex

open Idealize.ShloMosaic Idealize.ShloMosaic.ValueIdx

variable {α : Type}

/-- The position in the index column `[E, 1]` that entry (row) `e` reads. -/
abbrev colAt {E : Nat} (e : Fin E) : (⟨2, ![E, 1]⟩ : Shape).Idx := ix2 e (0 : Fin 1)

/-- A start index read signed and clamped into `[0, N - 1]`. -/
def clampRow (N : Nat) (hN : 0 < N) {w : Nat} (b : BitVec w) : Fin N := ⟨min b.toInt.toNat (N - 1), by omega⟩

/-! ## Entries of a vector gathered by an index column -/

/-- The gather's dimension numbers for an operand `[N]`, an index column `[E, 1]` and a result `[E]`. -/
abbrev takeEntries (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped start index `idx[e, 0]`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (takeEntries N E wf) x idx e = x (ix1 (clampRow N hN (idx (colAt (e 0))))) := by
  unfold Host.gather
  congr 1
  funext a
  obtain rfl : a = 0 := Subsingleton.elim _ _
  refine Fin.ext ?_
  show (takeEntries N E wf).start e idx 0 + (takeEntries N E wf).batchCoord e 0 + (takeEntries N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeEntries N E wf).startIndexMap from List.mem_singleton.mpr rfl)]
  have hsi : (takeEntries N E wf).siIdx e ⟨List.idxOf (0 : Fin 1) (takeEntries N E wf).startIndexMap,
      List.idxOf_lt_length_iff.2 (List.mem_singleton.mpr rfl)⟩ = colAt (e 0) := by
    funext b; refine Fin.ext ?_
    match b with
    | ⟨0, _⟩ => rfl
    | ⟨1, _⟩ => rfl
  rw [hsi]
  rfl

/-! ## Rows of a matrix gathered by an index column -/

/-- The gather's dimension numbers for an operand `[N, D]`, an index column `[E, 1]` and a result `[E, D]`. -/
abbrev takeRows (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the gathered matrix is the operand at row "clamped `idx[e, 0]`", column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (takeRows N E D wf) x idx j = x (ix2 (clampRow N hN (idx (colAt (j 0)))) (j 1)) := by
  unfold Host.gather
  congr 1
  funext a
  refine Fin.ext ?_
  match a with
  | ⟨0, _⟩ =>
    show (takeRows N E D wf).start j idx 0 + (takeRows N E D wf).batchCoord j 0 + (takeRows N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N E D wf).startIndexMap from List.mem_singleton.mpr rfl)]
    have hsi : (takeRows N E D wf).siIdx j ⟨List.idxOf (0 : Fin 2) (takeRows N E D wf).startIndexMap,
        List.idxOf_lt_length_iff.2 (List.mem_singleton.mpr rfl)⟩ = colAt (j 0) := by
      funext b; refine Fin.ext ?_
      match b with
      | ⟨0, _⟩ => rfl
      | ⟨1, _⟩ => rfl
    rw [hsi]
    rfl
  | ⟨1, _⟩ =>
    show (takeRows N E D wf).start j idx 1 + (takeRows N E D wf).batchCoord j 1 + (takeRows N E D wf).offCoord j 1 = (j 1).val
    rw [GatherDims.batchCoord_eq_zero _ _ _ List.not_mem_nil]
    have hst : (takeRows N E D wf).start j idx 1 = 0 := by
      unfold GatherDims.start
      rw [dif_neg (show ¬ ((1 : Fin 2) ∈ ([0] : List (Fin 2))) by decide)]
    rw [hst]
    simp only [Nat.add_zero, Nat.zero_add]
    rfl

/-! ## Rows scattered onto the rows an index column names -/

/-- The scatter's dimension numbers for an operand `[N, D]`, an index column `[E, 1]` and updates `[E, D]`. -/
abbrev putRows (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, k)` that lands on the operand's entry `i` has start index `idx[e, 0]`, read signed, equal to `i`'s
    row: the scatter does not clamp. -/
theorem scatter_rows_landing {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (putRows N E D wf).resultIdx? j idx = some i) : (idx (colAt (j 0))).toInt = ((i 0).val : ℤ) := by
  unfold ScatterDims.resultIdx? at h
  split at h
  · rename_i hc
    have h0 := (hc 0).1
    have hi := congrFun (Option.some.inj h) 0
    have hs : (putRows N E D wf).start j idx 0 = (idx (colAt (j 0))).toInt := by
      unfold ScatterDims.start
      rw [dif_pos (show (0 : Fin 2) ∈ (putRows N E D wf).scatterDimsToOperandDims from List.mem_singleton.mpr rfl)]
      have hsi : (putRows N E D wf).siIdx j ⟨List.idxOf (0 : Fin 2) (putRows N E D wf).scatterDimsToOperandDims,
          List.idxOf_lt_length_iff.2 (List.mem_singleton.mpr rfl)⟩ = colAt (j 0) := by
        funext b; refine Fin.ext ?_
        match b with
        | ⟨0, _⟩ => rfl
        | ⟨1, _⟩ => rfl
      rw [hsi]
      rfl
    have hw : (putRows N E D wf).window j 0 = 0 := by
      unfold ScatterDims.window
      have hmem : (0 : Fin 2) ∉ (putRows N E D wf).sKept :=
        (show ¬ ((0 : Fin 2) ∈ (List.finRange 2).filter (fun a => a ∉ [(0 : Fin 2)])) by decide)
      rw [dif_neg hmem]
    have hi' : (i 0).val = ((putRows N E D wf).start j idx 0 + ((putRows N E D wf).window j 0 : ℕ)).toNat := by
      rw [← hi]
    rw [hs, hw] at hi'
    rw [hs, hw] at h0
    omega
  · exact absurd h (by simp)

/-- A start index that is a row number `n < N` read signed is not negative, and clamps to `n`. -/
theorem clampRow_of_toInt {N w : Nat} (hN : 0 < N) (b : BitVec w) (n : Fin N) (h : b.toInt = (n.val : ℤ)) :
    clampRow N hN b = n := by
  refine Fin.ext ?_
  show min b.toInt.toNat (N - 1) = n.val
  rw [h]
  have := n.isLt
  simp only [Int.toNat_natCast]
  omega

end RowIndex

end
-- ==== Proof.LibScatterRows.lean ====
/-
  The accumulating scatter of rows, read at an element.

  An operand `[N, D]` receives `E` update rows `[E, D]`; row `e` is added onto the operand row whose number is the
  entry `(e, 0)` of an index column `[E, 1]`, read as a signed integer (a row whose index is negative or at least `N`
  is dropped). Over the extended reals the additions commute, so the element `(v, c)` of the result is the operand's
  element plus the sum, over the rows `e` whose index is `v`, of the update's element `(e, c)`. The same holds for
  a vector `[E]` of updates added onto a vector `[N]`.
-/
import Idealize.ShloMosaic.PureOps.Ideal
import Idealize.ShloMosaic.Lib.ValueIdx

noncomputable section

namespace Cert.ScatterRows

open Idealize.ShloMosaic Idealize.ShloMosaic.ValueIdx

/-! ## Rows `[E, D]` onto `[N, D]` -/

/-- The dimension numbers of a scatter of update rows `[E, D]` onto an operand `[N, D]` by an index column `[E, 1]`:
    the updates' axis 1 is the window axis, the operand's axis 0 is the scattered one, the index vector lies on the
    indices' axis 1. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Rows
variable {N D E w : Nat} (wf : ScatterDims.WF ⟨2, ![N, D]⟩ ⟨2, ![E, 1]⟩ ⟨2, ![E, D]⟩ [1] [0] [0] 1)

/-- The window of update element `(e, c)` starts, on the operand's row axis, at the index `(e, 0)` read signed. -/
theorem rows_start_zero (j : (⟨2, ![E, D]⟩ : Shape).Idx) (idx : IVec ⟨2, ![E, 1]⟩ w) :
    (rowsDims N D E wf).start j idx 0 = (idx (ix2 (j 0) (0 : Fin 1))).toInt := by
  unfold ScatterDims.start
  rw [dif_pos (show (0 : Fin 2) ∈ (rowsDims N D E wf).scatterDimsToOperandDims from List.mem_singleton.mpr rfl)]
  have hsi : (rowsDims N D E wf).siIdx j ⟨List.idxOf (0 : Fin 2) (rowsDims N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at `0` on the operand's column axis, which the index column does not name. -/
theorem rows_start_one (j : (⟨2, ![E, D]⟩ : Shape).Idx) (idx : IVec ⟨2, ![E, 1]⟩ w) :
    (rowsDims N D E wf).start j idx 1 = 0 := by
  unfold ScatterDims.start
  rw [dif_neg (show ¬ (1 : Fin 2) ∈ (rowsDims N D E wf).scatterDimsToOperandDims from
    (show (1 : Fin 2) ∉ ([0] : List (Fin 2)) by decide))]

/-- The window coordinate of update element `(e, c)` is `0` on the row axis … -/
theorem rows_window_zero (j : (⟨2, ![E, D]⟩ : Shape).Idx) : (rowsDims N D E wf).window j 0 = 0 := by
  unfold ScatterDims.window
  rw [dif_neg (show ¬ (0 : Fin 2) ∈ (rowsDims N D E wf).sKept from
    (show (0 : Fin 2) ∉ (List.finRange 2).filter (fun a => a ∉ ([0] : List (Fin 2))) by decide))]

/-- … and `c` on the column axis. -/
theorem rows_window_one (j : (⟨2, ![E, D]⟩ : Shape).Idx) : (rowsDims N D E wf).window j 1 = (j 1).val := by
  unfold ScatterDims.window
  rw [dif_pos (show (1 : Fin 2) ∈ (rowsDims N D E wf).sKept from
    (show (1 : Fin 2) ∈ (List.finRange 2).filter (fun a => a ∉ ([0] : List (Fin 2))) by decide))]
  rfl

/-- WHERE AN UPDATE ELEMENT LANDS: element `(e, c)` of the updates lands on element `(v, c')` of the operand exactly
    when the index `(e, 0)`, read signed, is `v` and `c = c'`. -/
theorem rows_resultIdx?_eq_some_iff (j : (⟨2, ![E, D]⟩ : Shape).Idx) (idx : IVec ⟨2, ![E, 1]⟩ w)
    (i : (⟨2, ![N, D]⟩ : Shape).Idx) :
    (rowsDims N D E wf).resultIdx? j idx = some i ↔
      (idx (ix2 (j 0) (0 : Fin 1))).toInt = ((i 0).val : Int) ∧ (j 1).val = (i 1).val := by
  unfold ScatterDims.resultIdx?
  have h0 := rows_start_zero wf j idx
  have h1 := rows_start_one wf j idx
  have w0 := rows_window_zero wf j
  have w1 := rows_window_one wf j
  have hi0 : (i 0).val < N := idx2_lt0 i
  have hi1 : (i 1).val < D := idx2_lt1 i
  split
  · rename_i h
    rw [Option.some.injEq]
    constructor
    · intro hE
      have e0 := congrArg (fun k => (k 0).val) hE
      have e1 := congrArg (fun k => (k 1).val) hE
      simp only [h0, h1, w0, w1] at e0 e1
      have g0 := (h 0).1
      rw [h0, w0] at g0
      constructor <;> omega
    · rintro ⟨e0, e1⟩
      funext a; refine Fin.ext ?_
      match a with
      | ⟨0, _⟩ => show ((rowsDims N D E wf).start j idx 0 + ((rowsDims N D E wf).window j 0 : Int)).toNat = (i 0).val; rw [h0, w0]; omega
      | ⟨1, _⟩ => show ((rowsDims N D E wf).start j idx 1 + ((rowsDims N D E wf).window j 1 : Int)).toNat = (i 1).val; rw [h1, w1]; omega
  · rename_i h
    constructor
    · intro hE; exact absurd hE (by simp)
    · rintro ⟨e0, e1⟩
      exfalso; apply h
      intro a
      match a with
      | ⟨0, _⟩ =>
        show 0 ≤ (rowsDims N D E wf).start j idx 0 + ((rowsDims N D E wf).window j 0 : Int) ∧ (rowsDims N D E wf).start j idx 0 + ((rowsDims N D E wf).window j 0 : Int) < (N : Int)
        rw [h0, w0]; omega
      | ⟨1, _⟩ =>
        show 0 ≤ (rowsDims N D E wf).start j idx 1 + ((rowsDims N D E wf).window j 1 : Int) ∧ (rowsDims N D E wf).start j idx 1 + ((rowsDims N D E wf).window j 1 : Int) < (D : Int)
        rw [h1, w1]; omega

/-- THE SCATTER OF ROWS READ AT `(v, c)`: the operand there plus the sum, over the rows `e` whose index `(e, 0)` read
    signed is `v`, of the update at `(e, c)`. -/
theorem hostScatterAdd_rows_apply (x : (⟨2, ![N, D]⟩ : Shape).Idx → EReal) (idx : IVec ⟨2, ![E, 1]⟩ w)
    (upd : (⟨2, ![E, D]⟩ : Shape).Idx → EReal) (v : Fin N) (c : Fin D) :
    Ideal.hostScatterAdd (rowsDims N D E wf) x idx upd (ix2 v c)
      = x (ix2 v c) + ∑ e : Fin E, if (idx (ix2 e (0 : Fin 1))).toInt = (v.val : Int) then upd (ix2 e c) else 0 := by
  unfold Ideal.hostScatterAdd
  congr 1
  rw [Finset.sum_filter, sum_idx2]
  refine Finset.sum_congr rfl fun e _ => ?_
  have hiff : ∀ c' : Fin D, ((rowsDims N D E wf).resultIdx? (ix2 e c') idx = some (ix2 v c)) ↔
      ((idx (ix2 e (0 : Fin 1))).toInt = (v.val : Int) ∧ c' = c) := by
    intro c'
    rw [rows_resultIdx?_eq_some_iff]
    exact and_congr Iff.rfl Fin.val_inj
  simp only [hiff]
  by_cases hv : (idx (ix2 e (0 : Fin 1))).toInt = (v.val : Int)
  · simp only [hv, true_and, if_true]
    rw [Finset.sum_ite_eq' Finset.univ c (fun c' => upd (ix2 e c'))]
    simp
  · simp only [hv, false_and, if_false]
    exact Finset.sum_const_zero

/-- The same for the program's operation `Host.scatterAdd`, which at the ideal values is that exact sum. -/
theorem scatterAdd_rows_apply {φ : FTy} (x : (⟨2, ![N, D]⟩ : Shape).Idx → EReal) (idx : IVec ⟨2, ![E, 1]⟩ w)
    (upd : (⟨2, ![E, D]⟩ : Shape).Idx → EReal) (v : Fin N) (c : Fin D) :
    Host.scatterAdd (F := Ideal) (φ := φ) (rowsDims N D E wf) x idx upd (ix2 v c)
      = x (ix2 v c) + ∑ e : Fin E, if (idx (ix2 e (0 : Fin 1))).toInt = (v.val : Int) then upd (ix2 e c) else 0 :=
  hostScatterAdd_rows_apply wf x idx upd v c

end Rows

/-! ## A vector `[E]` onto `[N]` -/

/-- The dimension numbers of a scatter of update entries `[E]` onto an operand `[N]` by an index column `[E, 1]`: no
    window axis, the operand's only axis is the scattered one, the index vector lies on the indices' axis 1. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)

/-- The window of update entry `e` starts at the index `(e, 0)` read signed. -/
theorem vec_start_zero (j : (⟨1, ![E]⟩ : Shape).Idx) (idx : IVec ⟨2, ![E, 1]⟩ w) :
    (vecDims N E wf).start j idx 0 = (idx (ix2 (j 0) (0 : Fin 1))).toInt := by
  unfold ScatterDims.start
  rw [dif_pos (show (0 : Fin 1) ∈ (vecDims N E wf).scatterDimsToOperandDims from List.mem_singleton.mpr rfl)]
  have hsi : (vecDims N E wf).siIdx j ⟨List.idxOf (0 : Fin 1) (vecDims N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Its window coordinate is `0`: the operand's axis is an inserted one. -/
theorem vec_window_zero (j : (⟨1, ![E]⟩ : Shape).Idx) : (vecDims N E wf).window j 0 = 0 := by
  unfold ScatterDims.window
  rw [dif_neg (show ¬ (0 : Fin 1) ∈ (vecDims N E wf).sKept from
    (show (0 : Fin 1) ∉ (List.finRange 1).filter (fun a => a ∉ ([0] : List (Fin 1))) by decide))]

/-- WHERE AN UPDATE ENTRY LANDS: entry `e` lands on entry `v` of the operand exactly when the index `(e, 0)`, read
    signed, is `v`. -/
theorem vec_resultIdx?_eq_some_iff (j : (⟨1, ![E]⟩ : Shape).Idx) (idx : IVec ⟨2, ![E, 1]⟩ w)
    (i : (⟨1, ![N]⟩ : Shape).Idx) :
    (vecDims N E wf).resultIdx? j idx = some i ↔ (idx (ix2 (j 0) (0 : Fin 1))).toInt = ((i 0).val : Int) := by
  unfold ScatterDims.resultIdx?
  have h0 := vec_start_zero wf j idx
  have w0 := vec_window_zero wf j
  have hi0 : (i 0).val < N := (i 0).isLt
  split
  · rename_i h
    rw [Option.some.injEq]
    constructor
    · intro hE
      have e0 := congrArg (fun k => (k 0).val) hE
      simp only [h0, w0] at e0
      have g0 := (h 0).1
      rw [h0, w0] at g0
      omega
    · intro e0
      funext a; refine Fin.ext ?_
      match a with
      | ⟨0, _⟩ => show ((vecDims N E wf).start j idx 0 + ((vecDims N E wf).window j 0 : Int)).toNat = (i 0).val; rw [h0, w0]; omega
  · rename_i h
    constructor
    · intro hE; exact absurd hE (by simp)
    · intro e0
      exfalso; apply h
      intro a
      match a with
      | ⟨0, _⟩ =>
        show 0 ≤ (vecDims N E wf).start j idx 0 + ((vecDims N E wf).window j 0 : Int) ∧ (vecDims N E wf).start j idx 0 + ((vecDims N E wf).window j 0 : Int) < (N : Int)
        rw [h0, w0]; omega

/-- THE SCATTER OF A VECTOR READ AT `v`: the operand there plus the sum, over the entries `e` whose index `(e, 0)`
    read signed is `v`, of the update at `e`. -/
theorem hostScatterAdd_vec_apply (x : (⟨1, ![N]⟩ : Shape).Idx → EReal) (idx : IVec ⟨2, ![E, 1]⟩ w)
    (upd : (⟨1, ![E]⟩ : Shape).Idx → EReal) (v : Fin N) :
    Ideal.hostScatterAdd (vecDims N E wf) x idx upd (ix1 v)
      = x (ix1 v) + ∑ e : Fin E, if (idx (ix2 e (0 : Fin 1))).toInt = (v.val : Int) then upd (ix1 e) else 0 := by
  unfold Ideal.hostScatterAdd
  congr 1
  rw [Finset.sum_filter]
  have hsum : ∀ f : (⟨1, ![E]⟩ : Shape).Idx → EReal, ∑ j, f j = ∑ e : Fin E, f (ix1 e) := by
    intro f
    refine (Fintype.sum_equiv ⟨fun e : Fin E => (ix1 e : (⟨1, ![E]⟩ : Shape).Idx), fun j => j 0, fun _ => rfl,
      fun j => (eq_ix1 j).symm⟩ _ _ (fun _ => rfl)).symm
  rw [hsum]
  refine Finset.sum_congr rfl fun e _ => ?_
  have hiff : ((vecDims N E wf).resultIdx? (ix1 e) idx = some (ix1 v)) ↔
      ((idx (ix2 e (0 : Fin 1))).toInt = (v.val : Int)) := by
    exact vec_resultIdx?_eq_some_iff wf (ix1 e) idx (ix1 v)
  simp only [hiff]

/-- The same for the program's operation `Host.scatterAdd`, which at the ideal values is that exact sum. -/
theorem scatterAdd_vec_apply {φ : FTy} (x : (⟨1, ![N]⟩ : Shape).Idx → EReal) (idx : IVec ⟨2, ![E, 1]⟩ w)
    (upd : (⟨1, ![E]⟩ : Shape).Idx → EReal) (v : Fin N) :
    Host.scatterAdd (F := Ideal) (φ := φ) (vecDims N E wf) x idx upd (ix1 v)
      = x (ix1 v) + ∑ e : Fin E, if (idx (ix2 e (0 : Fin 1))).toInt = (v.val : Int) then upd (ix1 e) else 0 :=
  hostScatterAdd_vec_apply wf x idx upd v

end Vec

end Cert.ScatterRows

end
-- ==== Proof.LibSlabRows.lean ====
/-
  Gathering slabs by an index column, and the accumulating scatter of slabs, read at an element.

  A table `[N, B, C]` holds one `[B, C]` slab per row number. `x[idx]` for an index column `idx : [E, 1]` lowers to a
  gather that collapses axis 0: slab `e` of the result is the table's slab at the start index `idx[e, 0]`, read as a
  signed integer and clamped into `[0, N - 1]`. The accumulating scatter of `[E, B, C]` updates onto an `[N, B, C]`
  operand reads the same start index signed and does NOT clamp it: update `(e, b, c)` lands on `(idx[e, 0], b, c)` when
  that is a row of the operand and is dropped otherwise. Over the extended reals the additions commute, so the element
  `(v, b, c)` of the result is the operand's element plus the sum, over the rows `e` whose index is `v`, of the update's
  element `(e, b, c)`.
-/
import Idealize.ShloMosaic.PureOps.Ideal
import Idealize.ShloMosaic.Lib.ValueIdx
import proofs.«103189_j64295660421655_2_alg».proof.Proof.LibRowGatherScatter

noncomputable section

namespace Cert.SlabRows

open Idealize.ShloMosaic Idealize.ShloMosaic.ValueIdx

/-! ## Indices of a rank-3 array -/

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Slabs of a table gathered by an index column -/

variable {α : Type}

/-- The gather's dimension numbers for an operand `[N, B, C]`, an index column `[E, 1]` and a result `[E, B, C]`. -/
abbrev takeSlabs (N E B C : Nat)
    (wf : GatherDims.WF ⟨3, ![N, B, C]⟩ ⟨2, ![E, 1]⟩ ⟨3, ![E, B, C]⟩ [1, 2] [0] [] [0] [] 1 ![1, B, C]) :
    GatherDims ⟨3, ![N, B, C]⟩ ⟨2, ![E, 1]⟩ ⟨3, ![E, B, C]⟩ where
  offsetDims := [1, 2]
  collapsedSliceDims := [0]
  operandBatchingDims := []
  startIndicesBatchingDims := []
  startIndexMap := [0]
  indexVectorDim := 1
  sliceSizes := ![1, B, C]
  wf := wf

/-- Entry `(e, b, c)` of the gathered array is the operand at row "clamped `idx[e, 0]`", position `(b, c)` of its slab. -/
theorem gather_slabs_apply {N E B C w : Nat} (hN : 0 < N)
    (wf : GatherDims.WF ⟨3, ![N, B, C]⟩ ⟨2, ![E, 1]⟩ ⟨3, ![E, B, C]⟩ [1, 2] [0] [] [0] [] 1 ![1, B, C])
    (x : (⟨3, ![N, B, C]⟩ : Shape).Idx → α) (idx : IVec ⟨2, ![E, 1]⟩ w) (j : (⟨3, ![E, B, C]⟩ : Shape).Idx) :
    Host.gather (takeSlabs N E B C wf) x idx j
      = x (ix3 (RowIndex.clampRow N hN (idx (RowIndex.colAt (j 0)))) (j 1) (j 2)) := by
  unfold Host.gather
  congr 1
  funext a
  refine Fin.ext ?_
  match a with
  | ⟨0, _⟩ =>
    show (takeSlabs N E B C wf).start j idx 0 + (takeSlabs N E B C wf).batchCoord j 0
      + (takeSlabs N E B C wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeSlabs N E B C wf).startIndexMap from List.mem_singleton.mpr rfl)]
    have hsi : (takeSlabs N E B C wf).siIdx j ⟨List.idxOf (0 : Fin 3) (takeSlabs N E B C wf).startIndexMap,
        List.idxOf_lt_length_iff.2 (List.mem_singleton.mpr rfl)⟩ = RowIndex.colAt (j 0) := by
      funext b; refine Fin.ext ?_
      match b with
      | ⟨0, _⟩ => rfl
      | ⟨1, _⟩ => rfl
    rw [hsi]
    rfl
  | ⟨1, _⟩ =>
    show (takeSlabs N E B C wf).start j idx 1 + (takeSlabs N E B C wf).batchCoord j 1
      + (takeSlabs N E B C wf).offCoord j 1 = (j 1).val
    rw [GatherDims.batchCoord_eq_zero _ _ _ List.not_mem_nil]
    have hst : (takeSlabs N E B C wf).start j idx 1 = 0 := by
      unfold GatherDims.start
      rw [dif_neg (show ¬ ((1 : Fin 3) ∈ ([0] : List (Fin 3))) by decide)]
    rw [hst]
    simp only [Nat.add_zero, Nat.zero_add]
    rfl
  | ⟨2, _⟩ =>
    show (takeSlabs N E B C wf).start j idx 2 + (takeSlabs N E B C wf).batchCoord j 2
      + (takeSlabs N E B C wf).offCoord j 2 = (j 2).val
    rw [GatherDims.batchCoord_eq_zero _ _ _ List.not_mem_nil]
    have hst : (takeSlabs N E B C wf).start j idx 2 = 0 := by
      unfold GatherDims.start
      rw [dif_neg (show ¬ ((2 : Fin 3) ∈ ([0] : List (Fin 3))) by decide)]
    rw [hst]
    simp only [Nat.add_zero, Nat.zero_add]
    rfl

/-! ## Slabs `[E, B, C]` added onto `[N, B, C]` -/

/-- The dimension numbers of a scatter of update slabs `[E, B, C]` onto an operand `[N, B, C]` by an index column
    `[E, 1]`: the updates' axes 1 and 2 are the window axes, the operand's axis 0 is the scattered one, the index vector
    lies on the indices' axis 1. -/
abbrev slabsDims (N B C E : Nat)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ where
  updateWindowDims := [1, 2]
  insertedWindowDims := [0]
  scatterDimsToOperandDims := [0]
  indexVectorDim := 1
  wf := wf

section Slabs
variable {N B C E w : Nat} (wf : ScatterDims.WF ⟨3, ![N, B, C]⟩ ⟨2, ![E, 1]⟩ ⟨3, ![E, B, C]⟩ [1, 2] [0] [0] 1)

/-- The window of update element `(e, b, c)` starts, on the operand's row axis, at the index `(e, 0)` read signed. -/
theorem slabs_start_zero (j : (⟨3, ![E, B, C]⟩ : Shape).Idx) (idx : IVec ⟨2, ![E, 1]⟩ w) :
    (slabsDims N B C E wf).start j idx 0 = (idx (ix2 (j 0) (0 : Fin 1))).toInt := by
  unfold ScatterDims.start
  rw [dif_pos (show (0 : Fin 3) ∈ (slabsDims N B C E wf).scatterDimsToOperandDims from List.mem_singleton.mpr rfl)]
  have hsi : (slabsDims N B C E wf).siIdx j ⟨List.idxOf (0 : Fin 3) (slabsDims N B C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and at `0` on the operand's two slab axes, which the index column does not name. -/
theorem slabs_start_one (j : (⟨3, ![E, B, C]⟩ : Shape).Idx) (idx : IVec ⟨2, ![E, 1]⟩ w) :
    (slabsDims N B C E wf).start j idx 1 = 0 := by
  unfold ScatterDims.start
  rw [dif_neg (show ¬ (1 : Fin 3) ∈ (slabsDims N B C E wf).scatterDimsToOperandDims from
    (show (1 : Fin 3) ∉ ([0] : List (Fin 3)) by decide))]

theorem slabs_start_two (j : (⟨3, ![E, B, C]⟩ : Shape).Idx) (idx : IVec ⟨2, ![E, 1]⟩ w) :
    (slabsDims N B C E wf).start j idx 2 = 0 := by
  unfold ScatterDims.start
  rw [dif_neg (show ¬ (2 : Fin 3) ∈ (slabsDims N B C E wf).scatterDimsToOperandDims from
    (show (2 : Fin 3) ∉ ([0] : List (Fin 3)) by decide))]

/-- The window coordinate of update element `(e, b, c)` is `0` on the row axis … -/
theorem slabs_window_zero (j : (⟨3, ![E, B, C]⟩ : Shape).Idx) : (slabsDims N B C E wf).window j 0 = 0 := by
  unfold ScatterDims.window
  rw [dif_neg (show ¬ (0 : Fin 3) ∈ (slabsDims N B C E wf).sKept from
    (show (0 : Fin 3) ∉ (List.finRange 3).filter (fun a => a ∉ ([0] : List (Fin 3))) by decide))]

/-- … `b` on the first slab axis … -/
theorem slabs_window_one (j : (⟨3, ![E, B, C]⟩ : Shape).Idx) : (slabsDims N B C E wf).window j 1 = (j 1).val := by
  unfold ScatterDims.window
  rw [dif_pos (show (1 : Fin 3) ∈ (slabsDims N B C E wf).sKept from
    (show (1 : Fin 3) ∈ (List.finRange 3).filter (fun a => a ∉ ([0] : List (Fin 3))) by decide))]
  rfl

/-- … and `c` on the second. -/
theorem slabs_window_two (j : (⟨3, ![E, B, C]⟩ : Shape).Idx) : (slabsDims N B C E wf).window j 2 = (j 2).val := by
  unfold ScatterDims.window
  rw [dif_pos (show (2 : Fin 3) ∈ (slabsDims N B C E wf).sKept from
    (show (2 : Fin 3) ∈ (List.finRange 3).filter (fun a => a ∉ ([0] : List (Fin 3))) by decide))]
  rfl

/-- WHERE AN UPDATE ELEMENT LANDS: element `(e, b, c)` of the updates lands on element `(v, b', c')` of the operand
    exactly when the index `(e, 0)`, read signed, is `v` and `b = b'`, `c = c'`. -/
theorem slabs_resultIdx?_eq_some_iff (j : (⟨3, ![E, B, C]⟩ : Shape).Idx) (idx : IVec ⟨2, ![E, 1]⟩ w)
    (i : (⟨3, ![N, B, C]⟩ : Shape).Idx) :
    (slabsDims N B C E wf).resultIdx? j idx = some i ↔
      (idx (ix2 (j 0) (0 : Fin 1))).toInt = ((i 0).val : Int) ∧ (j 1).val = (i 1).val ∧ (j 2).val = (i 2).val := by
  unfold ScatterDims.resultIdx?
  have h0 := slabs_start_zero wf j idx
  have h1 := slabs_start_one wf j idx
  have h2 := slabs_start_two wf j idx
  have w0 := slabs_window_zero wf j
  have w1 := slabs_window_one wf j
  have w2 := slabs_window_two wf j
  have hi0 : (i 0).val < N := idx3_lt0 i
  have hi1 : (i 1).val < B := idx3_lt1 i
  have hi2 : (i 2).val < C := idx3_lt2 i
  split
  · rename_i h
    rw [Option.some.injEq]
    constructor
    · intro hE
      have e0 := congrArg (fun k => (k 0).val) hE
      have e1 := congrArg (fun k => (k 1).val) hE
      have e2 := congrArg (fun k => (k 2).val) hE
      simp only [h0, h1, h2, w0, w1, w2] at e0 e1 e2
      have g0 := (h 0).1
      rw [h0, w0] at g0
      refine ⟨?_, ?_, ?_⟩ <;> omega
    · rintro ⟨e0, e1, e2⟩
      funext a; refine Fin.ext ?_
      match a with
      | ⟨0, _⟩ =>
        show ((slabsDims N B C E wf).start j idx 0 + ((slabsDims N B C E wf).window j 0 : Int)).toNat = (i 0).val
        rw [h0, w0]; omega
      | ⟨1, _⟩ =>
        show ((slabsDims N B C E wf).start j idx 1 + ((slabsDims N B C E wf).window j 1 : Int)).toNat = (i 1).val
        rw [h1, w1]; omega
      | ⟨2, _⟩ =>
        show ((slabsDims N B C E wf).start j idx 2 + ((slabsDims N B C E wf).window j 2 : Int)).toNat = (i 2).val
        rw [h2, w2]; omega
  · rename_i h
    constructor
    · intro hE; exact absurd hE (by simp)
    · rintro ⟨e0, e1, e2⟩
      exfalso; apply h
      intro a
      match a with
      | ⟨0, _⟩ =>
        show 0 ≤ (slabsDims N B C E wf).start j idx 0 + ((slabsDims N B C E wf).window j 0 : Int)
          ∧ (slabsDims N B C E wf).start j idx 0 + ((slabsDims N B C E wf).window j 0 : Int) < (N : Int)
        rw [h0, w0]; omega
      | ⟨1, _⟩ =>
        show 0 ≤ (slabsDims N B C E wf).start j idx 1 + ((slabsDims N B C E wf).window j 1 : Int)
          ∧ (slabsDims N B C E wf).start j idx 1 + ((slabsDims N B C E wf).window j 1 : Int) < (B : Int)
        rw [h1, w1]; omega
      | ⟨2, _⟩ =>
        show 0 ≤ (slabsDims N B C E wf).start j idx 2 + ((slabsDims N B C E wf).window j 2 : Int)
          ∧ (slabsDims N B C E wf).start j idx 2 + ((slabsDims N B C E wf).window j 2 : Int) < (C : Int)
        rw [h2, w2]; omega

/-- THE SCATTER OF SLABS READ AT `(v, b, c)`: the operand there plus the sum, over the rows `e` whose index `(e, 0)` read
    signed is `v`, of the update at `(e, b, c)`. -/
theorem hostScatterAdd_slabs_apply (x : (⟨3, ![N, B, C]⟩ : Shape).Idx → EReal) (idx : IVec ⟨2, ![E, 1]⟩ w)
    (upd : (⟨3, ![E, B, C]⟩ : Shape).Idx → EReal) (v : Fin N) (b : Fin B) (c : Fin C) :
    Ideal.hostScatterAdd (slabsDims N B C E wf) x idx upd (ix3 v b c)
      = x (ix3 v b c) + ∑ e : Fin E, if (idx (ix2 e (0 : Fin 1))).toInt = (v.val : Int) then upd (ix3 e b c) else 0 := by
  unfold Ideal.hostScatterAdd
  congr 1
  rw [Finset.sum_filter, sum_idx3]
  refine Finset.sum_congr rfl fun e _ => ?_
  have hiff : ∀ (b' : Fin B) (c' : Fin C), ((slabsDims N B C E wf).resultIdx? (ix3 e b' c') idx = some (ix3 v b c)) ↔
      ((idx (ix2 e (0 : Fin 1))).toInt = (v.val : Int) ∧ b' = b ∧ c' = c) := by
    intro b' c'
    rw [slabs_resultIdx?_eq_some_iff]
    exact and_congr Iff.rfl (and_congr Fin.val_inj Fin.val_inj)
  simp only [hiff]
  by_cases hv : (idx (ix2 e (0 : Fin 1))).toInt = (v.val : Int)
  · simp only [hv, true_and, if_true]
    rw [Finset.sum_eq_single b, Finset.sum_eq_single c]
    · simp
    · intro c' _ hc'; simp [hc']
    · intro hc; exact absurd (Finset.mem_univ c) hc
    · intro b' _ hb'
      refine Finset.sum_eq_zero fun c' _ => ?_
      simp [hb']
    · intro hb; exact absurd (Finset.mem_univ b) hb
  · simp only [hv, false_and, if_false]
    exact Finset.sum_eq_zero fun b' _ => Finset.sum_const_zero

/-- The same for the program's operation `Host.scatterAdd`, which at the ideal values is that exact sum. -/
theorem scatterAdd_slabs_apply {φ : FTy} (x : (⟨3, ![N, B, C]⟩ : Shape).Idx → EReal) (idx : IVec ⟨2, ![E, 1]⟩ w)
    (upd : (⟨3, ![E, B, C]⟩ : Shape).Idx → EReal) (v : Fin N) (b : Fin B) (c : Fin C) :
    Host.scatterAdd (F := Ideal) (φ := φ) (slabsDims N B C E wf) x idx upd (ix3 v b c)
      = x (ix3 v b c) + ∑ e : Fin E, if (idx (ix2 e (0 : Fin 1))).toInt = (v.val : Int) then upd (ix3 e b c) else 0 :=
  hostScatterAdd_slabs_apply wf x idx upd v b c

end Slabs

end Cert.SlabRows

end
-- ==== Proof.IndexedOps.lean ====
/-
  The gathers and accumulating scatters of the two programs, read at an index.

  Both programs move rows between a table of 50000 nodes and a list of 800000 edges. A gather reads, for edge `e`, the
  table's row (or `[4, 32]` slab) whose number is the entry `(e, 0)` of an index column, read as a signed integer and
  clamped into `[0, 49999]`. An accumulating scatter adds edge `e`'s row (or slab) onto the table's row whose number is
  that entry read signed, and drops it when the number is not a row of the table; over the extended reals the result at
  a position is the operand there plus the sum of the updates of the edges whose index is that row.

  The index column of a gather is the edge's node number with 50000 added once when it is negative; a node number in
  range is not changed by that, nor by the clamp.
-/
import proofs.«103189_j64295660421655_2_alg».proof.Proof.Gen.KernelIdeal
import proofs.«103189_j64295660421655_2_alg».proof.Proof.Gen.ReferenceIdeal
import proofs.«103189_j64295660421655_2_alg».proof.Proof.LibRowGatherScatter
import proofs.«103189_j64295660421655_2_alg».proof.Proof.LibScatterRows
import proofs.«103189_j64295660421655_2_alg».proof.Proof.LibSlabRows
import Idealize.ShloMosaic.Lib.Pipeline.Value
import Idealize.ShloMosaic.Lib.ValueIdx
import Idealize.ShloMosaic.PureOps.Ideal

noncomputable section

namespace Cert.IndexedOps

open Idealize.ShloMosaic Idealize.ShloMosaic.ValueIdx

/-- A start index read signed and clamped to a node number in `[0, 49999]`. -/
abbrev clampRow {w : Nat} (b : BitVec w) : Fin 50000 := RowIndex.clampRow 50000 (by norm_num) b

/-! ## Rows of 128 and of 4 entries -/

/-- The kernel program's gather of 128-entry rows: edge `e` reads the table's row "clamped `idx[e, 0]`". -/
theorem kernel_gather128_apply {α : Type} (x : Cert.KernelIdeal.S50000x128.Idx → α)
    (idx : IVec Cert.KernelIdeal.S800000x1 32) (e : Fin 800000) (j : Fin 128) :
    Host.gather Cert.KernelIdeal.gather_S50000x128_S800000x1_S800000x128_1_0_n_n_0_1_1128 x idx (ix2 e j)
      = x (ix2 (clampRow (idx (ix2 e (0 : Fin 1)))) j) :=
  RowIndex.gather_rows_apply (by norm_num)
    Cert.KernelIdeal.Gen.gather_S50000x128_S800000x1_S800000x128_1_0_n_n_0_1_1128_wf x idx (ix2 e j)

/-- The reference program's gather of 4-entry rows: edge `e` reads the table's row "clamped `idx[e, 0]`". -/
theorem reference_gather4_apply {α : Type} (x : Cert.ReferenceIdeal.S50000x4.Idx → α)
    (idx : IVec Cert.ReferenceIdeal.S800000x1 32) (e : Fin 800000) (j : Fin 4) :
    Host.gather Cert.ReferenceIdeal.gather_S50000x4_S800000x1_S800000x4_1_0_n_n_0_1_14 x idx (ix2 e j)
      = x (ix2 (clampRow (idx (ix2 e (0 : Fin 1)))) j) :=
  RowIndex.gather_rows_apply (by norm_num)
    Cert.ReferenceIdeal.Gen.gather_S50000x4_S800000x1_S800000x4_1_0_n_n_0_1_14_wf x idx (ix2 e j)

/-- The kernel program's scatter of 128-entry rows: position `(n, j)` receives the updates `(e, j)` of the edges whose
    index is `n`. -/
theorem kernel_scatter128_apply {φ : FTy} (x : Cert.KernelIdeal.S50000x128.Idx → EReal)
    (idx : IVec Cert.KernelIdeal.S800000x1 32) (upd : Cert.KernelIdeal.S800000x128.Idx → EReal)
    (n : Fin 50000) (j : Fin 128) :
    Host.scatterAdd (F := Ideal) (φ := φ) Cert.KernelIdeal.scatter_S50000x128_S800000x1_S800000x128_1_0_0_1 x idx upd (ix2 n j)
      = x (ix2 n j) + ∑ e : Fin 800000, if (idx (ix2 e (0 : Fin 1))).toInt = (n.val : ℤ) then upd (ix2 e j) else 0 :=
  Cert.ScatterRows.scatterAdd_rows_apply
    Cert.KernelIdeal.Gen.scatter_S50000x128_S800000x1_S800000x128_1_0_0_1_wf x idx upd n j

/-- The kernel program's scatter of 4-entry rows. -/
theorem kernel_scatter4_apply {φ : FTy} (x : Cert.KernelIdeal.S50000x4.Idx → EReal)
    (idx : IVec Cert.KernelIdeal.S800000x1 32) (upd : Cert.KernelIdeal.S800000x4.Idx → EReal)
    (n : Fin 50000) (j : Fin 4) :
    Host.scatterAdd (F := Ideal) (φ := φ) Cert.KernelIdeal.scatter_S50000x4_S800000x1_S800000x4_1_0_0_1 x idx upd (ix2 n j)
      = x (ix2 n j) + ∑ e : Fin 800000, if (idx (ix2 e (0 : Fin 1))).toInt = (n.val : ℤ) then upd (ix2 e j) else 0 :=
  Cert.ScatterRows.scatterAdd_rows_apply
    Cert.KernelIdeal.Gen.scatter_S50000x4_S800000x1_S800000x4_1_0_0_1_wf x idx upd n j

/-- The reference program's scatter of 4-entry rows. -/
theorem reference_scatter4_apply {φ : FTy} (x : Cert.ReferenceIdeal.S50000x4.Idx → EReal)
    (idx : IVec Cert.ReferenceIdeal.S800000x1 32) (upd : Cert.ReferenceIdeal.S800000x4.Idx → EReal)
    (n : Fin 50000) (j : Fin 4) :
    Host.scatterAdd (F := Ideal) (φ := φ) Cert.ReferenceIdeal.scatter_S50000x4_S800000x1_S800000x4_1_0_0_1 x idx upd (ix2 n j)
      = x (ix2 n j) + ∑ e : Fin 800000, if (idx (ix2 e (0 : Fin 1))).toInt = (n.val : ℤ) then upd (ix2 e j) else 0 :=
  Cert.ScatterRows.scatterAdd_rows_apply
    Cert.ReferenceIdeal.Gen.scatter_S50000x4_S800000x1_S800000x4_1_0_0_1_wf x idx upd n j

/-! ## Index columns -/

/-- A vector `[E]` laid out as the column `[E, 1]` reads, at `(e, 0)`, the vector's entry `e`. -/
theorem column_apply {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  refine broadcastInDim_apply _ h v _ (ix1 e) fun a => ?_
  match a with
  | ⟨0, _⟩ =>
    show e.val = if E = 1 then 0 else e.val
    split
    · have := e.isLt; omega
    · rfl

/-- A node number in range, read signed, is not negative: the comparison with zero that guards the wrap is false, so
    the wrapped index is the index itself. -/
theorem wrap_of_toInt (b : BitVec 32) (n : Fin 50000) (h : b.toInt = (n.val : ℤ)) :
    Scalar.select (IntOp.cmpi .slt b 0#32) (IntOp.addi b 50000#32) b = b := by
  have hc : IntOp.cmpi .slt b 0#32 = 0#1 := by
    show BitVec.ofBool (b.slt 0#32) = 0#1
    have hs : b.slt 0#32 = false := by
      rw [BitVec.slt_eq_decide, h]
      simp
    rw [hs]; rfl
  rw [hc]
  exact select_zero _ _

/-- THE GATHER COLUMN AT AN EDGE WHOSE NODE NUMBER IS IN RANGE: the column holds the index with 50000 added once when
    it is negative; when the index read signed is the node number `n`, nothing is added and the clamp keeps it. -/
theorem wrapped_column_clamp (h0 : (⟨0, ![]⟩ : Shape).BroadcastsInDim ⟨1, ![800000]⟩ ![])
    (h1 : (⟨1, ![800000]⟩ : Shape).BroadcastsInDim ⟨2, ![800000, 1]⟩ ![0])
    (v : IVec ⟨1, ![800000]⟩ 32) (e : Fin 800000) (n : Fin 50000) (h : (v (ix1 e)).toInt = (n.val : ℤ)) :
    clampRow (broadcastInDim (⟨2, ![800000, 1]⟩ : Shape) ![0] h1
        (select (cmpi .slt v (broadcastInDim (⟨1, ![800000]⟩ : Shape) ![] h0 (constantI ⟨0, ![]⟩ 32 0#32)))
          (addi v (broadcastInDim (⟨1, ![800000]⟩ : Shape) ![] h0 (constantI ⟨0, ![]⟩ 32 50000#32))) v)
        (ix2 e (0 : Fin 1))) = n := by
  rw [column_apply h1]
  show clampRow (Scalar.select (IntOp.cmpi .slt (v (ix1 e)) 0#32) (IntOp.addi (v (ix1 e)) 50000#32) (v (ix1 e))) = n
  rw [wrap_of_toInt _ n h]
  exact RowIndex.clampRow_of_toInt _ _ n h

/-! ## Slabs of 4 heads by 32 lanes -/

/-- The reference program's gather of `[4, 32]` slabs: edge `e` reads the table's slab "clamped `idx[e, 0]`". -/
theorem reference_gather4x32_apply {α : Type} (x : Cert.ReferenceIdeal.S50000x4x32.Idx → α)
    (idx : IVec Cert.ReferenceIdeal.S800000x1 32) (e : Fin 800000) (h : Fin 4) (d : Fin 32) :
    Host.gather Cert.ReferenceIdeal.gather_S50000x4x32_S800000x1_S800000x4x32_12_0_n_n_0_1_1432 x idx (ix3 e h d)
      = x (ix3 (clampRow (idx (ix2 e (0 : Fin 1)))) h d) :=
  Cert.SlabRows.gather_slabs_apply (by norm_num)
    Cert.ReferenceIdeal.Gen.gather_S50000x4x32_S800000x1_S800000x4x32_12_0_n_n_0_1_1432_wf x idx (ix3 e h d)

/-- The reference program's scatter of `[4, 32]` slabs: position `(n, h, d)` receives the updates `(e, h, d)` of the
    edges whose index is `n`. -/
theorem reference_scatter4x32_apply {φ : FTy} (x : Cert.ReferenceIdeal.S50000x4x32.Idx → EReal)
    (idx : IVec Cert.ReferenceIdeal.S800000x1 32) (upd : Cert.ReferenceIdeal.S800000x4x32.Idx → EReal)
    (n : Fin 50000) (h : Fin 4) (d : Fin 32) :
    Host.scatterAdd (F := Ideal) (φ := φ) Cert.ReferenceIdeal.scatter_S50000x4x32_S800000x1_S800000x4x32_12_0_0_1 x idx upd
        (ix3 n h d)
      = x (ix3 n h d) + ∑ e : Fin 800000, if (idx (ix2 e (0 : Fin 1))).toInt = (n.val : ℤ) then upd (ix3 e h d) else 0 :=
  Cert.SlabRows.scatterAdd_slabs_apply
    Cert.ReferenceIdeal.Gen.scatter_S50000x4x32_S800000x1_S800000x4x32_12_0_0_1_wf x idx upd n h d

end Cert.IndexedOps

end
-- ==== Proof.LibLaneGroups.lean ====
/-
  Lanes split into groups: a general layout lemma, the lane-side companion of the row-block cast. An `[a, n]` array
  viewed as `[a, b, c]` with `n = b * c` keeps the row-major order, so entry `(p, q, k)` of the view is entry
  `(p, q * c + k)` of the array: group `q` of a row is its `c` consecutive lanes from `q * c` on.
-/
import Idealize.ShloMosaic.Lib.Pipeline.Value
import Idealize.ShloMosaic.Lib.ValueIdx

namespace Cert.Layout

open Idealize.ShloMosaic Idealize.ShloMosaic.ValueIdx

/-- An `[a, n]` array viewed `[a, b, c]` (so `n = b * c`) reads, at `(p, q, k)`, the operand's entry `(p, q * c + k)`. -/
theorem shapeCast_lanes_groups_apply {α : Type} {a n b c : ℕ} (x : (⟨2, ![a, n]⟩ : Shape).Idx → α)
    (h : (⟨2, ![a, n]⟩ : Shape).ShapeCasts ⟨3, ![a, b, c]⟩) (hn : n = b * c) (p : Fin a) (q : Fin b) (k : Fin c)
    (hqk : q.val * c + k.val < n) :
    shapeCast ⟨3, ![a, b, c]⟩ x h (ix3 p q k) = x (ix2 p ⟨q.val * c + k.val, hqk⟩) := by
  refine shapeCast_apply x h _ _ ?_
  rw [Shape.rowMajor_val_two, Shape.rowMajor_val_three]
  show p.val * n + (q.val * c + k.val) = (p.val * b + q.val) * c + k.val
  rw [hn]; ring

end Cert.Layout
-- ==== Proof.LibFusedProjection.lean ====
import Idealize.ShloMosaic.Lib.Pipeline.Value
import Idealize.ShloMosaic.Lib.ValueIdx
import Idealize.ShloMosaic.Lib.ValueLayout

/-!
# Three blocks side by side: concatenations and column slices read at an index

A fused projection multiplies once by three weight blocks laid side by side and cuts the product back into three column
blocks. Here: a concatenation of three `[K, D]` arrays along axis 1, or of three vectors `[D]` along axis 0, read at an
index is the piece the index falls in, at the index shifted back; a vector `[n]` shape-cast to the row `[1, n]` read at
`(0, j)` is the vector at `j`; a unit-stride slice of the columns `[o, o + D)` of an `[M, N]` array read at `(p, j)` is
the array at `(p, o + j)`. All generic in the extents.
-/

namespace Idealize.ShloMosaic.LibFusedProjection

open Idealize.ShloMosaic ValueIdx

variable {α : Type}

/-- The `s`-th of three arrays. -/
def pick3 {β : Type} (s : ℕ) (x0 x1 x2 : β) : β := if s = 0 then x0 else if s = 1 then x1 else x2

/-- Three `[K, D]` arrays concatenated along axis 1, read at `(e, s·D + j)`, is the `s`-th array at `(e, j)`. -/
theorem concat3_cols_apply {K D D3 : ℕ} (x0 x1 x2 : (⟨2, ![K, D]⟩ : Shape).Idx → α)
    (h : Shape.Concatenates [(⟨2, ![K, D]⟩ : Shape), ⟨2, ![K, D]⟩, ⟨2, ![K, D]⟩] ⟨2, ![K, D3]⟩ 1)
    (e : Fin K) (j' : Fin D3) (s : ℕ) (hs : s < 3) (j : Fin D) (hj : s * D + j.val = j'.val) :
    concatenate (⟨2, ![K, D3]⟩ : Shape) 1 [⟨⟨2, ![K, D]⟩, x0⟩, ⟨⟨2, ![K, D]⟩, x1⟩, ⟨⟨2, ![K, D]⟩, x2⟩] h (ix2 e j')
      = pick3 s x0 x1 x2 (ix2 e j) := by
  have hi : ∀ b : Fin 2, b.cast rfl ≠ (1 : Fin 2) → ((ix2 e j : (⟨2, ![K, D]⟩ : Shape).Idx) b).val = ((ix2 e j' : (⟨2, ![K, D3]⟩ : Shape).Idx) (b.cast rfl)).val := by
    intro b hb
    match b with
    | ⟨0, _⟩ => rfl
    | ⟨1, _⟩ => exact absurd rfl hb
  interval_cases s
  · exact concatenate_apply_piece (t := ⟨2, ![K, D3]⟩) 1 [⟨⟨2, ![K, D]⟩, x0⟩, ⟨⟨2, ![K, D]⟩, x1⟩, ⟨⟨2, ![K, D]⟩, x2⟩] h (ix2 e j') 0 (by simp) ⟨2, ![K, D]⟩ x0 rfl rfl 0 (by simp) (ix2 e j) hi (by show 0 + j.val = j'.val; omega)
  · exact concatenate_apply_piece (t := ⟨2, ![K, D3]⟩) 1 [⟨⟨2, ![K, D]⟩, x0⟩, ⟨⟨2, ![K, D]⟩, x1⟩, ⟨⟨2, ![K, D]⟩, x2⟩] h (ix2 e j') 1 (by simp) ⟨2, ![K, D]⟩ x1 rfl rfl D (by simp) (ix2 e j) hi (by show D + j.val = j'.val; omega)
  · exact concatenate_apply_piece (t := ⟨2, ![K, D3]⟩) 1 [⟨⟨2, ![K, D]⟩, x0⟩, ⟨⟨2, ![K, D]⟩, x1⟩, ⟨⟨2, ![K, D]⟩, x2⟩] h (ix2 e j') 2 (by simp) ⟨2, ![K, D]⟩ x2 rfl rfl (D + D) (by simp) (ix2 e j) hi (by show D + D + j.val = j'.val; omega)

/-- Three vectors `[D]` concatenated along axis 0, read at `s·D + j`, is the `s`-th vector at `j`. -/
theorem concat3_vec_apply {D D3 : ℕ} (x0 x1 x2 : (⟨1, ![D]⟩ : Shape).Idx → α)
    (h : Shape.Concatenates [(⟨1, ![D]⟩ : Shape), ⟨1, ![D]⟩, ⟨1, ![D]⟩] ⟨1, ![D3]⟩ 0)
    (j' : Fin D3) (s : ℕ) (hs : s < 3) (j : Fin D) (hj : s * D + j.val = j'.val) :
    concatenate (⟨1, ![D3]⟩ : Shape) 0 [⟨⟨1, ![D]⟩, x0⟩, ⟨⟨1, ![D]⟩, x1⟩, ⟨⟨1, ![D]⟩, x2⟩] h (ix1 j')
      = pick3 s x0 x1 x2 (ix1 j) := by
  have hi : ∀ b : Fin 1, b.cast rfl ≠ (0 : Fin 1) → ((ix1 j : (⟨1, ![D]⟩ : Shape).Idx) b).val = ((ix1 j' : (⟨1, ![D3]⟩ : Shape).Idx) (b.cast rfl)).val := by
    intro b hb
    match b with
    | ⟨0, _⟩ => exact absurd rfl hb
  interval_cases s
  · exact concatenate_apply_piece (t := ⟨1, ![D3]⟩) 0 [⟨⟨1, ![D]⟩, x0⟩, ⟨⟨1, ![D]⟩, x1⟩, ⟨⟨1, ![D]⟩, x2⟩] h (ix1 j') 0 (by simp) ⟨1, ![D]⟩ x0 rfl rfl 0 (by simp) (ix1 j) hi (by show 0 + j.val = j'.val; omega)
  · exact concatenate_apply_piece (t := ⟨1, ![D3]⟩) 0 [⟨⟨1, ![D]⟩, x0⟩, ⟨⟨1, ![D]⟩, x1⟩, ⟨⟨1, ![D]⟩, x2⟩] h (ix1 j') 1 (by simp) ⟨1, ![D]⟩ x1 rfl rfl D (by simp) (ix1 j) hi (by show D + j.val = j'.val; omega)
  · exact concatenate_apply_piece (t := ⟨1, ![D3]⟩) 0 [⟨⟨1, ![D]⟩, x0⟩, ⟨⟨1, ![D]⟩, x1⟩, ⟨⟨1, ![D]⟩, x2⟩] h (ix1 j') 2 (by simp) ⟨1, ![D]⟩ x2 rfl rfl (D + D) (by simp) (ix1 j) hi (by show D + D + j.val = j'.val; omega)

/-- The columns `[o, o + D)` of an `[M, N]` array, read at `(p, j)`, is the array at `(p, o + j)`. -/
theorem slice_cols_apply {M N D : ℕ} (o : ℕ) (x : (⟨2, ![M, N]⟩ : Shape).Idx → α)
    (h : (⟨2, ![M, N]⟩ : Shape).Slices ![0, o] ⟨2, ![M, D]⟩) (p : Fin M) (j : Fin D) (j' : Fin N) (hj : j'.val = o + j.val) :
    extractStridedSlice (⟨2, ![M, D]⟩ : Shape) ![0, o] x h (ix2 p j) = x (ix2 p j') :=
  extractStridedSlice_apply _ x h _ _ fun a => match a with
    | ⟨0, _⟩ => by simp
    | ⟨1, _⟩ => by simpa using hj

/-- Three `[D, K]` weight blocks, each transposed, laid side by side: the entry at `(e, s·D + j)` is the `s`-th block at `(j, e)`. -/
theorem fused_weight_apply {K D D3 : ℕ} (w0 w1 w2 : (⟨2, ![D, K]⟩ : Shape).Idx → α)
    (ht : (⟨2, ![D, K]⟩ : Shape).Transposes [1, 0] ⟨2, ![K, D]⟩)
    (h : Shape.Concatenates [(⟨2, ![K, D]⟩ : Shape), ⟨2, ![K, D]⟩, ⟨2, ![K, D]⟩] ⟨2, ![K, D3]⟩ 1)
    (e : Fin K) (j' : Fin D3) (s : ℕ) (hs : s < 3) (j : Fin D) (hj : s * D + j.val = j'.val) :
    concatenate (⟨2, ![K, D3]⟩ : Shape) 1
        [⟨⟨2, ![K, D]⟩, transpose ⟨2, ![K, D]⟩ [1, 0] w0 ht⟩, ⟨⟨2, ![K, D]⟩, transpose ⟨2, ![K, D]⟩ [1, 0] w1 ht⟩,
         ⟨⟨2, ![K, D]⟩, transpose ⟨2, ![K, D]⟩ [1, 0] w2 ht⟩] h (ix2 e j')
      = pick3 s w0 w1 w2 (ix2 j e) := by
  rw [concat3_cols_apply _ _ _ h e j' s hs j hj]
  interval_cases s
  · exact ValueIdx.transpose_ix2_apply w0 ht e j
  · exact ValueIdx.transpose_ix2_apply w1 ht e j
  · exact ValueIdx.transpose_ix2_apply w2 ht e j

/-- Three bias vectors `[D]` joined end to end and viewed as the row `[1, 3D]`: the entry at `(0, s·D + j)` is the
    `s`-th vector at `j`. -/
theorem fused_bias_apply {D D3 : ℕ} (b0 b1 b2 : (⟨1, ![D]⟩ : Shape).Idx → α)
    (h : Shape.Concatenates [(⟨1, ![D]⟩ : Shape), ⟨1, ![D]⟩, ⟨1, ![D]⟩] ⟨1, ![D3]⟩ 0)
    (hc : (⟨1, ![D3]⟩ : Shape).ShapeCasts ⟨2, ![1, D3]⟩)
    (u : Fin 1) (j' : Fin D3) (s : ℕ) (hs : s < 3) (j : Fin D) (hj : s * D + j.val = j'.val) :
    shapeCast (⟨2, ![1, D3]⟩ : Shape)
        (concatenate (⟨1, ![D3]⟩ : Shape) 0 [⟨⟨1, ![D]⟩, b0⟩, ⟨⟨1, ![D]⟩, b1⟩, ⟨⟨1, ![D]⟩, b2⟩] h) hc (ix2 u j')
      = pick3 s b0 b1 b2 (ix1 j) := by
  rw [← concat3_vec_apply b0 b1 b2 h j' s hs j hj]
  refine (shapeCast_addUnit_apply (n := 1) ![D3] _ hc (ix2 u j')).trans (congrArg _ ?_)
  funext a; match a with | ⟨0, _⟩ => rfl

end Idealize.ShloMosaic.LibFusedProjection
-- ==== Proof.BridgeStages.lean ====
/-
  The kernel program's host stages and the reference program's stages compute the same arrays.

  Both programs read the source and target rows of the edge list, project the node features by three 128×128 matrices,
  gather the projected rows of each edge's target (queries) and source (keys, values) split into 4 heads of 32 lanes,
  and form the edge weights from the scaled inner products. The kernel program projects once by the three matrices laid
  side by side and cuts the product into three column bands; the reference projects three times and reshapes. On the
  extended reals a band of the joined product is the product by that band's matrix, so the gathered rows agree entry
  by entry, and every later stage applies the same operations in the same order to equal operands.
-/
import proofs.«103189_j64295660421655_2_alg».proof.Proof.KIStages
import proofs.«103189_j64295660421655_2_alg».proof.Proof.RefRead
import proofs.«103189_j64295660421655_2_alg».proof.Proof.IndexedOps
import proofs.«103189_j64295660421655_2_alg».proof.Proof.LibLaneGroups
import proofs.«103189_j64295660421655_2_alg».proof.Proof.LibFusedProjection

noncomputable section

namespace Cert.Bridge

open Cert.KernelIdeal Cert.KernelIdeal.Hand Cert.ReferenceIdeal.Read Idealize.ShloMosaic Idealize.ShloMosaic.ValueIdx
open Cert.IndexedOps (clampRow)

section Index
variable {F : FTy → Type} [FloatOps F]

/-- The source rows of the edges are read by the same slice and reshape in both programs. -/
theorem srcv_eq (ei : Arr F S2x800000 .i32) : srcv ei = val_main_v1 (F := F) ei := rfl

/-- The target rows of the edges are read by the same slice and reshape in both programs. -/
theorem dstv_eq (ei : Arr F S2x800000 .i32) : dstv ei = val_main_v3 (F := F) ei := rfl

/-- The gather column of the targets: the same wrap of a negative index in both programs. -/
theorem gcol_dst_eq (ei : Arr F S2x800000 .i32) : gcol (dstv ei) = val_main_v16 (F := F) ei := rfl

/-- The gather column of the sources, as the reference forms it for the keys … -/
theorem gcol_src_eq (ei : Arr F S2x800000 .i32) : gcol (srcv ei) = val_main_v23 (F := F) ei := rfl

/-- … and again for the values. -/
theorem gcol_src_eq' (ei : Arr F S2x800000 .i32) : gcol (srcv ei) = val_main_v57 (F := F) ei := rfl

end Index

/-! ## The gathered rows, entry by entry -/

/-- THE KERNEL SIDE: a band of the joined projection, gathered by an index column and split into heads, read at edge
    `e`, head `h`, lane `d`: the feature row "clamped index of `e`" times column `h·32 + d` of the band's matrix. -/
theorem kernel_rows_apply (x : Arr Ideal S50000x128 .f32) (wq wk wv : Arr Ideal S128x128 .f32)
    (s : ℕ) (hs : s < 3) (o : ℕ) (ho : o = s * 128) (hsl : S50000x384.Slices ![0, o] S50000x128)
    (col : Arr Ideal S800000x1 .i32) (e : Fin 800000) (h : Fin 4) (d : Fin 32)
    (hhd : h.val * 32 + d.val < 128) :
    rows3 (extractStridedSlice S50000x128 ![0, o] (G0 x (wcat wq wk wv)) hsl) col (ix3 e h d)
      = ∑ k : Fin 128, x (ix2 (clampRow (col (ix2 e (0 : Fin 1)))) k)
          * LibFusedProjection.pick3 s wq wk wv (ix2 k (⟨h.val * 32 + d.val, hhd⟩ : Fin 128)) := by
  have hj : o + (h.val * 32 + d.val) < 384 := by omega
  unfold rows3
  rw [Cert.Layout.shapeCast_lanes_groups_apply _ _ (by norm_num) e h d hhd]
  rw [extf_apply]
  rw [Cert.IndexedOps.kernel_gather128_apply]
  rw [LibFusedProjection.slice_cols_apply o _ hsl _ _ (⟨o + (h.val * 32 + d.val), hj⟩ : Fin 384) rfl]
  unfold G0
  refine Finset.sum_congr rfl fun k _ => ?_
  congr 1
  unfold wcat
  exact LibFusedProjection.concat3_cols_apply wq wk wv _ k _ s hs (⟨h.val * 32 + d.val, hhd⟩ : Fin 128)
    (by show s * 128 + (h.val * 32 + d.val) = o + (h.val * 32 + d.val); omega)

/-- THE REFERENCE SIDE: the projection by one matrix, reshaped into heads and gathered by an index column, read at
    edge `e`, head `h`, lane `d`: the same sum. -/
theorem reference_rows_apply (x : Arr Ideal S50000x128 .f32) (w : Arr Ideal S128x128 .f32)
    (col : Arr Ideal S800000x1 .i32) (e : Fin 800000) (h : Fin 4) (d : Fin 32) (hhd : h.val * 32 + d.val < 128) :
    Host.gather Cert.ReferenceIdeal.gather_S50000x4x32_S800000x1_S800000x4x32_12_0_n_n_0_1_1432
        (val_main_v5 (F := Ideal) x w) col (ix3 e h d)
      = ∑ k : Fin 128, x (ix2 (clampRow (col (ix2 e (0 : Fin 1)))) k)
          * w (ix2 k (⟨h.val * 32 + d.val, hhd⟩ : Fin 128)) := by
  rw [Cert.IndexedOps.reference_gather4x32_apply, val_main_v5_apply, val_main_v4_apply]
  refine Finset.sum_congr rfl fun k _ => ?_
  have hr := (clampRow (col (ix2 e (0 : Fin 1)))).isLt
  have hh := h.isLt
  have hd := d.isLt
  congr 1
  · congr 1
    funext a
    match a with
    | ⟨0, _⟩ =>
      refine Fin.ext ?_
      show (((clampRow (col (ix2 e (0 : Fin 1)))).val * 4 + h.val) * 32 + d.val) / 128 = (clampRow (col (ix2 e (0 : Fin 1)))).val
      omega
    | ⟨1, _⟩ => rfl
  · congr 1
    funext a
    match a with
    | ⟨0, _⟩ => rfl
    | ⟨1, _⟩ =>
      refine Fin.ext ?_
      show (((clampRow (col (ix2 e (0 : Fin 1)))).val * 4 + h.val) * 32 + d.val) % 128 = h.val * 32 + d.val
      omega

/-- Head `h`, lane `d` is one of the 128 lanes. -/
theorem lane_lt (h : Fin 4) (d : Fin 32) : h.val * 32 + d.val < 128 := by
  have := h.isLt; have := d.isLt; omega

section Stages
variable (x : Arr Ideal S50000x128 .f32) (ei : Arr Ideal S2x800000 .i32) (ea : Arr Ideal S800000x3 .f32)
  (wq wk wv : Arr Ideal S128x128 .f32) (we : Arr Ideal S3x4 .f32)

/-- The query rows of the edges' targets. -/
theorem rowsQ_eq :
    rows3 (bandQ (G0 x (wcat wq wk wv))) (gcol (dstv ei)) = val_main_v17 (F := Ideal) x ei wq := by
  funext i
  rw [eq_ix3 i]
  unfold bandQ val_main_v17
  rw [← gcol_dst_eq]
  exact (kernel_rows_apply x wq wk wv 0 (by norm_num) 0 rfl _ _ _ _ _ (lane_lt _ _)).trans
    (reference_rows_apply x wq _ _ _ _ (lane_lt _ _)).symm

/-- The key rows of the edges' sources. -/
theorem rowsK_eq :
    rows3 (bandK (G0 x (wcat wq wk wv))) (gcol (srcv ei)) = val_main_v24 (F := Ideal) x ei wk := by
  funext i
  rw [eq_ix3 i]
  unfold bandK val_main_v24
  rw [← gcol_src_eq]
  exact (kernel_rows_apply x wq wk wv 1 (by norm_num) 128 rfl _ _ _ _ _ (lane_lt _ _)).trans
    (reference_rows_apply x wk _ _ _ _ (lane_lt _ _)).symm

/-- The value rows of the edges' sources. -/
theorem rowsV_eq :
    rows3 (bandV (G0 x (wcat wq wk wv))) (gcol (srcv ei)) = val_main_v58 (F := Ideal) x ei wv := by
  funext i
  rw [eq_ix3 i]
  unfold bandV val_main_v58
  rw [← gcol_src_eq']
  exact (kernel_rows_apply x wq wk wv 2 (by norm_num) 256 rfl _ _ _ _ _ (lane_lt _ _)).trans
    (reference_rows_apply x wv _ _ _ _ (lane_lt _ _)).symm

/-- The weights of all edges: the same scores, sign split and exponentials of equal gathered rows. -/
theorem weights_eq :
    weightsOf (G0 x (wcat wq wk wv)) ei ea we = val_main_v38 (F := Ideal) x ei ea wq wk we := by
  unfold weightsOf
  rw [rowsQ_eq, rowsK_eq]
  rfl

/-- The weights summed per target node and head. -/
theorem wsum_eq :
    wsum (weightsOf (G0 x (wcat wq wk wv)) ei ea we) (dstv ei) = val_main_v41 (F := Ideal) x ei ea wq wk we := by
  rw [weights_eq, dstv_eq]
  rfl

end Stages

end Cert.Bridge

end
-- ==== Proof.KIStagesAt.lean ====
/-
  The stages of the attention aggregation read at an index, on the extended reals.

  A lane of the 128 is a head and a position inside the head: lane `h * 32 + d`. The aggregated value of node `n` at
  that lane is the sum, over the edges whose target is `n`, of the source value at `(h, d)` times the edge's weight for
  head `h`; the lane-repeated weight sum at that lane is the weight sum of head `h`; the two halves of the mixing matrix
  are its rows `0 … 127` and `128 … 255`.

  The layout steps used: an `[a, b, c]` array flattened to `[a, b * c]` keeps the row-major order, so column
  `q * c + k` of row `p` is entry `(p, q, k)`; an `[a, b]` array repeated along a new last axis reads, at `(p, q, r)`,
  its entry `(p, q)`; an `[a, b, 1]` array repeated along its last axis reads, at `(p, q, r)`, its entry `(p, q, 0)`.
-/
import proofs.«103189_j64295660421655_2_alg».proof.Proof.KIStages
import proofs.«103189_j64295660421655_2_alg».proof.Proof.IndexedOps
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx

/-! ## Lanes as heads and positions -/

/-- Lane `h * 32 + d`: position `d` of head `h`. -/
def lane (h : Fin 4) (d : Fin 32) : Fin 128 := ⟨h.val * 32 + d.val, by omega⟩

@[simp] theorem lane_val (h : Fin 4) (d : Fin 32) : (lane h d).val = h.val * 32 + d.val := rfl

/-- Every lane is a head and a position inside it. -/
theorem lane_div_mod (i : Fin 128) :
    i = lane ⟨i.val / 32, by have := i.isLt; omega⟩ ⟨i.val % 32, Nat.mod_lt _ (by norm_num)⟩ :=
  Fin.ext (by show i.val = i.val / 32 * 32 + i.val % 32; omega)

/-! ## Layout steps at an index -/

section Layout
variable {α : Type}

/-- An `[a, b, c]` array viewed `[a, n]` (so `n = b * c`) reads, at `(p, q * c + k)`, the operand's entry `(p, q, k)`. -/
theorem shapeCast_groups_lanes_apply {a n b c : ℕ} (x : (⟨3, ![a, b, c]⟩ : Shape).Idx → α)
    (h : (⟨3, ![a, b, c]⟩ : Shape).ShapeCasts ⟨2, ![a, n]⟩) (hn : n = b * c) (p : Fin a) (q : Fin b) (k : Fin c)
    (hqk : q.val * c + k.val < n) :
    shapeCast ⟨2, ![a, n]⟩ x h (ix2 p ⟨q.val * c + k.val, hqk⟩) = x (ix3 p q k) := by
  refine shapeCast_apply x h _ _ ?_
  rw [Shape.rowMajor_val_two, Shape.rowMajor_val_three]
  show (p.val * b + q.val) * c + k.val = p.val * n + (q.val * c + k.val)
  rw [hn]; ring

/-- An `[a, b]` array repeated along a new last axis to `[a, b, c]` reads, at `(p, q, r)`, its entry `(p, q)`. -/
theorem broadcast_new_lane_apply {a b c : ℕ} (h : (⟨2, ![a, b]⟩ : Shape).BroadcastsInDim ⟨3, ![a, b, c]⟩ ![0, 1])
    (x : (⟨2, ![a, b]⟩ : Shape).Idx → α) (p : Fin a) (q : Fin b) (r : Fin c) :
    broadcastInDim ⟨3, ![a, b, c]⟩ ![0, 1] h x (ix3 p q r) = x (ix2 p q) := by
  refine broadcastInDim_apply _ h x _ (ix2 p q) fun d => ?_
  match d with
  | ⟨0, _⟩ =>
    show p.val = if a = 1 then 0 else p.val
    split
    · have := p.isLt; omega
    · rfl
  | ⟨1, _⟩ =>
    show q.val = if b = 1 then 0 else q.val
    split
    · have := q.isLt; omega
    · rfl

/-- An `[a, b, 1]` array repeated along its last axis to `[a, b, c]` reads, at `(p, q, r)`, its entry `(p, q, 0)`. -/
theorem broadcast_unit_lane_apply {a b c : ℕ}
    (h : (⟨3, ![a, b, 1]⟩ : Shape).BroadcastsInDim ⟨3, ![a, b, c]⟩ ![0, 1, 2])
    (x : (⟨3, ![a, b, 1]⟩ : Shape).Idx → α) (p : Fin a) (q : Fin b) (r : Fin c) :
    broadcastInDim ⟨3, ![a, b, c]⟩ ![0, 1, 2] h x (ix3 p q r) = x (ix3 p q (0 : Fin 1)) := by
  refine broadcastInDim_apply _ h x _ (ix3 p q (0 : Fin 1)) fun d => ?_
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

end Layout

/-! ## The stages at an index -/

section Stages
variable (vs : Arr Ideal S800000x4x32 .f32) (ae : Arr Ideal S800000x4 .f32) (dv : Arr Ideal S800000 .i32)
variable (s : Arr Ideal S50000x4 .f32) (wm : Arr Ideal S256x128 .f32)
variable (n : Fin 50000) (h : Fin 4) (d : Fin 32) (k j : Fin 128) (e : Fin 800000)

/-- The weight of edge `e` and head `h` repeated over the head's lanes. -/
theorem weight_lanes_apply :
    broadcastInDim S800000x4x32 ![0, 1, 2] bcast_S800000x4x1_S800000x4x32_0_1_2
        (broadcastInDim S800000x4x1 ![0, 1] bcast_S800000x4_S800000x4x1_0_1 ae) (ix3 e h d)
      = ae (ix2 e h) := by
  rw [broadcast_unit_lane_apply bcast_S800000x4x1_S800000x4x32_0_1_2 _ e h d,
    broadcast_new_lane_apply bcast_S800000x4_S800000x4x1_0_1 ae e h (0 : Fin 1)]

/-- The weighted source values flattened to rows of 128 lanes: at lane `h * 32 + d` of edge `e`, the source value at
    `(h, d)` times the edge's weight for head `h`. -/
theorem weighted_rows_apply :
    shapeCast S800000x128 (mulf (F := Ideal) (φ := .f32) vs
        (broadcastInDim S800000x4x32 ![0, 1, 2] bcast_S800000x4x1_S800000x4x32_0_1_2
          (broadcastInDim S800000x4x1 ![0, 1] bcast_S800000x4_S800000x4x1_0_1 ae))) shapeCasts_S800000x4x32_S800000x128
        (ix2 e (lane h d))
      = vs (ix3 e h d) * ae (ix2 e h) := by
  refine (shapeCast_groups_lanes_apply _ shapeCasts_S800000x4x32_S800000x128 (by norm_num) e h d
    (by have := h.isLt; have := d.isLt; omega)).trans ?_
  show vs (ix3 e h d) * _ = _
  rw [weight_lanes_apply]

/-- THE AGGREGATED VALUE AT A LANE: zero plus the sum, over the edges whose target is node `n`, of the source value at
    `(h, d)` times the edge's weight for head `h`. -/
theorem aggRaw_apply :
    aggRaw vs ae dv (ix2 n (lane h d))
      = Ideal.ofBits .f32 0x00000000#32
        + ∑ e : Fin 800000, if (dv (ix1 e)).toInt = (n.val : ℤ) then vs (ix3 e h d) * ae (ix2 e h) else 0 := by
  unfold aggRaw
  refine (Cert.IndexedOps.kernel_scatter128_apply (φ := .f32) _ _ _ n (lane h d)).trans ?_
  refine congrArg₂ (· + ·) rfl (Finset.sum_congr rfl fun e _ => ?_)
  rw [show bcol dv (ix2 e (0 : Fin 1)) = dv (ix1 e) from Cert.IndexedOps.column_apply bcast_S800000_S800000x1_0 dv e,
    weighted_rows_apply]

/-- The same with the leading zero removed. -/
theorem aggRaw_apply_sum :
    aggRaw vs ae dv (ix2 n (lane h d))
      = ∑ e : Fin 800000, if (dv (ix1 e)).toInt = (n.val : ℤ) then vs (ix3 e h d) * ae (ix2 e h) else 0 := by
  rw [aggRaw_apply, show Ideal.ofBits .f32 0x00000000#32 = 0 by simp [Ideal.ofBits, Ideal.ieee], zero_add]

/-- The lane-repeated weight sum at lane `h * 32 + d` is the weight sum of head `h`. -/
theorem sumLanes_apply : sumLanes s (ix2 n (lane h d)) = s (ix2 n h) := by
  unfold sumLanes
  refine (shapeCast_groups_lanes_apply _ shapeCasts_S50000x4x32_S50000x128 (by norm_num) n h d
    (by have := h.isLt; have := d.isLt; omega)).trans ?_
  exact broadcast_new_lane_apply bcast_S50000x4_S50000x4x32_0_1 s n h d

/-- The upper half of the mixing matrix: its rows `0 … 127`. -/
theorem mixTop_apply : mixTop wm (ix2 k j) = wm (ix2 (⟨k.val, by have := k.isLt; omega⟩ : Fin 256) j) := by
  unfold mixTop
  refine extractStridedSlice_apply _ wm slices_S256x128_S128x128_0_0 _ _ fun a => ?_
  match a with
  | ⟨0, _⟩ => show k.val = 0 + k.val; omega
  | ⟨1, _⟩ => show j.val = 0 + j.val; omega

/-- The lower half of the mixing matrix: its rows `128 … 255`. -/
theorem mixBot_apply : mixBot wm (ix2 k j) = wm (ix2 (⟨128 + k.val, by have := k.isLt; omega⟩ : Fin 256) j) := by
  unfold mixBot
  refine extractStridedSlice_apply _ wm slices_S256x128_S128x128_128_0 _ _ fun a => ?_
  match a with
  | ⟨0, _⟩ => show 128 + k.val = 128 + k.val; rfl
  | ⟨1, _⟩ => show j.val = 0 + j.val; omega

end Stages

end Cert.KernelIdeal.Hand

end
-- ==== Proof.LibScaledSum.lean ====
/-
  Sums on the extended reals scaled by a nonnegative finite factor.

  The extended reals are not a semiring: `x * (y + z) = x * y + x * z` fails when `y` and `z` are infinities of
  opposite sign and `x` is negative or infinite. For `0 ≤ x < ⊤` it holds, and so such a factor moves across any
  finite sum. This is the one law a graph convolution needs when the normalisation by the target node's degree is
  applied once per node, after the sum over the incoming edges, instead of once per edge.
-/
import Mathlib.Data.EReal.Inv
import Mathlib.Algebra.BigOperators.Group.Finset.Basic

open scoped BigOperators

namespace EdgeSum

/-- A nonnegative finite factor distributes over a finite sum of extended reals. -/
theorem mul_sum_of_nonneg_of_ne_top {υ : Type*} (S : Finset υ) (f : υ → EReal) {x : EReal} (h0 : 0 ≤ x) (ht : x ≠ ⊤) :
    x * ∑ u ∈ S, f u = ∑ u ∈ S, x * f u := by
  classical
  induction S using Finset.induction_on with
  | empty => simp
  | insert a s ha ih => rw [Finset.sum_insert ha, Finset.sum_insert ha, EReal.left_distrib_of_nonneg_of_ne_top h0 ht, ih]

/-- THE EDGE LAW. Over a set `S` of edges, let edge `u` carry the message `a u`, the weight `b u` of its source and the
    weight `c u` of its target. If every edge of `S` has the same target weight `x` (they all enter one node) and `x` is
    nonnegative and finite, then scaling the sum of the source-weighted messages by `x` once is the sum of the
    messages each weighted by `b u * c u`. Both sums start from the same `z` with `x * z = z` (zero). -/
theorem scale_once_eq_scale_each {υ : Type*} (S : Finset υ) (a b c : υ → EReal) {x z : EReal} (h0 : 0 ≤ x) (ht : x ≠ ⊤)
    (hz : z = 0) (hc : ∀ u ∈ S, c u = x) :
    x * (z + ∑ u ∈ S, a u * b u) = z + ∑ u ∈ S, a u * (b u * c u) := by
  subst hz
  rw [zero_add, zero_add, mul_sum_of_nonneg_of_ne_top S _ h0 ht]
  refine Finset.sum_congr rfl fun u hu => ?_
  rw [hc u hu, mul_comm x, mul_assoc]

end EdgeSum
-- ==== Proof.AggLaw.lean ====
/-
  Normalising an attention aggregate once per node instead of once per edge.

  Every edge e entering node n carries a value u e and an unnormalised weight a e; the weights entering n sum to s.
  The reference divides each weight by the sum clipped from below at a small positive ε and then adds up the weighted
  values; the kernel adds up the unnormalised weighted values and divides the total once. On the extended reals these
  agree: the clipped sum is positive, so dividing by it is multiplying by its inverse, a nonnegative finite factor, and
  such a factor moves across a finite sum. Nothing has to be finite.
-/
import Idealize.ShloMosaic.PureOps.Ideal
import Idealize.ShloMosaic.PureOps.Ideal.Laws
import proofs.«103189_j64295660421655_2_alg».proof.Proof.LibScaledSum

open scoped BigOperators
open Idealize.ShloMosaic

namespace Cert.AggLaw

/-- The clip ε below the weight sums, as both programs spell it. -/
noncomputable abbrev eps : EReal := Ideal.ofBits .f32 0x2B8CBCCC#32

/-- ε is a positive number (about 10⁻¹²). -/
theorem eps_pos : (0 : EReal) < eps := by
  show (0 : EReal) < Ideal.ofBits .f32 0x2B8CBCCC#32
  simp [Ideal.ofBits, Ideal.ieee]
  exact_mod_cast (by positivity : (0 : ℝ) < 9223372 * ((2 : ℝ) ^ 63)⁻¹)

/-- A weight sum clipped from below at ε is not zero. -/
theorem clip_ne_zero (s : EReal) : max s eps ≠ 0 :=
  (lt_of_lt_of_le eps_pos (le_max_right s eps)).ne'

/-- Dividing by a clipped sum is multiplying by its inverse. -/
theorem div_clip (x s : EReal) : Ideal.div x (max s eps) = x * (max s eps)⁻¹ := by
  rw [Ideal.div, if_neg (clip_ne_zero s)]

/-- The inverse of a clipped sum is nonnegative and finite. -/
theorem inv_clip_nonneg (s : EReal) : 0 ≤ (max s eps)⁻¹ :=
  EReal.inv_nonneg_of_nonneg (le_trans eps_pos.le (le_max_right s eps))
theorem inv_clip_ne_top (s : EReal) : (max s eps)⁻¹ ≠ ⊤ := (EReal.inv_lt_top _).ne

/-- THE LAW. Over the edges e selected by `p` (those entering one node), each with value `u e`, weight `a e` and a
    clipped weight sum `t e` that is the node's `s` for every selected edge: the sum of the weighted values divided once
    by the node's clipped sum is the sum of the values weighted by the normalised weights. Both sums start from zero. -/
theorem normalise_once {E : Type} [Fintype E] (p : E → Prop) [DecidablePred p] (u a t : E → EReal) (s : EReal)
    (ht : ∀ e, p e → t e = s) :
    Ideal.div (0 + ∑ e, if p e then u e * a e else 0) (max s eps)
      = 0 + ∑ e, if p e then u e * Ideal.div (a e) (max (t e) eps) else 0 := by
  rw [div_clip, mul_comm, ← Finset.sum_filter, ← Finset.sum_filter,
    EdgeSum.scale_once_eq_scale_each (Finset.univ.filter p) u a (fun e => (max (t e) eps)⁻¹)
      (inv_clip_nonneg s) (inv_clip_ne_top s) rfl
      (fun e he => by rw [ht e (Finset.mem_filter.mp he).2])]
  refine congrArg _ (Finset.sum_congr rfl fun e _ => ?_)
  rw [div_clip]

end Cert.AggLaw
-- ==== Proof.LibColumnJoin.lean ====
/-
  Two arrays laid side by side: a general layout lemma.  An `[M, A]` array and an `[M, B]` array joined along the
  column axis into `[M, C]` read, at `(p, k)`, the first array at `(p, k)` when `k < A` and the second at
  `(p, k - A)` otherwise.
-/
import Idealize.ShloMosaic.Lib.Pipeline.Value
import Idealize.ShloMosaic.Lib.ValueIdx

namespace Cert.LibColumnJoin

open Idealize.ShloMosaic Idealize.ShloMosaic.ValueIdx

/-- A column of the joined array left of the seam is the first array's column. -/
theorem concat_cols_left {α : Type} {M A B C : ℕ} (x₁ : (⟨2, ![M, A]⟩ : Shape).Idx → α) (x₂ : (⟨2, ![M, B]⟩ : Shape).Idx → α)
    (h : Shape.Concatenates [(⟨2, ![M, A]⟩ : Shape), (⟨2, ![M, B]⟩ : Shape)] (⟨2, ![M, C]⟩ : Shape) 1)
    (p : Fin M) (k : Fin C) (hk : k.val < A) :
    concatenate (⟨2, ![M, C]⟩ : Shape) 1 [⟨(⟨2, ![M, A]⟩ : Shape), x₁⟩, ⟨(⟨2, ![M, B]⟩ : Shape), x₂⟩] h (ix2 p k)
      = x₁ (ix2 p ⟨k.val, hk⟩) :=
  concatenate_pair_apply_left 1 x₁ x₂ h (ix2 p k) rfl (ix2 p ⟨k.val, hk⟩) fun b => by
    match b with
    | ⟨0, _⟩ => rfl
    | ⟨1, _⟩ => rfl

/-- A column at or right of the seam is the second array's column, the first array's width less. -/
theorem concat_cols_right {α : Type} {M A B C : ℕ} (x₁ : (⟨2, ![M, A]⟩ : Shape).Idx → α) (x₂ : (⟨2, ![M, B]⟩ : Shape).Idx → α)
    (h : Shape.Concatenates [(⟨2, ![M, A]⟩ : Shape), (⟨2, ![M, B]⟩ : Shape)] (⟨2, ![M, C]⟩ : Shape) 1)
    (p : Fin M) (k : Fin C) (hk : A ≤ k.val) (hB : k.val - A < B) :
    concatenate (⟨2, ![M, C]⟩ : Shape) 1 [⟨(⟨2, ![M, A]⟩ : Shape), x₁⟩, ⟨(⟨2, ![M, B]⟩ : Shape), x₂⟩] h (ix2 p k)
      = x₂ (ix2 p ⟨k.val - A, hB⟩) :=
  concatenate_pair_apply_right 1 x₁ x₂ h (ix2 p k) rfl rfl (ix2 p ⟨k.val - A, hB⟩)
    (fun b hb => by
      match b with
      | ⟨0, _⟩ => rfl
      | ⟨1, _⟩ => exact absurd rfl hb)
    (by show k.val - A + A = k.val; omega)

end Cert.LibColumnJoin
-- ==== Proof.BridgeTail.lean ====
/-
  The last part of the layer, index by index: the reference's aggregate, projection, mix and clip read at a node and a
  lane, and its agreement with the kernel's second region fed the unnormalised aggregate and the weight sums.

  At node n and lane (h, d) the reference's aggregate is the sum over the edges e entering n of the source value
  times the weight divided by the clipped weight sum of the edge's target — which is n, since the edge enters n —; the
  kernel's is the same sum of unnormalised products divided once. The mix is a sum over 256 joined columns on one side
  and two sums over 128 on the other.
-/
import proofs.«103189_j64295660421655_2_alg».proof.Proof.KIStages
import proofs.«103189_j64295660421655_2_alg».proof.Proof.KIStagesAt
import proofs.«103189_j64295660421655_2_alg».proof.Proof.RefRead
import proofs.«103189_j64295660421655_2_alg».proof.Proof.IndexedOps
import proofs.«103189_j64295660421655_2_alg».proof.Proof.AggLaw
import proofs.«103189_j64295660421655_2_alg».proof.Proof.LibColumnJoin

noncomputable section

namespace Cert.Bridge

open Cert.ReferenceIdeal Cert.ReferenceIdeal.Gen Cert.ReferenceIdeal.Read
open Idealize.ShloMosaic Idealize.ShloMosaic.ValueIdx
open Cert.AggLaw (eps)
open Cert.KernelIdeal.Hand (lane)

variable (x : (⟨S50000x128, .f32⟩ : BufTy).Contents (Elt Ideal)) (ei : (⟨S2x800000, .i32⟩ : BufTy).Contents (Elt Ideal)) (ea : (⟨S800000x3, .f32⟩ : BufTy).Contents (Elt Ideal))
  (wq wk wv : (⟨S128x128, .f32⟩ : BufTy).Contents (Elt Ideal)) (we : (⟨S3x4, .f32⟩ : BufTy).Contents (Elt Ideal)) (wo : (⟨S128x128, .f32⟩ : BufTy).Contents (Elt Ideal)) (bo : (⟨S128, .f32⟩ : BufTy).Contents (Elt Ideal))
  (wm : (⟨S256x128, .f32⟩ : BufTy).Contents (Elt Ideal)) (bm : (⟨S128, .f32⟩ : BufTy).Contents (Elt Ideal))

/-! ## Indices -/

theorem idx65 (n : Fin 50000) (h : Fin 4) (d : Fin 32) : idx_main_v65 (ix2 n (lane h d)) = ix3 n h d :=
  funext fun a => Fin.ext (by
    have hn := n.isLt; have hh := h.isLt; have hd := d.isLt
    match a with
    | ⟨0, _⟩ => show (n.val * 128 + (h.val * 32 + d.val)) / 128 = n.val; omega
    | ⟨1, _⟩ => show (n.val * 128 + (h.val * 32 + d.val)) / 32 % 4 = h.val; omega
    | ⟨2, _⟩ => show (n.val * 128 + (h.val * 32 + d.val)) % 32 = d.val; omega)

theorem idx63 (e : Fin 800000) : idx_main_v63 (ix2 e (0 : Fin 1)) = ix1 e :=
  funext fun a => Fin.ext (by match a with | ⟨0, _⟩ => rfl)

theorem idx59_60 (e : Fin 800000) (h : Fin 4) (d : Fin 32) : idx_main_v59 (idx_main_v60 (ix3 e h d)) = ix2 e h :=
  funext fun a => Fin.ext (by match a with | ⟨0, _⟩ => rfl | ⟨1, _⟩ => rfl)

/-! ## The reference's aggregate at a node and a lane -/

/-- The clip constant is ε. -/
theorem v49_eq (i : S800000x4.Idx) : val_main_v49 (F := Ideal) i = eps := by
  rw [val_main_v49_apply]; rfl

/-- The scatter's operand is zero. -/
theorem v62_eq (i : S50000x4x32.Idx) : val_main_v62 (F := Ideal) i = Ideal.ofBits .f32 0x00000000#32 := by
  rw [val_main_v62_apply]; rfl

/-- An edge's normalised weight: its weight over the clipped weight sum of the row its target index gathers. -/
theorem v51_at (e : Fin 800000) (h : Fin 4) :
    val_main_v51 (F := Ideal) x ei ea wq wk we (ix2 e h)
      = Ideal.div (val_main_v38 (F := Ideal) x ei ea wq wk we (ix2 e h))
          (max (val_main_v41 (F := Ideal) x ei ea wq wk we
            (ix2 (Cert.IndexedOps.clampRow (val_main_v47 (F := Ideal) ei (ix2 e (0 : Fin 1)))) h)) eps) := by
  rw [val_main_v51_apply, val_main_v50_apply, v49_eq]
  unfold val_main_v48
  rw [Cert.IndexedOps.reference_gather4_apply]
  rfl

/-- The reference's aggregate at node n, head h, lane d. -/
theorem ref_agg_at (n : Fin 50000) (h : Fin 4) (d : Fin 32) :
    val_main_v65 (F := Ideal) x ei ea wq wk wv we (ix2 n (lane h d))
      = Ideal.ofBits .f32 0x00000000#32 + ∑ e : Fin 800000,
          if (val_main_v3 (F := Ideal) ei (ix1 e)).toInt = (n.val : ℤ) then
            val_main_v58 (F := Ideal) x ei wv (ix3 e h d)
              * Ideal.div (val_main_v38 (F := Ideal) x ei ea wq wk we (ix2 e h))
                  (max (val_main_v41 (F := Ideal) x ei ea wq wk we
                    (ix2 (Cert.IndexedOps.clampRow (val_main_v47 (F := Ideal) ei (ix2 e (0 : Fin 1)))) h)) eps)
          else 0 := by
  rw [val_main_v65_apply, idx65]
  unfold val_main_v64
  rw [Cert.IndexedOps.reference_scatter4x32_apply, v62_eq]
  refine congrArg _ (Finset.sum_congr rfl fun e _ => ?_)
  rw [val_main_v63_apply, idx63, val_main_v61_apply, val_main_v60_apply, val_main_v59_apply, idx59_60, v51_at]
  rfl

/-! ## The reference's projection, join and mix at an index -/

theorem lidx66 (n : Fin 50000) (k i : Fin 128) : lidx_main_v66 (ix2 n k) i = ix2 n i :=
  funext fun a => Fin.ext (by match a with | ⟨0, _⟩ => rfl | ⟨1, _⟩ => rfl)
theorem ridx66 (n : Fin 50000) (k i : Fin 128) : ridx_main_v66 (ix2 n k) i = ix2 i k :=
  funext fun a => Fin.ext (by match a with | ⟨0, _⟩ => rfl | ⟨1, _⟩ => rfl)
theorem idx67_68 (n : Fin 50000) (k : Fin 128) : idx_main_v67 (idx_main_v68 (ix2 n k)) = ix1 k :=
  funext fun a => Fin.ext (by match a with | ⟨0, _⟩ => rfl)
theorem lidx71 (n : Fin 50000) (j : Fin 128) (k : Fin 256) : lidx_main_v71 (ix2 n j) k = ix2 n k :=
  funext fun a => Fin.ext (by match a with | ⟨0, _⟩ => rfl | ⟨1, _⟩ => rfl)
theorem ridx71 (n : Fin 50000) (j : Fin 128) (k : Fin 256) : ridx_main_v71 (ix2 n j) k = ix2 k j :=
  funext fun a => Fin.ext (by match a with | ⟨0, _⟩ => rfl | ⟨1, _⟩ => rfl)
theorem idx72_73 (n : Fin 50000) (j : Fin 128) : idx_main_v72 (idx_main_v73 (ix2 n j)) = ix1 j :=
  funext fun a => Fin.ext (by match a with | ⟨0, _⟩ => rfl)

/-- The reference's projected aggregate at node n, lane k: the aggregate times the output projection, plus its bias. -/
theorem v69_at (n : Fin 50000) (k : Fin 128) :
    val_main_v69 (F := Ideal) x ei ea wq wk wv we wo bo (ix2 n k)
      = (∑ i : Fin 128, val_main_v65 (F := Ideal) x ei ea wq wk wv we (ix2 n i) * wo (ix2 i k)) + bo (ix1 k) := by
  rw [val_main_v69_apply, val_main_v66_apply, val_main_v68_apply, val_main_v67_apply, idx67_68]
  simp only [lidx66, ridx66]
  rfl

/-- Left of the seam the joined array is the features, -/
theorem v70_left (n : Fin 50000) (k : Fin 256) (hk : k.val < 128) :
    val_main_v70 (F := Ideal) x ei ea wq wk wv we wo bo (ix2 n k) = x (ix2 n ⟨k.val, hk⟩) := by
  unfold val_main_v70
  exact Cert.LibColumnJoin.concat_cols_left _ _ _ n k hk
/-- and right of it the projected aggregate. -/
theorem v70_right (n : Fin 50000) (k : Fin 256) (hk : 128 ≤ k.val) :
    val_main_v70 (F := Ideal) x ei ea wq wk wv we wo bo (ix2 n k)
      = val_main_v69 (F := Ideal) x ei ea wq wk wv we wo bo (ix2 n ⟨k.val - 128, by have := k.isLt; omega⟩) := by
  unfold val_main_v70
  exact Cert.LibColumnJoin.concat_cols_right _ _ _ n k hk (by have := k.isLt; omega)

/-- The joined array at a left column and at a right column, the seam's offset taken out. -/
theorem v70_low (n : Fin 50000) (k : Fin 128) :
    val_main_v70 (F := Ideal) x ei ea wq wk wv we wo bo (ix2 n (⟨k.val, by omega⟩ : Fin 256)) = x (ix2 n k) :=
  v70_left x ei ea wq wk wv we wo bo n ⟨k.val, by omega⟩ k.isLt
theorem v70_high (n : Fin 50000) (k : Fin 128) :
    val_main_v70 (F := Ideal) x ei ea wq wk wv we wo bo (ix2 n (⟨128 + k.val, by omega⟩ : Fin 256))
      = val_main_v69 (F := Ideal) x ei ea wq wk wv we wo bo (ix2 n k) :=
  (v70_right x ei ea wq wk wv we wo bo n ⟨128 + k.val, by omega⟩ (by show 128 ≤ 128 + k.val; omega)).trans
    (congrArg (fun z : Fin 128 => val_main_v69 (F := Ideal) x ei ea wq wk wv we wo bo (ix2 n z))
      (Fin.ext (by show 128 + k.val - 128 = k.val; omega)))

/-- The reference's result at node n, lane j. -/
theorem ref_out_at (n : Fin 50000) (j : Fin 128) :
    val_main_v75 (F := Ideal) x ei ea wq wk wv we wo bo wm bm (ix2 n j)
      = max ((∑ k : Fin 256, val_main_v70 (F := Ideal) x ei ea wq wk wv we wo bo (ix2 n k) * wm (ix2 k j)) + bm (ix1 j))
          (Ideal.ofBits .f32 0x00000000#32) := by
  rw [val_main_v75_apply, val_main_v74_apply, val_main_v71_apply, val_main_v73_apply, val_main_v72_apply, idx72_73,
    val_main_call1_v0_apply]
  simp only [lidx71, ridx71]
  rfl

/-- A sum over the 256 joined columns is the sum over the left 128 plus the sum over the right 128. -/
theorem sum_256 (f : Fin 256 → EReal) :
    ∑ k : Fin 256, f k = (∑ k : Fin 128, f ⟨k.val, by omega⟩) + ∑ k : Fin 128, f ⟨128 + k.val, by omega⟩ :=
  Fin.sum_univ_add (M := EReal) (a := 128) (b := 128) f

/-! ## The two programs agree -/

/-- An edge entering node n gathers node n's weight sums: its target index is n, neither wrapped nor clamped. -/
theorem gathered_row (e : Fin 800000) (n : Fin 50000) (h : (val_main_v3 (F := Ideal) ei (ix1 e)).toInt = (n.val : ℤ)) :
    Cert.IndexedOps.clampRow (val_main_v47 (F := Ideal) ei (ix2 e (0 : Fin 1))) = n :=
  Cert.IndexedOps.wrapped_column_clamp bcast_S_S800000 bcast_S800000_S800000x1_0 (val_main_v3 (F := Ideal) ei) e n h

/-- The kernel's normalised, projected aggregate at node n, lane k is the reference's projected aggregate: lane by
    lane the aggregate divided once by the node's clipped weight sum is the sum of the normalised products. -/
theorem proj_eq (n : Fin 50000) (k : Fin 128) :
    Cert.KernelIdeal.Hand.proj
        (Cert.KernelIdeal.Hand.aggRaw (val_main_v58 (F := Ideal) x ei wv) (val_main_v38 (F := Ideal) x ei ea wq wk we)
          (val_main_v3 (F := Ideal) ei))
        (Cert.KernelIdeal.Hand.sumLanes (val_main_v41 (F := Ideal) x ei ea wq wk we)) wo bo n k
      = val_main_v69 (F := Ideal) x ei ea wq wk wv we wo bo (ix2 n k) := by
  rw [v69_at]
  unfold Cert.KernelIdeal.Hand.proj
  refine congrArg (fun z : EReal => z + bo (ix1 k)) (Finset.sum_congr rfl fun i _ => ?_)
  obtain ⟨h, d, rfl⟩ : ∃ (h : Fin 4) (d : Fin 32), i = lane h d := ⟨_, _, Cert.KernelIdeal.Hand.lane_div_mod i⟩
  rw [Cert.KernelIdeal.Hand.aggRaw_apply, Cert.KernelIdeal.Hand.sumLanes_apply, ref_agg_at, Ideal.ofBits_zero_f32,
    Cert.AggLaw.normalise_once (fun e : Fin 800000 => (val_main_v3 (F := Ideal) ei (ix1 e)).toInt = (n.val : ℤ))
      (fun e => val_main_v58 (F := Ideal) x ei wv (ix3 e h d))
      (fun e => val_main_v38 (F := Ideal) x ei ea wq wk we (ix2 e h))
      (fun e => val_main_v41 (F := Ideal) x ei ea wq wk we
        (ix2 (Cert.IndexedOps.clampRow (val_main_v47 (F := Ideal) ei (ix2 e (0 : Fin 1)))) h))
      (val_main_v41 (F := Ideal) x ei ea wq wk we (ix2 n h))
      (fun e he => by rw [gathered_row ei e n he])]

/-- The kernel's second region, fed the unnormalised aggregate and the weight sums, computes the reference's result. -/
theorem tail_eq :
    Cert.KernelIdeal.Hand.G1 x
        (Cert.KernelIdeal.Hand.aggRaw (val_main_v58 (F := Ideal) x ei wv) (val_main_v38 (F := Ideal) x ei ea wq wk we)
          (val_main_v3 (F := Ideal) ei))
        (Cert.KernelIdeal.Hand.sumLanes (val_main_v41 (F := Ideal) x ei ea wq wk we)) wo bo
        (Cert.KernelIdeal.Hand.mixTop wm) (Cert.KernelIdeal.Hand.mixBot wm) bm
      = val_main_v75 (F := Ideal) x ei ea wq wk wv we wo bo wm bm := by
  funext i
  obtain ⟨n, j, rfl⟩ : ∃ (n : Fin 50000) (j : Fin 128), i = ix2 n j := ⟨i 0, i 1, eq_ix2 i⟩
  rw [ref_out_at, sum_256]
  simp only [v70_low, v70_high, ← proj_eq x ei ea wq wk wv we wo bo]
  show max (((∑ k : Fin 128, x (ix2 n k) * Cert.KernelIdeal.Hand.mixTop wm (ix2 k j))
      + (∑ k : Fin 128, Cert.KernelIdeal.Hand.proj _ _ wo bo n k * Cert.KernelIdeal.Hand.mixBot wm (ix2 k j))) + bm (ix1 j)) _ = _
  simp only [Cert.KernelIdeal.Hand.mixTop_apply, Cert.KernelIdeal.Hand.mixBot_apply]

end Cert.Bridge

end
-- ==== Proof.ValueEq.lean ====
/-
  The kernel program's result is the reference's last stage of the arguments.

  The kernel program's result buffer holds the second kernel's whole-array function of the features, the raw
  aggregate, the weight sums repeated over lanes and the output and mixing parameters, where the aggregate and the
  sums are built from the rows the first kernel projected. Stage by stage these ingredients are the reference's own
  intermediate arrays: the target index row, the gathered value rows, the edge weights and their sums per target node
  and head. What remains is the closing law: normalising once per node after aggregating, and mixing by the two
  halves of the mixing matrix, gives the reference's last stage.
-/
import proofs.«103189_j64295660421655_2_alg».proof.Proof.KIOut
import proofs.«103189_j64295660421655_2_alg».proof.Proof.BridgeStages
import proofs.«103189_j64295660421655_2_alg».proof.Proof.BridgeTail

noncomputable section

namespace Cert.Bridge

open Idealize.ShloMosaic Idealize.ShloMosaic.TcCoe

/-- The kernel program's result buffer holds the reference's last stage of the arguments. -/
theorem value_eq (m : (ℓ : Loc Cert.KernelIdeal.nD Cert.KernelIdeal.τ Cert.KernelIdeal.sig) → Buf (Elt Ideal) ℓ) (c : Dev Cert.KernelIdeal.nD) :
    Cert.KernelIdeal.Hand.W6 m c (Proc.devRef .tc Cert.KernelIdeal.main_v65)
      = Cert.ReferenceIdeal.Read.val_main_v75 (F := Ideal)
          (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7))
          (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) := by
  rw [Cert.KernelIdeal.Hand.kernel_value m c, wsum_eq, weights_eq, rowsV_eq, dstv_eq]
  exact tail_eq _ _ _ _ _ _ _ _ _ _ _

end Cert.Bridge

end
-- ==== Proof.RefRun.lean ====
/-
  The reference program's run, read stretch by stretch. Its 94 host operations are cut where it calls an outlined
  function (the sign split's select; the final clip at zero): the operations before the select, the select, the
  operations up to the biased mix, and the clip. After each stretch the buffers later stretches read hold the stage
  of the arguments that the read-at-an-index module names, so the result buffer ends at the last stage.
-/
import proofs.«103189_j64295660421655_2_alg».proof.Proof.RefRead
import proofs.«103189_j64295660421655_2_alg».proof.Proof.LibTypedRead

noncomputable section

namespace Cert.ReferenceIdeal.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The operations before the sign split's select. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v4 main_v5 rfl shapeCasts_S50000x128_S50000x4x32,
    binary main_arg0 main_arg4 main_v6 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v6 main_v7 rfl shapeCasts_S50000x128_S50000x4x32,
    binary main_arg0 main_arg5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    reshape main_v8 main_v9 rfl shapeCasts_S50000x128_S50000x4x32,
    binary main_arg2 main_arg6 main_v10 ((fun l r => Host.dotGeneral dot_S800000x3_S3x4_S800000x4_1_0_0_1_n_n none l r) : (⟨S800000x3, .f32⟩ : BufTy).Contents (Elt F) → (⟨S3x4, .f32⟩ : BufTy).Contents (Elt F) → (⟨S800000x4, .f32⟩ : BufTy).Contents (Elt F)),
    nullary main_c (constantI S_ 32 0#32),
    unary main_c main_v11 (broadcastInDim S800000 ![] bcast_S_S800000 : (⟨S_, .i32⟩ : BufTy).Contents (Elt F) → (⟨S800000, .i32⟩ : BufTy).Contents (Elt F)),
    binary main_v3 main_v11 main_v12 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v13 (broadcastInDim S800000 ![] bcast_S_S800000 : (⟨S_, .i32⟩ : BufTy).Contents (Elt F) → (⟨S800000, .i32⟩ : BufTy).Contents (Elt F)),
    binary main_v3 main_v13 main_v14 (addi : (⟨S800000, .i32⟩ : BufTy).Contents (Elt F) → (⟨S800000, .i32⟩ : BufTy).Contents (Elt F) → (⟨S800000, .i32⟩ : BufTy).Contents (Elt F)),
    ternary main_v12 main_v14 main_v3 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v15 main_v16 (broadcastInDim S800000x1 ![0] bcast_S800000_S800000x1_0 : (⟨S800000, .i32⟩ : BufTy).Contents (Elt F) → (⟨S800000x1, .i32⟩ : BufTy).Contents (Elt F)),
    binary main_v5 main_v16 main_v17 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    nullary main_c_1 (constantI S_ 32 0#32),
    unary main_c_1 main_v18 (broadcastInDim S800000 ![] bcast_S_S800000 : (⟨S_, .i32⟩ : BufTy).Contents (Elt F) → (⟨S800000, .i32⟩ : BufTy).Contents (Elt F)),
    binary main_v1 main_v18 main_v19 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v20 (broadcastInDim S800000 ![] bcast_S_S800000 : (⟨S_, .i32⟩ : BufTy).Contents (Elt F) → (⟨S800000, .i32⟩ : BufTy).Contents (Elt F)),
    binary main_v1 main_v20 main_v21 (addi : (⟨S800000, .i32⟩ : BufTy).Contents (Elt F) → (⟨S800000, .i32⟩ : BufTy).Contents (Elt F) → (⟨S800000, .i32⟩ : BufTy).Contents (Elt F)),
    ternary main_v19 main_v21 main_v1 main_v22 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v22 main_v23 (broadcastInDim S800000x1 ![0] bcast_S800000_S800000x1_0 : (⟨S800000, .i32⟩ : BufTy).Contents (Elt F) → (⟨S800000x1, .i32⟩ : BufTy).Contents (Elt F)),
    binary main_v7 main_v23 main_v24 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    binary main_v17 main_v24 main_v25 (mulf : (⟨S800000x4x32, .f32⟩ : BufTy).Contents (Elt F) → (⟨S800000x4x32, .f32⟩ : BufTy).Contents (Elt F) → (⟨S800000x4x32, .f32⟩ : BufTy).Contents (Elt F)),
    nullary main_cst (constant S_ .f32 0x00000000#32),
    binary main_v25 main_cst main_v26 ((fun x v => Host.reduceAdd x v reducesTo_S800000x4x32_S800000x4_d2 h_S_) : (⟨S800000x4x32, .f32⟩ : BufTy).Contents (Elt F) → (⟨S_, .f32⟩ : BufTy).Contents (Elt F) → (⟨S800000x4, .f32⟩ : BufTy).Contents (Elt F)),
    nullary main_cst_3 (constant S_ .f32 0x3E3504F3#32),
    unary main_cst_3 main_v27 (broadcastInDim S800000x4 ![] bcast_S_S800000x4 : (⟨S_, .f32⟩ : BufTy).Contents (Elt F) → (⟨S800000x4, .f32⟩ : BufTy).Contents (Elt F)),
    binary main_v26 main_v27 main_v28 (mulf : (⟨S800000x4, .f32⟩ : BufTy).Contents (Elt F) → (⟨S800000x4, .f32⟩ : BufTy).Contents (Elt F) → (⟨S800000x4, .f32⟩ : BufTy).Contents (Elt F)),
    binary main_v28 main_v10 main_v29 (addf : (⟨S800000x4, .f32⟩ : BufTy).Contents (Elt F) → (⟨S800000x4, .f32⟩ : BufTy).Contents (Elt F) → (⟨S800000x4, .f32⟩ : BufTy).Contents (Elt F)),
    nullary main_cst_4 (constant S_ .f32 0x00000000#32),
    unary main_cst_4 main_v30 (broadcastInDim S800000x4 ![] bcast_S_S800000x4 : (⟨S_, .f32⟩ : BufTy).Contents (Elt F) → (⟨S800000x4, .f32⟩ : BufTy).Contents (Elt F)),
    binary main_v29 main_v30 main_v31 (cmpf .oge : (⟨S800000x4, .f32⟩ : BufTy).Contents (Elt F) → (⟨S800000x4, .f32⟩ : BufTy).Contents (Elt F) → (⟨S800000x4, .i1⟩ : BufTy).Contents (Elt F)),
    nullary main_cst_5 (constant S_ .f32 0x3E4CCCCD#32),
    unary main_cst_5 main_v32 (broadcastInDim S800000x4 ![] bcast_S_S800000x4 : (⟨S_, .f32⟩ : BufTy).Contents (Elt F) → (⟨S800000x4, .f32⟩ : BufTy).Contents (Elt F)),
    binary main_v32 main_v29 main_v33 (mulf : (⟨S800000x4, .f32⟩ : BufTy).Contents (Elt F) → (⟨S800000x4, .f32⟩ : BufTy).Contents (Elt F) → (⟨S800000x4, .f32⟩ : BufTy).Contents (Elt F)) ]

/-- The sign split's select, an outlined function's one operation. -/
abbrev opsS : List (HloOp τ sig (Elt F)) :=
  [ TRef.ternary (TRef.of (T := ⟨S800000x4, .i1⟩) main_v31) (TRef.of (T := ⟨S800000x4, .f32⟩) main_v29) (TRef.of (T := ⟨S800000x4, .f32⟩) main_v33) (TRef.of (T := ⟨S800000x4, .f32⟩) main_v34) select ]

/-- From the largest score to the biased mix. -/
abbrev opsB : List (HloOp τ sig (Elt F)) :=
  [ nullary main_cst_6 (constant S_ .f32 0xFF800000#32),
    binary main_v34 main_cst_6 main_v35 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    unary main_v35 main_v36 (broadcastInDim S800000x4 ![] bcast_S_S800000x4 : (⟨S_, .f32⟩ : BufTy).Contents (Elt F) → (⟨S800000x4, .f32⟩ : BufTy).Contents (Elt F)),
    binary main_v34 main_v36 main_v37 (subf : (⟨S800000x4, .f32⟩ : BufTy).Contents (Elt F) → (⟨S800000x4, .f32⟩ : BufTy).Contents (Elt F) → (⟨S800000x4, .f32⟩ : BufTy).Contents (Elt F)),
    unary main_v37 main_v38 (Host.exp : (⟨S800000x4, .f32⟩ : BufTy).Contents (Elt F) → (⟨S800000x4, .f32⟩ : BufTy).Contents (Elt F)),
    nullary main_cst_7 (constant S_ .f32 0x00000000#32),
    unary main_cst_7 main_v39 (broadcastInDim S50000x4 ![] bcast_S_S50000x4 : (⟨S_, .f32⟩ : BufTy).Contents (Elt F) → (⟨S50000x4, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    nullary main_c_8 (constantI S_ 32 0#32),
    unary main_c_8 main_v42 (broadcastInDim S800000 ![] bcast_S_S800000 : (⟨S_, .i32⟩ : BufTy).Contents (Elt F) → (⟨S800000, .i32⟩ : BufTy).Contents (Elt F)),
    binary main_v3 main_v42 main_v43 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v44 (broadcastInDim S800000 ![] bcast_S_S800000 : (⟨S_, .i32⟩ : BufTy).Contents (Elt F) → (⟨S800000, .i32⟩ : BufTy).Contents (Elt F)),
    binary main_v3 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v3 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_cst_10 (constant S_ .f32 0x2B8CBCCC#32),
    unary main_cst_10 main_v49 (broadcastInDim S800000x4 ![] bcast_S_S800000x4 : (⟨S_, .f32⟩ : BufTy).Contents (Elt F) → (⟨S800000x4, .f32⟩ : BufTy).Contents (Elt F)),
    binary main_v48 main_v49 main_v50 (maximumf : (⟨S800000x4, .f32⟩ : BufTy).Contents (Elt F) → (⟨S800000x4, .f32⟩ : BufTy).Contents (Elt F) → (⟨S800000x4, .f32⟩ : BufTy).Contents (Elt F)),
    binary main_v38 main_v50 main_v51 (Host.divf : (⟨S800000x4, .f32⟩ : BufTy).Contents (Elt F) → (⟨S800000x4, .f32⟩ : BufTy).Contents (Elt F) → (⟨S800000x4, .f32⟩ : BufTy).Contents (Elt F)),
    nullary main_c_11 (constantI S_ 32 0#32),
    unary main_c_11 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v9 main_v57 main_v58 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v51 main_v59 (broadcastInDim S800000x4x1 ![0, 1] bcast_S800000x4_S800000x4x1_0_1 : (⟨S800000x4, .f32⟩ : BufTy).Contents (Elt F) → (⟨S800000x4x1, .f32⟩ : BufTy).Contents (Elt F)),
    unary main_v59 main_v60 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v58 main_v60 main_v61 (mulf : (⟨S800000x4x32, .f32⟩ : BufTy).Contents (Elt F) → (⟨S800000x4x32, .f32⟩ : BufTy).Contents (Elt F) → (⟨S800000x4x32, .f32⟩ : BufTy).Contents (Elt F)),
    nullary main_cst_13 (constant S_ .f32 0x00000000#32),
    unary main_cst_13 main_v62 (broadcastInDim S50000x4x32 ![] bcast_S_S50000x4x32 : (⟨S_, .f32⟩ : BufTy).Contents (Elt F) → (⟨S50000x4x32, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    reshape main_v64 main_v65 rfl shapeCasts_S50000x4x32_S50000x128,
    binary main_v65 main_arg7 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)),
    binary main_arg0 main_v69 main_v70 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v70 main_arg9 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- From the largest score to the projected aggregate with its bias. -/
abbrev opsB1 : List (HloOp τ sig (Elt F)) :=
  [ nullary main_cst_6 (constant S_ .f32 0xFF800000#32),
    binary main_v34 main_cst_6 main_v35 ((fun x v => Host.reduce FloatOps.maximumf x v reducesTo_S800000x4_S_d0_1 h_S_) : (⟨S800000x4, .f32⟩ : BufTy).Contents (Elt F) → (⟨S_, .f32⟩ : BufTy).Contents (Elt F) → (⟨S_, .f32⟩ : BufTy).Contents (Elt F)),
    unary main_v35 main_v36 (broadcastInDim S800000x4 ![] bcast_S_S800000x4 : (⟨S_, .f32⟩ : BufTy).Contents (Elt F) → (⟨S800000x4, .f32⟩ : BufTy).Contents (Elt F)),
    binary main_v34 main_v36 main_v37 (subf : (⟨S800000x4, .f32⟩ : BufTy).Contents (Elt F) → (⟨S800000x4, .f32⟩ : BufTy).Contents (Elt F) → (⟨S800000x4, .f32⟩ : BufTy).Contents (Elt F)),
    unary main_v37 main_v38 (Host.exp : (⟨S800000x4, .f32⟩ : BufTy).Contents (Elt F) → (⟨S800000x4, .f32⟩ : BufTy).Contents (Elt F)),
    nullary main_cst_7 (constant S_ .f32 0x00000000#32),
    unary main_cst_7 main_v39 (broadcastInDim S50000x4 ![] bcast_S_S50000x4 : (⟨S_, .f32⟩ : BufTy).Contents (Elt F) → (⟨S50000x4, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x4_S800000x1_S800000x4_1_0_0_1 x i u) : (⟨S50000x4, .f32⟩ : BufTy).Contents (Elt F) → (⟨S800000x1, .i32⟩ : BufTy).Contents (Elt F) → (⟨S800000x4, .f32⟩ : BufTy).Contents (Elt F) → (⟨S50000x4, .f32⟩ : BufTy).Contents (Elt F)),
    nullary main_c_8 (constantI S_ 32 0#32),
    unary main_c_8 main_v42 (broadcastInDim S800000 ![] bcast_S_S800000 : (⟨S_, .i32⟩ : BufTy).Contents (Elt F) → (⟨S800000, .i32⟩ : BufTy).Contents (Elt F)),
    binary main_v3 main_v42 main_v43 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v44 (broadcastInDim S800000 ![] bcast_S_S800000 : (⟨S_, .i32⟩ : BufTy).Contents (Elt F) → (⟨S800000, .i32⟩ : BufTy).Contents (Elt F)),
    binary main_v3 main_v44 main_v45 (addi : (⟨S800000, .i32⟩ : BufTy).Contents (Elt F) → (⟨S800000, .i32⟩ : BufTy).Contents (Elt F) → (⟨S800000, .i32⟩ : BufTy).Contents (Elt F)),
    ternary main_v43 main_v45 main_v3 main_v46 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v46 main_v47 (broadcastInDim S800000x1 ![0] bcast_S800000_S800000x1_0 : (⟨S800000, .i32⟩ : BufTy).Contents (Elt F) → (⟨S800000x1, .i32⟩ : BufTy).Contents (Elt F)),
    binary main_v41 main_v47 main_v48 ((fun x i => Host.gather gather_S50000x4_S800000x1_S800000x4_1_0_n_n_0_1_14 x i) : (⟨S50000x4, .f32⟩ : BufTy).Contents (Elt F) → (⟨S800000x1, .i32⟩ : BufTy).Contents (Elt F) → (⟨S800000x4, .f32⟩ : BufTy).Contents (Elt F)),
    nullary main_cst_10 (constant S_ .f32 0x2B8CBCCC#32),
    unary main_cst_10 main_v49 (broadcastInDim S800000x4 ![] bcast_S_S800000x4 : (⟨S_, .f32⟩ : BufTy).Contents (Elt F) → (⟨S800000x4, .f32⟩ : BufTy).Contents (Elt F)),
    binary main_v48 main_v49 main_v50 (maximumf : (⟨S800000x4, .f32⟩ : BufTy).Contents (Elt F) → (⟨S800000x4, .f32⟩ : BufTy).Contents (Elt F) → (⟨S800000x4, .f32⟩ : BufTy).Contents (Elt F)),
    binary main_v38 main_v50 main_v51 (Host.divf : (⟨S800000x4, .f32⟩ : BufTy).Contents (Elt F) → (⟨S800000x4, .f32⟩ : BufTy).Contents (Elt F) → (⟨S800000x4, .f32⟩ : BufTy).Contents (Elt F)),
    nullary main_c_11 (constantI S_ 32 0#32),
    unary main_c_11 main_v52 (broadcastInDim S800000 ![] bcast_S_S800000 : (⟨S_, .i32⟩ : BufTy).Contents (Elt F) → (⟨S800000, .i32⟩ : BufTy).Contents (Elt F)),
    binary main_v1 main_v52 main_v53 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v54 (broadcastInDim S800000 ![] bcast_S_S800000 : (⟨S_, .i32⟩ : BufTy).Contents (Elt F) → (⟨S800000, .i32⟩ : BufTy).Contents (Elt F)),
    binary main_v1 main_v54 main_v55 (addi : (⟨S800000, .i32⟩ : BufTy).Contents (Elt F) → (⟨S800000, .i32⟩ : BufTy).Contents (Elt F) → (⟨S800000, .i32⟩ : BufTy).Contents (Elt F)),
    ternary main_v53 main_v55 main_v1 main_v56 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v56 main_v57 (broadcastInDim S800000x1 ![0] bcast_S800000_S800000x1_0 : (⟨S800000, .i32⟩ : BufTy).Contents (Elt F) → (⟨S800000x1, .i32⟩ : BufTy).Contents (Elt F)),
    binary main_v9 main_v57 main_v58 ((fun x i => Host.gather gather_S50000x4x32_S800000x1_S800000x4x32_12_0_n_n_0_1_1432 x i) : (⟨S50000x4x32, .f32⟩ : BufTy).Contents (Elt F) → (⟨S800000x1, .i32⟩ : BufTy).Contents (Elt F) → (⟨S800000x4x32, .f32⟩ : BufTy).Contents (Elt F)),
    unary main_v51 main_v59 (broadcastInDim S800000x4x1 ![0, 1] bcast_S800000x4_S800000x4x1_0_1 : (⟨S800000x4, .f32⟩ : BufTy).Contents (Elt F) → (⟨S800000x4x1, .f32⟩ : BufTy).Contents (Elt F)),
    unary main_v59 main_v60 (broadcastInDim S800000x4x32 ![0, 1, 2] bcast_S800000x4x1_S800000x4x32_0_1_2 : (⟨S800000x4x1, .f32⟩ : BufTy).Contents (Elt F) → (⟨S800000x4x32, .f32⟩ : BufTy).Contents (Elt F)),
    binary main_v58 main_v60 main_v61 (mulf : (⟨S800000x4x32, .f32⟩ : BufTy).Contents (Elt F) → (⟨S800000x4x32, .f32⟩ : BufTy).Contents (Elt F) → (⟨S800000x4x32, .f32⟩ : BufTy).Contents (Elt F)),
    nullary main_cst_13 (constant S_ .f32 0x00000000#32),
    unary main_cst_13 main_v62 (broadcastInDim S50000x4x32 ![] bcast_S_S50000x4x32 : (⟨S_, .f32⟩ : BufTy).Contents (Elt F) → (⟨S50000x4x32, .f32⟩ : BufTy).Contents (Elt F)),
    unary main_v3 main_v63 (broadcastInDim S800000x1 ![0] bcast_S800000_S800000x1_0 : (⟨S800000, .i32⟩ : BufTy).Contents (Elt F) → (⟨S800000x1, .i32⟩ : BufTy).Contents (Elt F)),
    ternary main_v62 main_v63 main_v61 main_v64 ((fun x i u => Host.scatterAdd scatter_S50000x4x32_S800000x1_S800000x4x32_12_0_0_1 x i u) : (⟨S50000x4x32, .f32⟩ : BufTy).Contents (Elt F) → (⟨S800000x1, .i32⟩ : BufTy).Contents (Elt F) → (⟨S800000x4x32, .f32⟩ : BufTy).Contents (Elt F) → (⟨S50000x4x32, .f32⟩ : BufTy).Contents (Elt F)),
    reshape main_v64 main_v65 rfl shapeCasts_S50000x4x32_S50000x128,
    binary main_v65 main_arg7 main_v66 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- The features joined to the projected aggregate, the mix and its bias. -/
abbrev opsB2 : List (HloOp τ sig (Elt F)) :=
  [ binary main_arg0 main_v69 main_v70 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v70 main_arg9 main_v71 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg10 main_v72 (broadcastInDim S1x128 ![1] bcast_S128_S1x128_1 : (⟨S128, .f32⟩ : BufTy).Contents (Elt F) → (⟨S1x128, .f32⟩ : BufTy).Contents (Elt F)),
    unary main_v72 main_v73 (broadcastInDim S50000x128 ![0, 1] bcast_S1x128_S50000x128_0_1 : (⟨S1x128, .f32⟩ : BufTy).Contents (Elt F) → (⟨S50000x128, .f32⟩ : BufTy).Contents (Elt F)),
    binary main_v71 main_v73 main_v74 (addf : (⟨S50000x128, .f32⟩ : BufTy).Contents (Elt F) → (⟨S50000x128, .f32⟩ : BufTy).Contents (Elt F) → (⟨S50000x128, .f32⟩ : BufTy).Contents (Elt F)) ]

/-- The clip at zero, an outlined function's three operations. -/
abbrev opsC : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v74) (TRef.of (T := ⟨S50000x128, .f32⟩) main_call1_v0) (TRef.of (T := ⟨S50000x128, .f32⟩) main_v75) maximumf ]

/-- The four stretches in order are the program's operations. -/
theorem ops_split : (Cert.ReferenceIdeal.Value.ops : List (HloOp τ sig (Elt F))) = opsA ++ (opsS ++ (opsB ++ opsC)) := rfl

/-- The third stretch, cut before the two blocks are joined side by side. -/
theorem opsB_split : (opsB : List (HloOp τ sig (Elt F))) = opsB1 ++ opsB2 := rfl

/-! ## Reading a buffer after each stretch -/

/-- Lists of operations run one after the other. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, after_cons, after_cons, after_app l₁ l₂]

section Stretches
-- any buffer contents a stretch may start from
variable (W : Valuation τ sig (Elt F))

/-! ### Before the select: each buffer a later stretch reads is its stage of the arguments found in `W` -/

theorem afterA_v1 : StableHlo.after (opsA (F := F)) W (Proc.devRef .tc main_v1) = val_main_v1 (F := F) (W (Proc.devRef .tc main_arg1)) := by
  after_results_simp <;> rfl
theorem afterA_v3 : StableHlo.after (opsA (F := F)) W (Proc.devRef .tc main_v3) = val_main_v3 (F := F) (W (Proc.devRef .tc main_arg1)) := by
  after_results_simp <;> rfl
theorem afterA_v9 : StableHlo.after (opsA (F := F)) W (Proc.devRef .tc main_v9) = val_main_v9 (F := F) (W (Proc.devRef .tc main_arg0)) (W (Proc.devRef .tc main_arg5)) := by
  after_results_simp <;> rfl
theorem afterA_v29 : StableHlo.after (opsA (F := F)) W (Proc.devRef .tc main_v29) = val_main_v29 (F := F) (W (Proc.devRef .tc main_arg0)) (W (Proc.devRef .tc main_arg1)) (W (Proc.devRef .tc main_arg2)) (W (Proc.devRef .tc main_arg3)) (W (Proc.devRef .tc main_arg4)) (W (Proc.devRef .tc main_arg6)) := by
  after_results_simp <;> rfl
theorem afterA_v31 : StableHlo.after (opsA (F := F)) W (Proc.devRef .tc main_v31) = val_main_v31 (F := F) (W (Proc.devRef .tc main_arg0)) (W (Proc.devRef .tc main_arg1)) (W (Proc.devRef .tc main_arg2)) (W (Proc.devRef .tc main_arg3)) (W (Proc.devRef .tc main_arg4)) (W (Proc.devRef .tc main_arg6)) := by
  after_results_simp <;> rfl
theorem afterA_v33 : StableHlo.after (opsA (F := F)) W (Proc.devRef .tc main_v33) = val_main_v33 (F := F) (W (Proc.devRef .tc main_arg0)) (W (Proc.devRef .tc main_arg1)) (W (Proc.devRef .tc main_arg2)) (W (Proc.devRef .tc main_arg3)) (W (Proc.devRef .tc main_arg4)) (W (Proc.devRef .tc main_arg6)) := by
  after_results_simp <;> rfl
theorem afterA_arg0 : StableHlo.after (opsA (F := F)) W (Proc.devRef .tc main_arg0) = W (Proc.devRef .tc main_arg0) := by
  after_results_simp <;> rfl
theorem afterA_arg7 : StableHlo.after (opsA (F := F)) W (Proc.devRef .tc main_arg7) = W (Proc.devRef .tc main_arg7) := by
  after_results_simp <;> rfl
theorem afterA_arg8 : StableHlo.after (opsA (F := F)) W (Proc.devRef .tc main_arg8) = W (Proc.devRef .tc main_arg8) := by
  after_results_simp <;> rfl
theorem afterA_arg9 : StableHlo.after (opsA (F := F)) W (Proc.devRef .tc main_arg9) = W (Proc.devRef .tc main_arg9) := by
  after_results_simp <;> rfl
theorem afterA_arg10 : StableHlo.after (opsA (F := F)) W (Proc.devRef .tc main_arg10) = W (Proc.devRef .tc main_arg10) := by
  after_results_simp <;> rfl

/-! ### The select: its result buffer is the choice among its three operands, every other buffer is as it was -/

theorem afterS_v34 : StableHlo.after (opsS (F := F)) W (Proc.devRef .tc main_v34)
    = select (W (Proc.devRef .tc main_v31)) (W (Proc.devRef .tc main_v29)) (W (Proc.devRef .tc main_v33)) := by
  after_results_simp <;> rfl

theorem afterS_ne {r : Ref sig .tc} (h : r ≠ main_v34) :
    StableHlo.after (opsS (F := F)) W (Proc.devRef .tc r) = W (Proc.devRef .tc r) := by
  rw [after_cons, after_nil]
  exact ternary_result_ne _ _ _ _ _ _ _ _ _ W h

/-! ### From the largest score to the projected aggregate with its bias -/

theorem afterB1_v69 (x0 : (⟨S50000x128, .f32⟩ : BufTy).Contents (Elt F)) (x1 : (⟨S2x800000, .i32⟩ : BufTy).Contents (Elt F)) (x2 : (⟨S800000x3, .f32⟩ : BufTy).Contents (Elt F)) (x3 : (⟨S128x128, .f32⟩ : BufTy).Contents (Elt F)) (x4 : (⟨S128x128, .f32⟩ : BufTy).Contents (Elt F)) (x5 : (⟨S128x128, .f32⟩ : BufTy).Contents (Elt F)) (x6 : (⟨S3x4, .f32⟩ : BufTy).Contents (Elt F)) (x7 : (⟨S128x128, .f32⟩ : BufTy).Contents (Elt F)) (x8 : (⟨S128, .f32⟩ : BufTy).Contents (Elt F))
    (h34 : W (Proc.devRef .tc main_v34) = val_main_v34 (F := F) x0 x1 x2 x3 x4 x6)
    (h3 : W (Proc.devRef .tc main_v3) = val_main_v3 (F := F) x1) (h1 : W (Proc.devRef .tc main_v1) = val_main_v1 (F := F) x1)
    (h9 : W (Proc.devRef .tc main_v9) = val_main_v9 (F := F) x0 x5)
    (ha7 : W (Proc.devRef .tc main_arg7) = x7) (ha8 : W (Proc.devRef .tc main_arg8) = x8) :
    StableHlo.after (opsB1 (F := F)) W (Proc.devRef .tc main_v69) = val_main_v69 (F := F) x0 x1 x2 x3 x4 x5 x6 x7 x8 := by
  after_results_simp
  simp only [h34, h3, h1, h9, ha7, ha8]
  rfl
theorem afterB1_arg0 : StableHlo.after (opsB1 (F := F)) W (Proc.devRef .tc main_arg0) = W (Proc.devRef .tc main_arg0) := by
  after_results_simp <;> rfl
theorem afterB1_arg9 : StableHlo.after (opsB1 (F := F)) W (Proc.devRef .tc main_arg9) = W (Proc.devRef .tc main_arg9) := by
  after_results_simp <;> rfl
theorem afterB1_arg10 : StableHlo.after (opsB1 (F := F)) W (Proc.devRef .tc main_arg10) = W (Proc.devRef .tc main_arg10) := by
  after_results_simp <;> rfl

/-! ### The join, the mix and its bias

The features and the projected aggregate are laid side by side, multiplied by the mixing matrix, and the
second bias row is added to every row. -/

theorem afterB2_v74 (x0 : (⟨S50000x128, .f32⟩ : BufTy).Contents (Elt F)) (x1 : (⟨S2x800000, .i32⟩ : BufTy).Contents (Elt F)) (x2 : (⟨S800000x3, .f32⟩ : BufTy).Contents (Elt F)) (x3 : (⟨S128x128, .f32⟩ : BufTy).Contents (Elt F)) (x4 : (⟨S128x128, .f32⟩ : BufTy).Contents (Elt F)) (x5 : (⟨S128x128, .f32⟩ : BufTy).Contents (Elt F)) (x6 : (⟨S3x4, .f32⟩ : BufTy).Contents (Elt F)) (x7 : (⟨S128x128, .f32⟩ : BufTy).Contents (Elt F)) (x8 : (⟨S128, .f32⟩ : BufTy).Contents (Elt F)) (x9 : (⟨S256x128, .f32⟩ : BufTy).Contents (Elt F)) (x10 : (⟨S128, .f32⟩ : BufTy).Contents (Elt F))
    (h69 : W (Proc.devRef .tc main_v69) = val_main_v69 (F := F) x0 x1 x2 x3 x4 x5 x6 x7 x8)
    (ha0 : W (Proc.devRef .tc main_arg0) = x0) (ha9 : W (Proc.devRef .tc main_arg9) = x9) (ha10 : W (Proc.devRef .tc main_arg10) = x10) :
    StableHlo.after (opsB2 (F := F)) W (Proc.devRef .tc main_v74) = val_main_v74 (F := F) x0 x1 x2 x3 x4 x5 x6 x7 x8 x9 x10 := by
  after_results_simp
  rw [h69, ha0, ha9, ha10]
  rfl

/-! ### The clip at zero -/

theorem afterC_v75 : StableHlo.after (opsC (F := F)) W (Proc.devRef .tc main_v75)
    = maximumf (W (Proc.devRef .tc main_v74)) (broadcastInDim S50000x128 ![] bcast_S_S50000x128 (constant S_ .f32 0x00000000#32)) := by
  after_results_simp <;> rfl

/-! ### The whole program -/

/-- The result buffer after all the operations is the last stage of the arguments found in `W`. -/
theorem after_v75 : StableHlo.after (Cert.ReferenceIdeal.Value.ops (F := F)) W (Proc.devRef .tc main_v75)
    = val_main_v75 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  have h34 : (StableHlo.after opsS (StableHlo.after opsA W)) (Proc.devRef .tc main_v34) = val_main_v34 (F := F) (W (Proc.devRef .tc main_arg0)) (W (Proc.devRef .tc main_arg1)) (W (Proc.devRef .tc main_arg2)) (W (Proc.devRef .tc main_arg3)) (W (Proc.devRef .tc main_arg4)) (W (Proc.devRef .tc main_arg6)) :=
    (afterS_v34 _).trans (by rw [afterA_v31, afterA_v29, afterA_v33]; rfl)
  have h69 : (StableHlo.after opsB1 (StableHlo.after opsS (StableHlo.after opsA W))) (Proc.devRef .tc main_v69) = val_main_v69 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
    afterB1_v69 (StableHlo.after opsS (StableHlo.after opsA W)) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) h34
      ((afterS_ne _ (by decide)).trans (afterA_v3 W)) ((afterS_ne _ (by decide)).trans (afterA_v1 W)) ((afterS_ne _ (by decide)).trans (afterA_v9 W))
      ((afterS_ne _ (by decide)).trans (afterA_arg7 W)) ((afterS_ne _ (by decide)).trans (afterA_arg8 W))
  rw [ops_split, after_app, after_app, after_app, afterC_v75, opsB_split, after_app,
    afterB2_v74 (StableHlo.after opsB1 (StableHlo.after opsS (StableHlo.after opsA W))) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) h69
      ((afterB1_arg0 _).trans ((afterS_ne _ (by decide)).trans (afterA_arg0 W)))
      ((afterB1_arg9 _).trans ((afterS_ne _ (by decide)).trans (afterA_arg9 W)))
      ((afterB1_arg10 _).trans ((afterS_ne _ (by decide)).trans (afterA_arg10 W)))]
  rfl

/-- No operation writes an argument. -/
theorem after_arg0 : StableHlo.after (Cert.ReferenceIdeal.Value.ops (F := F)) W (Proc.devRef .tc main_arg0) = W (Proc.devRef .tc main_arg0) := by
  after_results_simp <;> rfl
theorem after_arg1 : StableHlo.after (Cert.ReferenceIdeal.Value.ops (F := F)) W (Proc.devRef .tc main_arg1) = W (Proc.devRef .tc main_arg1) := by
  after_results_simp <;> rfl
theorem after_arg2 : StableHlo.after (Cert.ReferenceIdeal.Value.ops (F := F)) W (Proc.devRef .tc main_arg2) = W (Proc.devRef .tc main_arg2) := by
  after_results_simp <;> rfl
theorem after_arg3 : StableHlo.after (Cert.ReferenceIdeal.Value.ops (F := F)) W (Proc.devRef .tc main_arg3) = W (Proc.devRef .tc main_arg3) := by
  after_results_simp <;> rfl
theorem after_arg4 : StableHlo.after (Cert.ReferenceIdeal.Value.ops (F := F)) W (Proc.devRef .tc main_arg4) = W (Proc.devRef .tc main_arg4) := by
  after_results_simp <;> rfl
theorem after_arg5 : StableHlo.after (Cert.ReferenceIdeal.Value.ops (F := F)) W (Proc.devRef .tc main_arg5) = W (Proc.devRef .tc main_arg5) := by
  after_results_simp <;> rfl
theorem after_arg6 : StableHlo.after (Cert.ReferenceIdeal.Value.ops (F := F)) W (Proc.devRef .tc main_arg6) = W (Proc.devRef .tc main_arg6) := by
  after_results_simp <;> rfl
theorem after_arg7 : StableHlo.after (Cert.ReferenceIdeal.Value.ops (F := F)) W (Proc.devRef .tc main_arg7) = W (Proc.devRef .tc main_arg7) := by
  after_results_simp <;> rfl
theorem after_arg8 : StableHlo.after (Cert.ReferenceIdeal.Value.ops (F := F)) W (Proc.devRef .tc main_arg8) = W (Proc.devRef .tc main_arg8) := by
  after_results_simp <;> rfl
theorem after_arg9 : StableHlo.after (Cert.ReferenceIdeal.Value.ops (F := F)) W (Proc.devRef .tc main_arg9) = W (Proc.devRef .tc main_arg9) := by
  after_results_simp <;> rfl
theorem after_arg10 : StableHlo.after (Cert.ReferenceIdeal.Value.ops (F := F)) W (Proc.devRef .tc main_arg10) = W (Proc.devRef .tc main_arg10) := by
  after_results_simp <;> rfl

end Stretches

/-! ## The run -/

set_option maxRecDepth 8192 in
set_option maxHeartbeats 37600000 in
/-- On every device, for any float values, from any memory with zero counters: every weakly fair execution of
    the reference program terminates with its result at the last stage of the arguments' launch contents and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v75).trans (after_v75 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c)),
      (h c main_arg8).trans (after_arg8 (launchContents m c)),
      (h c main_arg9).trans (after_arg9 (launchContents m c)),
      (h c main_arg10).trans (after_arg10 (launchContents m c))⟩)
    (run_seq Cert.ReferenceIdeal.Value.scopedRefs_eq Cert.ReferenceIdeal.Value.scopedSems_eq defs main (fun _ => Cert.ReferenceIdeal.Value.ops) Cert.ReferenceIdeal.Value.main_eq (fun _ => Cert.ReferenceIdeal.Value.ops_sub) m ρ)

end Cert.ReferenceIdeal.RefRun

end
-- ==== Proof.Claims.lean ====
/-
  The reference's frame claim and the equivalence claim between the idealised kernel program and the reference.

  Both programs are read at the extended reals. The kernel program's run leaves every buffer it keeps at the last
  contents of its fold over host stretches and kernels; its result buffer there is the reference's last stage of
  the arguments, and its argument buffers are as launched. The reference's run leaves its result at its last stage
  of its own arguments and the arguments as launched. From memories that agree on the arguments the two results are
  therefore one array.
-/
import proofs.«103189_j64295660421655_2_alg».proof.Defs
import proofs.«103189_j64295660421655_2_alg».proof.Proof.KIRun
import proofs.«103189_j64295660421655_2_alg».proof.Proof.ValueEq
import proofs.«103189_j64295660421655_2_alg».proof.Proof.RefRun
import proofs.«103189_j64295660421655_2_alg».proof.Proof.Gen.Pre_finite_inputs

noncomputable section

namespace Cert.Proof.Claims

open Idealize.ShloMosaic Idealize.ShloMosaic.TcCoe Idealize.SL.Sem

/-- The reference program runs and leaves its arguments unchanged: its run with the result dropped. -/
theorem frame_ref : Cert.frame_ReferenceIdeal := fun m ρ _ =>
  (θ_run Cert.ReferenceIdeal.defs _ _).mono (fun _ h c => (h c).2) (Cert.ReferenceIdeal.RefRun.run (F := Ideal) m ρ)

/-- From memories that agree on the arguments both programs run, leave their arguments unchanged, and end with the
    same result: the reference's last stage of the arguments. The kernel program's result buffer holds it by the
    stage-by-stage comparison; the reference's holds it by its own run, read at arguments that agree. -/
theorem algebraic : Cert.algebraic_KernelIdeal_ReferenceIdeal := by
  intro m ρ m' ρ' _ hagree
  refine ⟨fun c => Cert.ReferenceIdeal.Read.val_main_v75 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v65 (by decide))).trans (Cert.Bridge.value_eq m c),
      (h c _ (Cert.KernelIdeal.Hand.mem_uc Cert.KernelIdeal.main_arg0 (by decide))).trans (Cert.KernelIdeal.Hand.W6_main_arg0 m c),
      (h c _ (Cert.KernelIdeal.Hand.mem_uc Cert.KernelIdeal.main_arg1 (by decide))).trans (Cert.KernelIdeal.Hand.W6_main_arg1 m c),
      (h c _ (Cert.KernelIdeal.Hand.mem_uc Cert.KernelIdeal.main_arg2 (by decide))).trans (Cert.KernelIdeal.Hand.W6_main_arg2 m c),
      (h c _ (Cert.KernelIdeal.Hand.mem_uc Cert.KernelIdeal.main_arg3 (by decide))).trans (Cert.KernelIdeal.Hand.W6_main_arg3 m c),
      (h c _ (Cert.KernelIdeal.Hand.mem_uc Cert.KernelIdeal.main_arg4 (by decide))).trans (Cert.KernelIdeal.Hand.W6_main_arg4 m c),
      (h c _ (Cert.KernelIdeal.Hand.mem_uc Cert.KernelIdeal.main_arg5 (by decide))).trans (Cert.KernelIdeal.Hand.W6_main_arg5 m c),
      (h c _ (Cert.KernelIdeal.Hand.mem_uc Cert.KernelIdeal.main_arg6 (by decide))).trans (Cert.KernelIdeal.Hand.W6_main_arg6 m c),
      (h c _ (Cert.KernelIdeal.Hand.mem_uc Cert.KernelIdeal.main_arg7 (by decide))).trans (Cert.KernelIdeal.Hand.W6_main_arg7 m c),
      (h c _ (Cert.KernelIdeal.Hand.mem_uc Cert.KernelIdeal.main_arg8 (by decide))).trans (Cert.KernelIdeal.Hand.W6_main_arg8 m c),
      (h c _ (Cert.KernelIdeal.Hand.mem_uc Cert.KernelIdeal.main_arg9 (by decide))).trans (Cert.KernelIdeal.Hand.W6_main_arg9 m c),
      (h c _ (Cert.KernelIdeal.Hand.mem_uc Cert.KernelIdeal.main_arg10 (by decide))).trans (Cert.KernelIdeal.Hand.W6_main_arg10 m c)⟩
  · refine (θ_run Cert.ReferenceIdeal.defs _ _).mono (fun r h c => ⟨(h c).1.trans ?_, (h c).2⟩)
      (Cert.ReferenceIdeal.RefRun.run (F := Ideal) m' ρ')
    obtain ⟨a0, a1, a2, a3, a4, a5, a6, a7, a8, a9, a10⟩ := hagree c
    rw [a0, a1, a2, a3, a4, a5, a6, a7, a8, a9, a10]

end Cert.Proof.Claims

end
-- ==== Proof.lean ====
/-
  A graph-attention layer and its reference agree on the extended reals.

  The program projects the node features to queries, keys and values by one tiled matrix kernel, the three projection
  matrices laid side by side. On the host it gathers, per edge, the target's query row and the source's key and value
  rows, scores each edge and head by the scaled inner product over the head's lanes plus an edge bias, scales a
  negative score by one fifth, subtracts the one maximum of all scores and exponentiates; it then sums the weights,
  and the values weighted edge by edge, per target node. A second tiled kernel divides the aggregate by the weight
  sum clipped from below, applies the output projection and its bias, mixes the features and the projected aggregate
  by the two halves of the mixing matrix, adds the mixing bias and clips at zero. The reference divides each edge's
  weight by its target's clipped weight sum before aggregating, and mixes by one product of the features and the
  projected aggregate joined to 256 columns with the whole mixing matrix.

  On the extended reals the two agree. A change of float format is the identity there, so each kernel's blocks are
  restrictions of one whole-array function and tile it. The inverse of the clipped weight sum is a nonnegative finite
  factor, so dividing after the sum over the edges entering a node equals dividing each term; and the inner product
  over 256 columns is the sum of the two inner products over 128 columns against the halves of the mixing matrix.

  The claims: the program as printed, at bit patterns, and the same text read at the extended reals each run to the
  end and leave their arguments as launched; the reading at the extended reals rewrites no operation; the reference
  runs to the end and leaves its arguments as launched; and from memories that agree on the arguments the program at
  the extended reals and the reference end with the same result array.
-/
import proofs.«103189_j64295660421655_2_alg».proof.Defs
import proofs.«103189_j64295660421655_2_alg».proof.Proof.Gen.Kernel
import proofs.«103189_j64295660421655_2_alg».proof.Proof.Gen.Kernel.Skeleton
import proofs.«103189_j64295660421655_2_alg».proof.Proof.Gen.Kernel.Launch
import proofs.«103189_j64295660421655_2_alg».proof.Proof.Gen.Kernel.Regions
import proofs.«103189_j64295660421655_2_alg».proof.Proof.Gen.Kernel.Points
import proofs.«103189_j64295660421655_2_alg».proof.Proof.Gen.KernelIdeal
import proofs.«103189_j64295660421655_2_alg».proof.Proof.Gen.KernelIdeal.Skeleton
import proofs.«103189_j64295660421655_2_alg».proof.Proof.Gen.KernelIdeal.Launch
import proofs.«103189_j64295660421655_2_alg».proof.Proof.Gen.KernelIdeal.Regions
import proofs.«103189_j64295660421655_2_alg».proof.Proof.Gen.KernelIdeal.Points
import proofs.«103189_j64295660421655_2_alg».proof.Proof.Gen.ReferenceIdeal
import proofs.«103189_j64295660421655_2_alg».proof.Proof.Gen.Pre_finite_inputs
import proofs.«103189_j64295660421655_2_alg».proof.Proof.FrameClaims
import proofs.«103189_j64295660421655_2_alg».proof.Proof.Claims
import Idealize.ShloMosaic.Adequacy
import Idealize.ShloMosaic.Init

noncomputable section

namespace Cert.Proof

open Idealize.ShloMosaic Idealize.SL.Sem

/-- Everything the certificate claims, under the side conditions the generated modules prove of the three programs
    and of the precondition. -/
theorem claim : Cert.Claim :=
  ⟨Cert.Kernel.Gen.facts, Cert.KernelIdeal.Gen.facts, Cert.ReferenceIdeal.Gen.facts, Cert.Pre_finite_inputs.Gen.facts,
    frame_word, frame_ideal, Claims.frame_ref, trivial, Claims.algebraic⟩

end Cert.Proof

end
